-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S256 : Shape := ⟨1, ![256]⟩
abbrev S512x256 : Shape := ⟨2, ![512, 256]⟩
abbrev S512 : Shape := ⟨1, ![512]⟩
abbrev S512x512 : Shape := ⟨2, ![512, 512]⟩
abbrev S1024x512 : Shape := ⟨2, ![1024, 512]⟩
abbrev S1024 : Shape := ⟨1, ![1024]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024x512 .f32) (main_arg12 : FVec F S1024 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S1024x512 .f32 := Host.absf main_arg11
  let main_cst_20 : FVec F S_ .f32 := constant S_ .f32 0x7F800000#32
  let main_v55 : FVec F S1024x512 .f32 := broadcastInDim S1024x512 ![] bcast_S_S1024x512 main_cst_20
  let main_v56 : IVec S1024x512 1 := cmpf .olt main_v54 main_v55
  let main_c_21 : IVec S_ 1 := constantI S_ 1 1#1
  let main_v57 : IVec S_ 1 := (fun x v => Host.reduce IntOp.andi x v reducesTo_S1024x512_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S512 .f32) (main_arg10 : FVec F S512 .f32) (main_arg11 : FVec F S1024x512 .f32) (main_arg12 : FVec F S1024 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S1024x512 .f32) (main_arg12 : FVec F S1024 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x2048x256 .f32) (main_arg1 : FVec F S256 .f32) (main_arg2 : FVec F S256 .f32) (main_arg3 : FVec F S512x256 .f32) (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S1024x512 .f32) (main_arg12 : FVec F S1024 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S32x2048x256 : Shape := ⟨3, ![32, 2048, 256]⟩
abbrev S256 : Shape := ⟨1, ![256]⟩
abbrev S512x256 : Shape := ⟨2, ![512, 256]⟩
abbrev S512 : Shape := ⟨1, ![512]⟩
abbrev S512x512 : Shape := ⟨2, ![512, 512]⟩
abbrev S1024x512 : Shape := ⟨2, ![1024, 512]⟩
abbrev S1024 : Shape := ⟨1, ![1024]⟩
abbrev S65536x256 : Shape := ⟨2, ![65536, 256]⟩
abbrev S256x256 : Shape := ⟨2, ![256, 256]⟩
abbrev S2048x256 : Shape := ⟨2, ![2048, 256]⟩
abbrev S8x256 : Shape := ⟨2, ![8, 256]⟩
abbrev S1x256 : Shape := ⟨2, ![1, 256]⟩
abbrev S32x8x256 : Shape := ⟨3, ![32, 8, 256]⟩
abbrev S_ : Shape := ⟨0, ![]⟩
abbrev S1x512 : Shape := ⟨2, ![1, 512]⟩
abbrev S256x512 : Shape := ⟨2, ![256, 512]⟩
abbrev S65536x512 : Shape := ⟨2, ![65536, 512]⟩
abbrev S2048x512 : Shape := ⟨2, ![2048, 512]⟩
abbrev S8x512 : Shape := ⟨2, ![8, 512]⟩
abbrev S32x8x512 : Shape := ⟨3, ![32, 8, 512]⟩
abbrev S1x1024 : Shape := ⟨2, ![1, 1024]⟩
abbrev S512x1024 : Shape := ⟨2, ![512, 1024]⟩
abbrev S32x1x1024 : Shape := ⟨3, ![32, 1, 1024]⟩
abbrev S1x1x1024 : Shape := ⟨3, ![1, 1, 1024]⟩
abbrev S2048x1024 : Shape := ⟨2, ![2048, 1024]⟩
abbrev S32x1024 : Shape := ⟨2, ![32, 1024]⟩

abbrev nBuf : Space → Nat
  | .hbm => 96
  | .vmem => 44
  | .smem => 0
  | _ => 0

abbrev bufTy : (tb : Table) → Fin (tcTables nBuf tb) → BufTy
  | .hbm, ⟨0, _⟩ => ⟨S32x2048x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x512, .f32⟩
  | .hbm, ⟨12, _⟩ => ⟨S1024, .f32⟩
  | .hbm, ⟨13, _⟩ => ⟨S65536x256, .f32⟩
  | .hbm, ⟨14, _⟩ => ⟨S256x256, .f32⟩
  | .hbm, ⟨15, _⟩ => ⟨S256x256, .f32⟩
  | .hbm, ⟨16, _⟩ => ⟨S32x8x256, .f32⟩
  | .hbm, ⟨17, _⟩ => ⟨S_, .f32⟩
  | .hbm, ⟨18, _⟩ => ⟨S256, .f32⟩
  | .hbm, ⟨19, _⟩ => ⟨S32x8x256, .f32⟩
  | .hbm, ⟨20, _⟩ => ⟨S_, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x512, .f32⟩
  | .hbm, ⟨38, _⟩ => ⟨S256x512, .f32⟩
  | .hbm, ⟨39, _⟩ => ⟨S256x512, .bf16⟩
  | .hbm, ⟨40, _⟩ => ⟨S65536x512, .f32⟩
  | .hbm, ⟨41, _⟩ => ⟨S256x512, .f32⟩
  | .hbm, ⟨42, _⟩ => ⟨S256x512, .f32⟩
  | .hbm, ⟨43, _⟩ => ⟨S32x8x512, .f32⟩
  | .hbm, ⟨44, _⟩ => ⟨S_, .f32⟩
  | .hbm, ⟨45, _⟩ => ⟨S512, .f32⟩
  | .hbm, ⟨46, _⟩ => ⟨S32x8x512, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S512x512, .f32⟩
  | .hbm, ⟨66, _⟩ => ⟨S512x512, .bf16⟩
  | .hbm, ⟨67, _⟩ => ⟨S65536x512, .f32⟩
  | .hbm, ⟨68, _⟩ => ⟨S256x512, .f32⟩
  | .hbm, ⟨69, _⟩ => ⟨S256x512, .f32⟩
  | .hbm, ⟨70, _⟩ => ⟨S32x8x512, .f32⟩
  | .hbm, ⟨71, _⟩ => ⟨S_, .f32⟩
  | .hbm, ⟨72, _⟩ => ⟨S512, .f32⟩
  | .hbm, ⟨73, _⟩ => ⟨S32x8x512, .f32⟩
  | .hbm, ⟨74, _⟩ => ⟨S_, .f32⟩
  | .hbm, ⟨75, _⟩ => ⟨S512, .f32⟩
  | .hbm, ⟨76, _⟩ => ⟨S_, .f32⟩
  | .hbm, ⟨77, _⟩ => ⟨S512, .f32⟩
  | .hbm, ⟨78, _⟩ => ⟨S512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S512, .f32⟩
  | .hbm, ⟨83, _⟩ => ⟨S512, .f32⟩
  | .hbm, ⟨84, _⟩ => ⟨S_, .f32⟩
  | .hbm, ⟨85, _⟩ => ⟨S512, .f32⟩
  | .hbm, ⟨86, _⟩ => ⟨S512, .f32⟩
  | .hbm, ⟨87, _⟩ => ⟨S1x512, .f32⟩
  | .hbm, ⟨88, _⟩ => ⟨S1x512, .f32⟩
  | .hbm, ⟨89, _⟩ => ⟨S1x512, .f32⟩
  | .hbm, ⟨90, _⟩ => ⟨S1x512, .f32⟩
  | .hbm, ⟨91, _⟩ => ⟨S1x1024, .f32⟩
  | .hbm, ⟨92, _⟩ => ⟨S512x1024, .f32⟩
  | .hbm, ⟨93, _⟩ => ⟨S512x1024, .bf16⟩
  | .hbm, ⟨94, _⟩ => ⟨S32x1x1024, .f32⟩
  | .hbm, ⟨95, _⟩ => ⟨S32x1024, .f32⟩
  | .local _ .vmem, ⟨0, _⟩ => ⟨S2048x256, .f32⟩
  | .local _ .vmem, ⟨1, _⟩ => ⟨S2048x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x512, .bf16⟩
  | .local _ .vmem, ⟨13, _⟩ => ⟨S1x512, .f32⟩
  | .local _ .vmem, ⟨14, _⟩ => ⟨S2048x512, .f32⟩
  | .local _ .vmem, ⟨15, _⟩ => ⟨S2048x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S2048x512, .f32⟩
  | .local _ .vmem, ⟨21, _⟩ => ⟨S2048x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S512x512, .bf16⟩
  | .local _ .vmem, ⟨27, _⟩ => ⟨S1x512, .f32⟩
  | .local _ .vmem, ⟨28, _⟩ => ⟨S2048x512, .f32⟩
  | .local _ .vmem, ⟨29, _⟩ => ⟨S2048x512, .f32⟩
  | .local _ .vmem, ⟨30, _⟩ => ⟨S8x512, .f32⟩
  | .local _ .vmem, ⟨31, _⟩ => ⟨S8x512, .f32⟩
  | .local _ .vmem, ⟨32, _⟩ => ⟨S8x512, .f32⟩
  | .local _ .vmem, ⟨33, _⟩ => ⟨S8x512, .f32⟩
  | .local _ .vmem, ⟨34, _⟩ => ⟨S2048x512, .f32⟩
  | .local _ .vmem, ⟨35, _⟩ => ⟨S2048x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S512x1024, .bf16⟩
  | .local _ .vmem, ⟨41, _⟩ => ⟨S1x1024, .f32⟩
  | .local _ .vmem, ⟨42, _⟩ => ⟨S1x1x1024, .f32⟩
  | .local _ .vmem, ⟨43, _⟩ => ⟨S1x1x1024, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41_0 : Ref sig .tc := ⟨.hbm, 67, rfl⟩
abbrev main_v41_1 : Ref sig .tc := ⟨.hbm, 68, rfl⟩
abbrev main_v41_2 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem8_1 : DmaSem sig := 31
abbrev cc2_sem9_0 : DmaSem sig := 32
abbrev cc2_sem9_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S8x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1x1x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S32x2048x256_S65536x256 : S32x2048x256.ShapeCasts S65536x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  iota_S8x256_d0_w32 : S8x256.Iotas .tc 32 [0]
  reduces_S2048x256_S256 : S2048x256.Reduces [0] S256
  shapeCasts_S256_S1x256 : S256.ShapeCasts S1x256
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  shapeCasts_S256x256_S32x8x256 : S256x256.ShapeCasts S32x8x256
  reducesTo_S32x8x256_S256_d0_1 : S32x8x256.ReducesTo [0, 1] S256
  h_S_ : 0 < S_.numel
  bcast_S_S256 : S_.BroadcastsInDim S256 (![] : Fin 0 → Fin S256.rank)
  shapeCasts_S512_S1x512 : S512.ShapeCasts S1x512
  transposes_S512x256_S256x512_1_0 : S512x256.Transposes [1, 0] S256x512
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  broadcasts_S1x256_S2048x256 : S1x256.Broadcasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  iota_S8x512_d0_w32 : S8x512.Iotas .tc 32 [0]
  reduces_S2048x512_S512 : S2048x512.Reduces [0] S512
  broadcasts_S1x512_S8x512 : S1x512.Broadcasts S8x512
  inb_S8x512_S8x512_0_0 : ∀ a, (![0, 0] : Fin 2 → Nat) a + S8x512.size a ≤ S8x512.size a
  h_S8x512 : 0 < S8x512.numel
  shapeCasts_S256x512_S32x8x512 : S256x512.ShapeCasts S32x8x512
  reducesTo_S32x8x512_S512_d0_1 : S32x8x512.ReducesTo [0, 1] S512
  bcast_S_S512 : S_.BroadcastsInDim S512 (![] : Fin 0 → Fin S512.rank)
  transposes_S512x512_S512x512_1_0 : S512x512.Transposes [1, 0] S512x512
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1024_S1x1024 : S1024.ShapeCasts S1x1024
  transposes_S1024x512_S512x1024_1_0 : S1024x512.Transposes [1, 0] S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S1024 : S2048x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S32x1x1024_S32x1024 : S32x1x1024.ShapeCasts S32x1024
  dot_S2048x256_S256x512_S2048x512_1_0_0_1_n_n_wf : DotDims.WF S2048x256 S256x512 S2048x512 [1] [0] [0] [1] [] []
  dot_S2048x512_S512x512_S2048x512_1_0_0_1_n_n_wf : DotDims.WF S2048x512 S512x512 S2048x512 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S256x256.size a
  hwx0_1 : ∀ i : grid0.Coords, EltTy.bits .f32 = 32 ∨ (Rect.block (s := S256x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S256x256.size a
  hwx0_2 : ∀ i : grid0.Coords, EltTy.bits .f32 = 32 ∨ (Rect.block (s := S256x256) S8x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S256x512.size a
  hwx1_5 : ∀ i : grid1.Coords, EltTy.bits .bf16 = 32 ∨ (Rect.block (s := S256x512) S256x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x512.size a ≤ S65536x512.size a
  hwx1_7 : ∀ i : grid1.Coords, EltTy.bits .f32 = 32 ∨ (Rect.block (s := S65536x512) S2048x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x512.size a ≤ S256x512.size a
  hwx1_8 : ∀ i : grid1.Coords, EltTy.bits .f32 = 32 ∨ (Rect.block (s := S256x512) S8x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x512.size a ≤ S256x512.size a
  hwx1_9 : ∀ i : grid1.Coords, EltTy.bits .f32 = 32 ∨ (Rect.block (s := S256x512) S8x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S65536x512.size a
  hwx2_0 : ∀ i : grid2.Coords, EltTy.bits .f32 = 32 ∨ (Rect.block (s := S65536x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .bf16 = 32 ∨ (Rect.block (s := S512x512) S512x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x512.size a ≤ S65536x512.size a
  hwx2_7 : ∀ i : grid2.Coords, EltTy.bits .f32 = 32 ∨ (Rect.block (s := S65536x512) S2048x512.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x512.size a ≤ S256x512.size a
  hwx2_8 : ∀ i : grid2.Coords, EltTy.bits .f32 = 32 ∨ (Rect.block (s := S256x512) S8x512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8x512.size a ≤ S256x512.size a
  hwx2_9 : ∀ i : grid2.Coords, EltTy.bits .f32 = 32 ∨ (Rect.block (s := S256x512) S8x512.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S65536x512.size a
  hwx3_0 : ∀ i : grid3.Coords, EltTy.bits .f32 = 32 ∨ (Rect.block (s := S65536x512) S2048x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1024.size a ≤ S512x1024.size a
  hwx3_5 : ∀ i : grid3.Coords, EltTy.bits .bf16 = 32 ∨ (Rect.block (s := S512x1024) S512x1024.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1024.size a ≤ S1x1024.size a
  hwx3_6 : ∀ i : grid3.Coords, EltTy.bits .f32 = 32 ∨ (Rect.block (s := S1x1024) S1x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x1x1024.size a ≤ S32x1x1024.size a
  hwx3_7 : ∀ i : grid3.Coords, EltTy.bits .f32 = 32 ∨ (Rect.block (s := S32x1x1024) S1x1x1024.size (cc3_transform_7 i) (hinb3_7 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S256x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21_0) S2048x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v21_1) S8x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v21_2) S8x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v21_0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41_0) S2048x512.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v41_1) S8x512.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v41_2) S8x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v41_0) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S512x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58) S1x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v61) S1x1x1024.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S32x2048x256 : Shape := ⟨3, ![32, 2048, 256]⟩
abbrev S256 : Shape := ⟨1, ![256]⟩
abbrev S512x256 : Shape := ⟨2, ![512, 256]⟩
abbrev S512 : Shape := ⟨1, ![512]⟩
abbrev S512x512 : Shape := ⟨2, ![512, 512]⟩
abbrev S1024x512 : Shape := ⟨2, ![1024, 512]⟩
abbrev S1024 : Shape := ⟨1, ![1024]⟩
abbrev S_ : Shape := ⟨0, ![]⟩
abbrev S1x1x256 : Shape := ⟨3, ![1, 1, 256]⟩
abbrev S32x2048x512 : Shape := ⟨3, ![32, 2048, 512]⟩
abbrev S1x1x512 : Shape := ⟨3, ![1, 1, 512]⟩
abbrev S32x2048x1024 : Shape := ⟨3, ![32, 2048, 1024]⟩
abbrev S1x1x1024 : Shape := ⟨3, ![1, 1, 1024]⟩
abbrev S32x1024 : Shape := ⟨2, ![32, 1024]⟩

abbrev nBuf : Space → Nat
  | .hbm => 123
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x512, .f32⟩
  | .hbm, ⟨12, _⟩ => ⟨S1024, .f32⟩
  | .hbm, ⟨13, _⟩ => ⟨S_, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S1x1x256, .f32⟩
  | .hbm, ⟨19, _⟩ => ⟨S32x2048x256, .f32⟩
  | .hbm, ⟨20, _⟩ => ⟨S32x2048x256, .f32⟩
  | .hbm, ⟨21, _⟩ => ⟨S32x2048x256, .f32⟩
  | .hbm, ⟨22, _⟩ => ⟨S_, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x1x256, .f32⟩
  | .hbm, ⟨28, _⟩ => ⟨S32x2048x256, .f32⟩
  | .hbm, ⟨29, _⟩ => ⟨S32x2048x256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S1x1x256, .f32⟩
  | .hbm, ⟨35, _⟩ => ⟨S32x2048x256, .f32⟩
  | .hbm, ⟨36, _⟩ => ⟨S32x2048x256, .f32⟩
  | .hbm, ⟨37, _⟩ => ⟨S1x1x256, .f32⟩
  | .hbm, ⟨38, _⟩ => ⟨S32x2048x256, .f32⟩
  | .hbm, ⟨39, _⟩ => ⟨S32x2048x256, .f32⟩
  | .hbm, ⟨40, _⟩ => ⟨S1x1x256, .f32⟩
  | .hbm, ⟨41, _⟩ => ⟨S32x2048x256, .f32⟩
  | .hbm, ⟨42, _⟩ => ⟨S32x2048x256, .f32⟩
  | .hbm, ⟨43, _⟩ => ⟨S32x2048x512, .f32⟩
  | .hbm, ⟨44, _⟩ => ⟨S1x1x512, .f32⟩
  | .hbm, ⟨45, _⟩ => ⟨S32x2048x512, .f32⟩
  | .hbm, ⟨46, _⟩ => ⟨S32x2048x512, .f32⟩
  | .hbm, ⟨47, _⟩ => ⟨S_, .f32⟩
  | .hbm, ⟨48, _⟩ => ⟨S32x2048x512, .f32⟩
  | .hbm, ⟨49, _⟩ => ⟨S32x2048x512, .f32⟩
  | .hbm, ⟨50, _⟩ => ⟨S_, .f32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S1x1x512, .f32⟩
  | .hbm, ⟨56, _⟩ => ⟨S32x2048x512, .f32⟩
  | .hbm, ⟨57, _⟩ => ⟨S32x2048x512, .f32⟩
  | .hbm, ⟨58, _⟩ => ⟨S32x2048x512, .f32⟩
  | .hbm, ⟨59, _⟩ => ⟨S_, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S1x1x512, .f32⟩
  | .hbm, ⟨65, _⟩ => ⟨S32x2048x512, .f32⟩
  | .hbm, ⟨66, _⟩ => ⟨S32x2048x512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S512, .f32⟩
  | .hbm, ⟨71, _⟩ => ⟨S1x1x512, .f32⟩
  | .hbm, ⟨72, _⟩ => ⟨S32x2048x512, .f32⟩
  | .hbm, ⟨73, _⟩ => ⟨S32x2048x512, .f32⟩
  | .hbm, ⟨74, _⟩ => ⟨S1x1x512, .f32⟩
  | .hbm, ⟨75, _⟩ => ⟨S32x2048x512, .f32⟩
  | .hbm, ⟨76, _⟩ => ⟨S32x2048x512, .f32⟩
  | .hbm, ⟨77, _⟩ => ⟨S1x1x512, .f32⟩
  | .hbm, ⟨78, _⟩ => ⟨S32x2048x512, .f32⟩
  | .hbm, ⟨79, _⟩ => ⟨S32x2048x512, .f32⟩
  | .hbm, ⟨80, _⟩ => ⟨S32x2048x512, .f32⟩
  | .hbm, ⟨81, _⟩ => ⟨S1x1x512, .f32⟩
  | .hbm, ⟨82, _⟩ => ⟨S32x2048x512, .f32⟩
  | .hbm, ⟨83, _⟩ => ⟨S32x2048x512, .f32⟩
  | .hbm, ⟨84, _⟩ => ⟨S_, .f32⟩
  | .hbm, ⟨85, _⟩ => ⟨S32x2048x512, .f32⟩
  | .hbm, ⟨86, _⟩ => ⟨S32x2048x512, .f32⟩
  | .hbm, ⟨87, _⟩ => ⟨S_, .f32⟩
  | .hbm, ⟨88, _⟩ => ⟨S512, .f32⟩
  | .hbm, ⟨89, _⟩ => ⟨S_, .f32⟩
  | .hbm, ⟨90, _⟩ => ⟨S512, .f32⟩
  | .hbm, ⟨91, _⟩ => ⟨S512, .f32⟩
  | .hbm, ⟨92, _⟩ => ⟨S1x1x512, .f32⟩
  | .hbm, ⟨93, _⟩ => ⟨S32x2048x512, .f32⟩
  | .hbm, ⟨94, _⟩ => ⟨S32x2048x512, .f32⟩
  | .hbm, ⟨95, _⟩ => ⟨S32x2048x512, .f32⟩
  | .hbm, ⟨96, _⟩ => ⟨S_, .f32⟩
  | .hbm, ⟨97, _⟩ => ⟨S512, .f32⟩
  | .hbm, ⟨98, _⟩ => ⟨S_, .f32⟩
  | .hbm, ⟨99, _⟩ => ⟨S512, .f32⟩
  | .hbm, ⟨100, _⟩ => ⟨S512, .f32⟩
  | .hbm, ⟨101, _⟩ => ⟨S1x1x512, .f32⟩
  | .hbm, ⟨102, _⟩ => ⟨S32x2048x512, .f32⟩
  | .hbm, ⟨103, _⟩ => ⟨S32x2048x512, .f32⟩
  | .hbm, ⟨104, _⟩ => ⟨S_, .f32⟩
  | .hbm, ⟨105, _⟩ => ⟨S512, .f32⟩
  | .hbm, ⟨106, _⟩ => ⟨S512, .f32⟩
  | .hbm, ⟨107, _⟩ => ⟨S512, .f32⟩
  | .hbm, ⟨108, _⟩ => ⟨S1x1x512, .f32⟩
  | .hbm, ⟨109, _⟩ => ⟨S32x2048x512, .f32⟩
  | .hbm, ⟨110, _⟩ => ⟨S32x2048x512, .f32⟩
  | .hbm, ⟨111, _⟩ => ⟨S1x1x512, .f32⟩
  | .hbm, ⟨112, _⟩ => ⟨S32x2048x512, .f32⟩
  | .hbm, ⟨113, _⟩ => ⟨S32x2048x512, .f32⟩
  | .hbm, ⟨114, _⟩ => ⟨S1x1x512, .f32⟩
  | .hbm, ⟨115, _⟩ => ⟨S32x2048x512, .f32⟩
  | .hbm, ⟨116, _⟩ => ⟨S32x2048x512, .f32⟩
  | .hbm, ⟨117, _⟩ => ⟨S32x2048x1024, .f32⟩
  | .hbm, ⟨118, _⟩ => ⟨S1x1x1024, .f32⟩
  | .hbm, ⟨119, _⟩ => ⟨S32x2048x1024, .f32⟩
  | .hbm, ⟨120, _⟩ => ⟨S32x2048x1024, .f32⟩
  | .hbm, ⟨121, _⟩ => ⟨S_, .f32⟩
  | .hbm, ⟨122, _⟩ => ⟨S32x1024, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_14 : Ref sig .tc := ⟨.hbm, 121, rfl⟩
abbrev main_v89 : Ref sig .tc := ⟨.hbm, 122, rfl⟩

abbrev nD : Nat := 1
abbrev τ : Topo := Topo.v7x

variable {F : FTy → Type} [FloatOps F]

class Facts₀ : Prop where
  reducesTo_S32x2048x256_S256_d0_1 : S32x2048x256.ReducesTo [0, 1] S256
  h_S_ : 0 < S_.numel
  bcast_S_S256 : S_.BroadcastsInDim S256 (![] : Fin 0 → Fin S256.rank)
  bcast_S256_S1x1x256_2 : S256.BroadcastsInDim S1x1x256 (![2] : Fin 1 → Fin S1x1x256.rank)
  bcast_S1x1x256_S32x2048x256_0_1_2 : S1x1x256.BroadcastsInDim S32x2048x256 (![0, 1, 2] : Fin 3 → Fin S32x2048x256.rank)
  bcast_S512_S1x1x512_2 : S512.BroadcastsInDim S1x1x512 (![2] : Fin 1 → Fin S1x1x512.rank)
  bcast_S1x1x512_S32x2048x512_0_1_2 : S1x1x512.BroadcastsInDim S32x2048x512 (![0, 1, 2] : Fin 3 → Fin S32x2048x512.rank)
  bcast_S_S32x2048x512 : S_.BroadcastsInDim S32x2048x512 (![] : Fin 0 → Fin S32x2048x512.rank)
  reducesTo_S32x2048x512_S512_d0_1 : S32x2048x512.ReducesTo [0, 1] S512
  bcast_S_S512 : S_.BroadcastsInDim S512 (![] : Fin 0 → Fin S512.rank)
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  reducesTo_S32x2048x1024_S32x1024_d1 : S32x2048x1024.ReducesTo [1] S32x1024
  dot_S32x2048x256_S512x256_S32x2048x512_2_1_01_0_n_n_wf : DotDims.WF S32x2048x256 S512x256 S32x2048x512 [2] [1] [0, 1] [0] [] []
  dot_S32x2048x512_S512x512_S32x2048x512_2_1_01_0_n_n_wf : DotDims.WF S32x2048x512 S512x512 S32x2048x512 [2] [1] [0, 1] [0] [] []
  dot_S32x2048x512_S1024x512_S32x2048x1024_2_1_01_0_n_n_wf : DotDims.WF S32x2048x512 S1024x512 S32x2048x1024 [2] [1] [0, 1] [0] [] []

variable [Facts₀]

def dot_S32x2048x256_S512x256_S32x2048x512_2_1_01_0_n_n : DotDims S32x2048x256 S512x256 S32x2048x512 where
  lhsContracting := [2]
  rhsContracting := [1]
  lhsNonContracting := [0, 1]
  rhsNonContracting := [0]
  lhsBatch := []
  rhsBatch := []
  wf := dot_S32x2048x256_S512x256_S32x2048x512_2_1_01_0_n_n_wf
def dot_S32x2048x512_S512x512_S32x2048x512_2_1_01_0_n_n : DotDims S32x2048x512 S512x512 S32x2048x512 where
  lhsContracting := [2]
  rhsContracting := [1]
  lhsNonContracting := [0, 1]
  rhsNonContracting := [0]
  lhsBatch := []
  rhsBatch := []
  wf := dot_S32x2048x512_S512x512_S32x2048x512_2_1_01_0_n_n_wf
def dot_S32x2048x512_S1024x512_S32x2048x1024_2_1_01_0_n_n : DotDims S32x2048x512 S1024x512 S32x2048x1024 where
  lhsContracting := [2]
  rhsContracting := [1]
  lhsNonContracting := [0, 1]
  rhsNonContracting := [0]
  lhsBatch := []
  rhsBatch := []
  wf := dot_S32x2048x512_S1024x512_S32x2048x1024_2_1_01_0_n_n_wf

class Facts : Prop extends Facts₀ where

variable [Facts]
-- ==== Proof.Spec.lean ====
/-
  The network both programs compute, as plain functions on the extended reals.

  A "batch-norm + linear" layer acts on a table `x : ι → Fin D → EReal` (rows `ι`, features `Fin D`):
  every column is centred by its mean over all rows, scaled by `1/√(variance + ε)`, by `g`, shifted by `b`;
  the rows are then multiplied by `Wᵀ` and shifted by `c`.  The column variance is written in two ways:
  CENTRED, the mean of `(x - mean)²`, and by MOMENTS, `max (mean of x² - mean², 0)`.  Over real entries
  and with `cnt` the number of rows the two agree (Proof/Algebra.lean).  Three layers, the first two followed by
  `max · 0`, and a maximum over the second row coordinate give the result.
-/
import Idealize.ShloMosaic.PureOps.Ideal
import Mathlib.Algebra.BigOperators.Group.Finset.Basic
import Mathlib.Order.CompleteLattice.Finset

noncomputable section

namespace Cert.BN

open Idealize.ShloMosaic

/-- The variance floor `ε` (the f32 nearest to `1e-5`), the same word in both programs. -/
def eps : EReal := Ideal.ofBits .f32 0x3727C5AC#32
/-- The row count `65536` as both programs spell it. -/
def cnt : EReal := Ideal.ofBits .f32 0x47800000#32

variable {ι : Type} [Fintype ι] {D O : ℕ}

/-- Column mean: the column's sum over all rows, divided by `cnt`. -/
def colMean (x : ι → Fin D → EReal) (d : Fin D) : EReal := Ideal.div (∑ r, x r d) cnt

/-- Column variance, centred form: the mean of the squared deviations from the column mean. -/
def varC (x : ι → Fin D → EReal) (d : Fin D) : EReal :=
  Ideal.div (∑ r, (x r d - colMean x d) * (x r d - colMean x d)) cnt

/-- Column variance by moments: mean of squares minus squared mean, floored at zero. -/
def varM (x : ι → Fin D → EReal) (d : Fin D) : EReal :=
  max (Ideal.div (∑ r, x r d * x r d) cnt - colMean x d * colMean x d) 0

/-- Normalisation of an entry with a given mean and variance per column. -/
def normalize (x : ι → Fin D → EReal) (mu v g b : Fin D → EReal) (r : ι) (d : Fin D) : EReal :=
  (x r d - mu d) * Ideal.rsqrt (v d + eps) * g d + b d

/-- Rows times `Wᵀ`, plus `c`. -/
def affine (xn : ι → Fin D → EReal) (W : Fin O → Fin D → EReal) (c : Fin O → EReal) (r : ι) (o : Fin O) : EReal :=
  (∑ d, xn r d * W o d) + c o

/-- Entrywise `max · 0`. -/
def relu (y : ι → Fin O → EReal) (r : ι) (o : Fin O) : EReal := max (y r o) 0

/-- One layer with the centred variance. -/
def layerC (x : ι → Fin D → EReal) (g b : Fin D → EReal) (W : Fin O → Fin D → EReal) (c : Fin O → EReal) :
    ι → Fin O → EReal :=
  affine (normalize x (colMean x) (varC x) g b) W c

/-- One layer with the variance by moments. -/
def layerM (x : ι → Fin D → EReal) (g b : Fin D → EReal) (W : Fin O → Fin D → EReal) (c : Fin O → EReal) :
    ι → Fin O → EReal :=
  affine (normalize x (colMean x) (varM x) g b) W c

/-- The three layers, centred variance throughout. -/
def netC (x : ι → Fin 256 → EReal) (g0 b0 : Fin 256 → EReal) (W0 : Fin 512 → Fin 256 → EReal) (c0 : Fin 512 → EReal)
    (g1 b1 : Fin 512 → EReal) (W1 : Fin 512 → Fin 512 → EReal) (c1 : Fin 512 → EReal)
    (g2 b2 : Fin 512 → EReal) (W2 : Fin 1024 → Fin 512 → EReal) (c2 : Fin 1024 → EReal) : ι → Fin 1024 → EReal :=
  layerC (relu (layerC (relu (layerC x g0 b0 W0 c0)) g1 b1 W1 c1)) g2 b2 W2 c2

/-- The three layers, variance by moments throughout. -/
def netM (x : ι → Fin 256 → EReal) (g0 b0 : Fin 256 → EReal) (W0 : Fin 512 → Fin 256 → EReal) (c0 : Fin 512 → EReal)
    (g1 b1 : Fin 512 → EReal) (W1 : Fin 512 → Fin 512 → EReal) (c1 : Fin 512 → EReal)
    (g2 b2 : Fin 512 → EReal) (W2 : Fin 1024 → Fin 512 → EReal) (c2 : Fin 1024 → EReal) : ι → Fin 1024 → EReal :=
  layerM (relu (layerM (relu (layerM x g0 b0 W0 c0)) g1 b1 W1 c1)) g2 b2 W2 c2

/-- The result: for set `s` and output feature `o`, the maximum over the set's `2048` members. -/
def setMax (y : Fin 32 × Fin 2048 → Fin 1024 → EReal) (s : Fin 32) (o : Fin 1024) : EReal :=
  Finset.univ.sup fun n : Fin 2048 => y (s, n) o

end Cert.BN

end
-- ==== Proof.LibRowLinear.lean ====
/-
  Two general facts about finite sums of real numbers read in the extended reals. Neither mentions a program.

  1. The cast of a finite sum of reals is the sum of the casts (`coe_finset_sum`).
  2. A product distributes over a sum when every entry is a real number, and so a contraction
     Σ_j (a_j + b_j)·w_j splits into Σ_j a_j·w_j + Σ_j b_j·w_j (`sum_add_mul`). On the extended reals this fails
     without the hypothesis ((⊤ + ⊥)·w against ⊤·w + ⊥·w), so it is the place where a value proof over the extended
     reals uses that its inputs are finite.

  Where it is used here: the kernel forms an edge's key row as (k·Wk)[src] + e·Wk, two matrix products added; the
  reference forms it as (k[src] + e)·Wk, one product of a sum. Entry by entry the first is Σ_j a_j·w_j + Σ_j b_j·w_j
  and the second Σ_j (a_j + b_j)·w_j, with a a row of k, b a row of e and w a column of Wk, all finite by the
  precondition.
-/
import Mathlib.Data.EReal.Operations
import Mathlib.Algebra.BigOperators.Group.Finset.Basic

namespace Idealize.ERealSums

/-- An extended real that is a real number: neither infinity. -/
def IsReal (x : EReal) : Prop := x ≠ ⊤ ∧ x ≠ ⊥

/-- A real number read as an extended real is a real number. -/
theorem isReal_coe (x : ℝ) : IsReal (x : EReal) := ⟨EReal.coe_ne_top x, EReal.coe_ne_bot x⟩

/-- The cast of a finite sum of reals is the sum of the casts. -/
theorem coe_finset_sum {ι : Type} (s : Finset ι) (f : ι → ℝ) :
    ((∑ j ∈ s, f j : ℝ) : EReal) = ∑ j ∈ s, (f j : EReal) := by
  classical
  refine Finset.induction_on s (by simp) fun a t ha ih => ?_
  rw [Finset.sum_insert ha, Finset.sum_insert ha, EReal.coe_add, ih]

/-- On real numbers read as extended reals the product distributes over the sum. -/
theorem coe_add_mul (a b w : ℝ) :
    ((a : EReal) + (b : EReal)) * (w : EReal) = (a : EReal) * (w : EReal) + (b : EReal) * (w : EReal) := by
  rw [← EReal.coe_add, ← EReal.coe_mul, ← EReal.coe_mul, ← EReal.coe_mul, ← EReal.coe_add, add_mul]

/-- The same for extended reals known to be real. -/
theorem add_mul_of_isReal {a b w : EReal} (ha : IsReal a) (hb : IsReal b) (hw : IsReal w) :
    (a + b) * w = a * w + b * w := by
  lift a to ℝ using ha
  lift b to ℝ using hb
  lift w to ℝ using hw
  exact coe_add_mul a b w

/-- A row of sums against a column is the sum of the two rows against it, when every entry is real: the contraction of a
    matrix product is additive in its left factor. -/
theorem sum_add_mul {ι : Type} (s : Finset ι) (a b w : ι → EReal)
    (ha : ∀ j, IsReal (a j)) (hb : ∀ j, IsReal (b j)) (hw : ∀ j, IsReal (w j)) :
    (∑ j ∈ s, (a j + b j) * w j) = (∑ j ∈ s, a j * w j) + ∑ j ∈ s, b j * w j := by
  rw [← Finset.sum_add_distrib]
  exact Finset.sum_congr rfl fun j _ => add_mul_of_isReal (ha j) (hb j) (hw j)

end Idealize.ERealSums
-- ==== Proof.AlgebraVar.lean ====
/-
  The two ways of writing a column variance agree on a table of real numbers.

  Let a column hold real numbers f r, one for each of the N = 65536 rows, with sum S and mean m = S / N. Expanding the
  square, the sum of (f r - m)² over the rows is (sum of f r²) - 2 m S + N m² = (sum of f r²) - N m², since S = N m.
  Dividing by N: the mean of the squared deviations equals the mean of the squares minus the squared mean. The former
  is a sum of squares divided by a positive number, hence nonnegative, so flooring the latter at zero changes nothing.
  All of this is read in the extended reals: the row count and the variance floor are literal f32 words that denote the
  real numbers 65536 and a positive real, division by 65536 is multiplication by its real inverse, and sums, products
  and differences of real numbers are computed as in the reals.
-/
import Mathlib.Tactic.Ring
import Mathlib.Tactic.Positivity
import Mathlib.Tactic.NormNum
import proofs.«114695_j893353198455_2_alg».proof.Proof.Spec
import proofs.«114695_j893353198455_2_alg».proof.Proof.LibRowLinear

noncomputable section

namespace Cert.BN

open Idealize.ShloMosaic Idealize.ERealSums

/-! ## The two literal words -/

/-- The row-count word denotes the real number 65536 = 2^16 (sign 0, exponent field 143, fraction 0). -/
theorem cnt_eq : cnt = ((65536 : ℝ) : EReal) := by
  unfold cnt
  simp [Ideal.ofBits, Ideal.ieee, -EReal.coe_mul]; norm_num

/-- A word with sign bit 0 whose exponent field is neither all ones nor zero denotes a positive real number:
    (2^m + fraction) · 2^(exponent - bias - m). -/
theorem ieee_pos (e m : Nat) {w : Nat} (b : BitVec w) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  dsimp only
  rw [if_neg h1, if_neg h0]
  simp only [hs, Bool.false_eq_true, if_false]
  refine ⟨_, ?_, rfl⟩
  positivity

/-- The variance floor is a positive real number (sign 0, exponent field 110). -/
theorem eps_pos : ∃ e : ℝ, 0 < e ∧ eps = (e : EReal) :=
  ieee_pos 8 23 (0x3727C5AC#32) (by decide) (by decide) (by decide)

/-- Division of a real number by the row count is division by 65536 in the reals. -/
theorem div_cnt (a : ℝ) : Ideal.div (a : EReal) cnt = ((a / 65536 : ℝ) : EReal) := by
  rw [cnt_eq, Ideal.div_coe (by norm_num : (65536 : ℝ) ≠ 0), ← EReal.coe_mul, mul_one_div]

/-! ## Mean and variance of a real table -/

variable {ι : Type} [Fintype ι] {D : ℕ}

/-- The column mean of a real table, in the reals. -/
def meanR (x : ι → Fin D → ℝ) (d : Fin D) : ℝ := (∑ r, x r d) / 65536

/-- The mean of the squared deviations from the column mean of a real table, in the reals. -/
def varR (x : ι → Fin D → ℝ) (d : Fin D) : ℝ := (∑ r, (x r d - meanR x d) * (x r d - meanR x d)) / 65536

/-- A mean of squares is nonnegative. -/
theorem varR_nonneg (x : ι → Fin D → ℝ) (d : Fin D) : 0 ≤ varR x d :=
  div_nonneg (Finset.sum_nonneg fun _ _ => mul_self_nonneg _) (by norm_num)

/-- With 65536 rows: the mean of the squares minus the squared mean is the mean of the squared deviations. -/
theorem moments_eq_centred (hcard : Fintype.card ι = 65536) (f : ι → ℝ) :
    (∑ r, f r * f r) / 65536 - ((∑ r, f r) / 65536) * ((∑ r, f r) / 65536)
      = (∑ r, (f r - (∑ r, f r) / 65536) * (f r - (∑ r, f r) / 65536)) / 65536 := by
  have hN : ((Finset.univ : Finset ι).card : ℝ) = 65536 := by rw [Finset.card_univ, hcard]; norm_num
  generalize hS : ∑ r, f r = S
  have h1 : ∀ r, (f r - S / 65536) * (f r - S / 65536)
      = f r * f r - (2 * (S / 65536)) * f r + (S / 65536) * (S / 65536) := fun r => by ring
  simp only [h1, Finset.sum_add_distrib, Finset.sum_sub_distrib, ← Finset.mul_sum, Finset.sum_const, nsmul_eq_mul, hN, hS]
  ring

/-- The column mean of a table of real numbers is the real column mean. -/
theorem colMean_coe (x : ι → Fin D → ℝ) (d : Fin D) :
    colMean (fun r d => (x r d : EReal)) d = (meanR x d : EReal) := by
  unfold colMean meanR
  rw [← coe_finset_sum, div_cnt]

/-- The centred variance of a table of real numbers is the real mean of squared deviations. -/
theorem varC_coe (x : ι → Fin D → ℝ) (d : Fin D) :
    varC (fun r d => (x r d : EReal)) d = (varR x d : EReal) := by
  unfold varC
  simp only [colMean_coe, ← EReal.coe_sub, ← EReal.coe_mul, ← coe_finset_sum, div_cnt]
  rfl

/-- The variance by moments of a table of real numbers with 65536 rows is the same real number. -/
theorem varM_coe (hcard : Fintype.card ι = 65536) (x : ι → Fin D → ℝ) (d : Fin D) :
    varM (fun r d => (x r d : EReal)) d = (varR x d : EReal) := by
  unfold varM
  simp only [colMean_coe, ← EReal.coe_mul, ← coe_finset_sum, div_cnt, ← EReal.coe_sub]
  have h : (∑ r, x r d * x r d) / 65536 - meanR x d * meanR x d = varR x d := moments_eq_centred hcard fun r => x r d
  rw [h, max_eq_left (EReal.coe_nonneg.mpr (varR_nonneg x d))]

/-- On a table of real numbers with 65536 rows the two variances are the same function. -/
theorem varM_eq_varC (hcard : Fintype.card ι = 65536) (x : ι → Fin D → EReal)
    (hx : ∀ r d, ∃ a : ℝ, x r d = (a : EReal)) : varM x = varC x := by
  choose x' hx' using hx
  obtain rfl : x = fun r d => (x' r d : EReal) := funext fun r => funext fun d => hx' r d
  funext d
  rw [varM_coe hcard, varC_coe]

end Cert.BN

end
-- ==== Proof.LibPolyHead.lean ====
/-
  General facts about extended reals that are real numbers, and one identity of finite sums. Nothing here mentions a
  program.

  1. Closure: the sum, product, difference and maximum of two real numbers read in the extended reals are real, and
     so is a finite sum of them (real_add, real_mul, real_sub, real_max, real_sum).
  2. Folding coefficients into weights (head_fold). Three rows f0 f1 f2 of 64 entries are combined, for each of three
     coefficient rows s, into out_s = t s 0 · f0 + t s 1 · f1 + t s 2 · f2; the three results, laid side by side in a
     row of 192 entries, are contracted with a weight row w. The same number is obtained by first folding the
     coefficients into the weights, A k c = t 0 k · w(c) + t 1 k · w(64 + c) + t 2 k · w(128 + c), and then summing
     f_k c · A k c over c and k. This is distributivity and a reordering of finite sums; on the extended reals it
     needs every entry to be a real number (with an infinity present, (⊤ + ⊥) · w differs from ⊤ · w + ⊥ · w).
  3. The five f32 words 3, -3, 3/4, -3/2 and 0 denote real numbers.
-/
import Mathlib.Data.EReal.Operations
import Mathlib.Algebra.BigOperators.Fin
import Mathlib.Tactic.Ring
import Idealize.ShloMosaic.PureOps.Ideal
import proofs.«114695_j893353198455_2_alg».proof.Proof.LibRowLinear

namespace Idealize.PolyHead

open Idealize.ERealSums

/-! ## Closure of the real numbers inside the extended reals -/

/-- The sum of two reals is a real. -/
theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨x, rfl⟩ := ha
  obtain ⟨y, rfl⟩ := hb
  exact ⟨x - y, (EReal.coe_sub x y).symm⟩

/-- The negation of a real is a real. -/
theorem real_neg {a : EReal} (ha : ∃ r : ℝ, a = (r : EReal)) : ∃ r : ℝ, -a = (r : EReal) := by
  obtain ⟨x, rfl⟩ := ha
  exact ⟨-x, (EReal.coe_neg x).symm⟩

/-- The maximum of two reals is a real: it is one of the two. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The minimum of two reals is a real: it is one of the two. -/
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb

/-- Zero is a real. -/
theorem real_zero : ∃ r : ℝ, (0 : EReal) = (r : EReal) := ⟨0, EReal.coe_zero.symm⟩

/-- A finite sum of reals is a real. -/
theorem real_sum {ι : Type} (s : Finset ι) (g : ι → EReal) (h : ∀ i ∈ s, ∃ r : ℝ, g i = (r : EReal)) :
    ∃ r : ℝ, ∑ i ∈ s, g i = (r : EReal) := by
  classical
  revert h
  refine Finset.induction_on s (fun _ => ⟨0, by simp⟩) fun a t ha ih h => ?_
  rw [Finset.sum_insert ha]
  exact real_add (h a (Finset.mem_insert_self a t)) (ih fun i hi => h i (Finset.mem_insert_of_mem hi))

/-! ## Folding coefficients into weights -/

/-- A sum over 192 indices is the sum of its three blocks of 64. -/
theorem sum_fin192 (g : Fin 192 → EReal) :
    ∑ j : Fin 192, g j
      = ((∑ c : Fin 64, g ⟨c.val, by omega⟩) + ∑ c : Fin 64, g ⟨64 + c.val, by omega⟩)
        + ∑ c : Fin 64, g ⟨128 + c.val, by omega⟩ := by
  have e1 : ∑ j : Fin (64 + 128), g j
      = ∑ i : Fin 64, g (Fin.castAdd 128 i) + ∑ i : Fin 128, g (Fin.natAdd 64 i) := Fin.sum_univ_add (a := 64) (b := 128) g
  have e2 : ∑ i : Fin (64 + 64), g (Fin.natAdd 64 i)
      = ∑ a : Fin 64, g (Fin.natAdd 64 (Fin.castAdd 64 a)) + ∑ a : Fin 64, g (Fin.natAdd 64 (Fin.natAdd 64 a)) :=
    Fin.sum_univ_add (a := 64) (b := 64) fun i => g (Fin.natAdd 64 i)
  have e3 : ∀ a : Fin 64, g (Fin.natAdd 64 (Fin.natAdd 64 a)) = g ⟨128 + a.val, by omega⟩ := fun a =>
    congrArg g (Fin.ext (by simp only [Fin.coe_natAdd]; omega))
  calc ∑ j : Fin 192, g j
      = ∑ i : Fin 64, g (Fin.castAdd 128 i) + ∑ i : Fin 128, g (Fin.natAdd 64 i) := e1
    _ = ∑ i : Fin 64, g (Fin.castAdd 128 i)
          + (∑ a : Fin 64, g (Fin.natAdd 64 (Fin.castAdd 64 a)) + ∑ a : Fin 64, g (Fin.natAdd 64 (Fin.natAdd 64 a))) :=
        congrArg (fun z => ∑ i : Fin 64, g (Fin.castAdd 128 i) + z) e2
    _ = _ := by
        rw [← add_assoc]
        simp only [e3]
        rfl

/-- The contraction of the three combined rows, laid side by side, with a weight row equals the contraction of the
    three feature rows with the weights into which the coefficients have been folded, when every entry is real. -/
theorem head_fold (t : Fin 3 → Fin 3 → EReal) (f0 f1 f2 : Fin 64 → EReal) (w cat : Fin 192 → EReal)
    (ht : ∀ s k, ∃ r : ℝ, t s k = (r : EReal)) (h0 : ∀ c, ∃ r : ℝ, f0 c = (r : EReal))
    (h1 : ∀ c, ∃ r : ℝ, f1 c = (r : EReal)) (h2 : ∀ c, ∃ r : ℝ, f2 c = (r : EReal))
    (hw : ∀ j, ∃ r : ℝ, w j = (r : EReal))
    (hcat : ∀ (s : Fin 3) (c : Fin 64),
      cat ⟨64 * s.val + c.val, by omega⟩ = (t s 0 * f0 c + t s 1 * f1 c) + t s 2 * f2 c) :
    ∑ j : Fin 192, cat j * w j
      = ((∑ c : Fin 64, f0 c * (((0 + t 0 0 * w ⟨c.val, by omega⟩) + t 1 0 * w ⟨64 + c.val, by omega⟩) + t 2 0 * w ⟨128 + c.val, by omega⟩))
         + ∑ c : Fin 64, f1 c * (((0 + t 0 1 * w ⟨c.val, by omega⟩) + t 1 1 * w ⟨64 + c.val, by omega⟩) + t 2 1 * w ⟨128 + c.val, by omega⟩))
        + ∑ c : Fin 64, f2 c * (((0 + t 0 2 * w ⟨c.val, by omega⟩) + t 1 2 * w ⟨64 + c.val, by omega⟩) + t 2 2 * w ⟨128 + c.val, by omega⟩) := by
  choose T hT using ht
  choose F0 hF0 using h0
  choose F1 hF1 using h1
  choose F2 hF2 using h2
  choose W hW using hw
  -- the combined row at an index given as a number
  have cat_at : ∀ (s : Fin 3) (c : Fin 64) (n : ℕ) (hn : n = 64 * s.val + c.val) (hlt : n < 192),
      cat ⟨n, hlt⟩ = (t s 0 * f0 c + t s 1 * f1 c) + t s 2 * f2 c := by
    intro s c n hn hlt
    subst hn
    exact hcat s c
  have hc0 : ∀ c : Fin 64, cat ⟨c.val, by omega⟩ = (t 0 0 * f0 c + t 0 1 * f1 c) + t 0 2 * f2 c := fun c =>
    cat_at 0 c _ (by show c.val = 64 * 0 + c.val; omega) _
  have hc1 : ∀ c : Fin 64, cat ⟨64 + c.val, by omega⟩ = (t 1 0 * f0 c + t 1 1 * f1 c) + t 1 2 * f2 c := fun c =>
    cat_at 1 c _ (by show 64 + c.val = 64 * 1 + c.val; omega) _
  have hc2 : ∀ c : Fin 64, cat ⟨128 + c.val, by omega⟩ = (t 2 0 * f0 c + t 2 1 * f1 c) + t 2 2 * f2 c := fun c =>
    cat_at 2 c _ (by show 128 + c.val = 64 * 2 + c.val; omega) _
  refine (sum_fin192 _).trans ?_
  simp only [hc0, hc1, hc2]
  simp only [hT, hF0, hF1, hF2, hW]
  simp only [← EReal.coe_mul, ← EReal.coe_add, ← EReal.coe_zero, ← coe_finset_sum]
  refine congrArg _ ?_
  simp only [← Finset.sum_add_distrib]
  exact Finset.sum_congr rfl fun c _ => by ring

/-! ## Coefficient words that denote real numbers -/

section Words

open Idealize.ShloMosaic

/-- A word whose exponent field is not all ones denotes a real number: it is a zero, a subnormal or a normal, never
    an infinity or a junk value. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split <;> exact ⟨_, rfl⟩

/-- Any f32 word whose exponent field is not all ones denotes a real. -/
theorem theta_real (b : BitVec 32) (h : (b.extractLsb' 23 8).toNat ≠ 255) :
    ∃ r : ℝ, Ideal.ofBits .f32 b = (r : EReal) := ieee_real 8 23 b h

/-- The f32 word of 3 denotes a real. -/
theorem real_3 : ∃ r : ℝ, Ideal.ofBits .f32 0x40400000#32 = (r : EReal) := theta_real _ (by decide)

/-- The f32 word of -3 denotes a real. -/
theorem real_neg3 : ∃ r : ℝ, Ideal.ofBits .f32 0xC0400000#32 = (r : EReal) := theta_real _ (by decide)

/-- The f32 word of 3/4 denotes a real. -/
theorem real_075 : ∃ r : ℝ, Ideal.ofBits .f32 0x3F400000#32 = (r : EReal) := theta_real _ (by decide)

/-- The f32 word of -3/2 denotes a real. -/
theorem real_neg15 : ∃ r : ℝ, Ideal.ofBits .f32 0xBFC00000#32 = (r : EReal) := theta_real _ (by decide)

/-- The f32 word of 0 denotes a real. -/
theorem real_0 : ∃ r : ℝ, Ideal.ofBits .f32 0x00000000#32 = (r : EReal) := theta_real _ (by decide)

end Words

end Idealize.PolyHead
-- ==== Proof.AlgebraNet.lean ====
/-
  The network written with the variance by moments equals the network written with the centred variance, on real
  inputs and 65536 rows.

  A layer only differs in which variance it uses, and on a table of real numbers with 65536 rows the two variances are
  the same function; so the two layers agree on such a table. To repeat the argument at the next layer one needs the
  layer's output, after max · 0, to be again a table of real numbers. It is: the column mean and the variance of a real
  table are real, the variance is nonnegative and the floor is positive, so their sum is a positive real and its inverse
  square root is a real; differences, products, finite sums and maxima of reals are reals.
-/
import proofs.«114695_j893353198455_2_alg».proof.Proof.AlgebraVar
import proofs.«114695_j893353198455_2_alg».proof.Proof.LibPolyHead

noncomputable section

namespace Cert.BN

open Idealize.ShloMosaic Idealize.ERealSums Idealize.PolyHead

variable {ι : Type} [Fintype ι] {D O : ℕ}

/-- The inverse square root of a positive real number is a real number. -/
theorem real_rsqrt_pos {r : ℝ} (h : 0 < r) : ∃ s : ℝ, Ideal.rsqrt (r : EReal) = (s : EReal) := by
  rw [Ideal.rsqrt_coe, if_neg (not_lt.mpr h.le), if_neg h.ne']
  exact ⟨_, rfl⟩

/-- On a table of real numbers with 65536 rows the two layers are the same. -/
theorem layerM_eq_layerC (hcard : Fintype.card ι = 65536) (x : ι → Fin D → EReal)
    (hx : ∀ r d, ∃ a : ℝ, x r d = (a : EReal)) (g b : Fin D → EReal) (W : Fin O → Fin D → EReal) (c : Fin O → EReal) :
    layerM x g b W c = layerC x g b W c := by
  unfold layerM layerC
  rw [varM_eq_varC hcard x hx]

/-- A layer maps a table of real numbers, with real scale, shift, weights and offsets, to a table of real numbers. -/
theorem layerC_real (x : ι → Fin D → EReal) (hx : ∀ r d, ∃ a : ℝ, x r d = (a : EReal))
    (g b : Fin D → EReal) (W : Fin O → Fin D → EReal) (c : Fin O → EReal)
    (hg : ∀ d, ∃ a : ℝ, g d = (a : EReal)) (hb : ∀ d, ∃ a : ℝ, b d = (a : EReal))
    (hW : ∀ o d, ∃ a : ℝ, W o d = (a : EReal)) (hc : ∀ o, ∃ a : ℝ, c o = (a : EReal)) (r : ι) (o : Fin O) :
    ∃ a : ℝ, layerC x g b W c r o = (a : EReal) := by
  choose x' hx' using hx
  obtain rfl : x = fun r d => (x' r d : EReal) := funext fun r => funext fun d => hx' r d
  obtain ⟨e, he, hee⟩ := eps_pos
  unfold layerC affine normalize
  refine real_add (real_sum _ _ fun d _ => real_mul (real_add (real_mul (real_mul (real_sub ⟨_, rfl⟩ ⟨_, colMean_coe x' d⟩) ?_)
    (hg d)) (hb d)) (hW o d)) (hc o)
  rw [varC_coe, hee, ← EReal.coe_add]
  exact real_rsqrt_pos (add_pos_of_nonneg_of_pos (varR_nonneg x' d) he)

/-- The entrywise maximum with zero of a table of real numbers is a table of real numbers. -/
theorem relu_real (y : ι → Fin O → EReal) (hy : ∀ r o, ∃ a : ℝ, y r o = (a : EReal)) (r : ι) (o : Fin O) :
    ∃ a : ℝ, relu y r o = (a : EReal) :=
  real_max (hy r o) real_zero

/-- On real inputs and 65536 rows, the network with the variance by moments is the network with the centred variance.
    (The last layer's scale, shift, weights and offsets enter both networks in the same way after the variance, so the
    hypotheses that they are real are not used.) -/
theorem netM_eq_netC {ι : Type} [Fintype ι] (hcard : Fintype.card ι = 65536)
    (x : ι → Fin 256 → EReal) (g0 b0 : Fin 256 → EReal) (W0 : Fin 512 → Fin 256 → EReal) (c0 : Fin 512 → EReal)
    (g1 b1 : Fin 512 → EReal) (W1 : Fin 512 → Fin 512 → EReal) (c1 : Fin 512 → EReal)
    (g2 b2 : Fin 512 → EReal) (W2 : Fin 1024 → Fin 512 → EReal) (c2 : Fin 1024 → EReal)
    (hx : ∀ r d, ∃ a : ℝ, x r d = (a : EReal)) (hg0 : ∀ d, ∃ a : ℝ, g0 d = (a : EReal)) (hb0 : ∀ d, ∃ a : ℝ, b0 d = (a : EReal))
    (hW0 : ∀ o d, ∃ a : ℝ, W0 o d = (a : EReal)) (hc0 : ∀ o, ∃ a : ℝ, c0 o = (a : EReal))
    (hg1 : ∀ d, ∃ a : ℝ, g1 d = (a : EReal)) (hb1 : ∀ d, ∃ a : ℝ, b1 d = (a : EReal))
    (hW1 : ∀ o d, ∃ a : ℝ, W1 o d = (a : EReal)) (hc1 : ∀ o, ∃ a : ℝ, c1 o = (a : EReal))
    (hg2 : ∀ d, ∃ a : ℝ, g2 d = (a : EReal)) (hb2 : ∀ d, ∃ a : ℝ, b2 d = (a : EReal))
    (hW2 : ∀ o d, ∃ a : ℝ, W2 o d = (a : EReal)) (hc2 : ∀ o, ∃ a : ℝ, c2 o = (a : EReal)) :
    netM x g0 b0 W0 c0 g1 b1 W1 c1 g2 b2 W2 c2 = netC x g0 b0 W0 c0 g1 b1 W1 c1 g2 b2 W2 c2 := by
  unfold netM netC
  have h1 : ∀ r o, ∃ a : ℝ, relu (layerC x g0 b0 W0 c0) r o = (a : EReal) :=
    relu_real _ (layerC_real x hx g0 b0 W0 c0 hg0 hb0 hW0 hc0)
  have h2 : ∀ r o, ∃ a : ℝ, relu (layerC (relu (layerC x g0 b0 W0 c0)) g1 b1 W1 c1) r o = (a : EReal) :=
    relu_real _ (layerC_real _ h1 g1 b1 W1 c1 hg1 hb1 hW1 hc1)
  rw [layerM_eq_layerC hcard x hx, layerM_eq_layerC hcard _ h1, layerM_eq_layerC hcard _ h2]

end Cert.BN

end
-- ==== Proof.FiniteInputs.lean ====
/-
  From the precondition to "every input entry is a real number".

  The precondition computes, for each of the thirteen float arrays a, the conjunction over all entries i of
  |a i| < +∞, and then the conjunction of the thirteen results. When the final word is 1, each of the thirteen
  conjunctions is 1, hence every entry satisfies max (a i) (-(a i)) < ⊤ in the extended reals. That excludes
  a i = ⊤ and a i = ⊥ (in both cases the maximum is ⊤), so the entry is a real number.
-/
import Idealize.ShloMosaic.Lib.ReduceAll
import Idealize.ShloMosaic.Lib.ValueIdx
import proofs.«114695_j893353198455_2_alg».proof.Pre_finite_inputs

noncomputable section

namespace Cert.BN

open Idealize.ShloMosaic Cert.Pre_finite_inputs

/-- The f32 word with exponent field all ones and zero fraction, sign 0, denotes +∞. -/
theorem ofBits_inf : Ideal.ofBits .f32 0x7F800000#32 = ⊤ := by simp [Ideal.ofBits, Ideal.ieee]

/-- An extended real whose absolute value is strictly below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The scalar shape has exactly one index. -/
instance subsingleton_scalar_idx : Subsingleton S_.Idx := ⟨fun a b => funext fun d => d.elim0⟩

/-- One array: if the conjunction over all entries of "|a i| < +∞" is 1, then every entry is a real number. -/
theorem real_of_all {s : Shape} {axes : List (Fin s.rank)} (hr : s.ReducesTo axes S_) (hu : 0 < S_.numel)
    (bc : S_.BroadcastsInDim s (![] : Fin 0 → Fin s.rank)) (a : FVec Ideal s .f32)
    (e : Host.reduce IntOp.andi
          (cmpf .olt (Host.absf a) (broadcastInDim s ![] bc (constant (F := Ideal) S_ .f32 0x7F800000#32)))
          (constantI S_ 1 1#1) hr hu ValueIdx.ix0 = 1#1) (i : s.Idx) : ∃ r : ℝ, a i = (r : EReal) :=
  real_of_abs_lt_inf (a i) (Host.reduce_andi_all _ _ hr hu _ e i)

/-- The precondition "all thirteen arrays are entrywise finite" gives: every entry of every array is a real number. -/
theorem real_of_finite_inputs [Facts]
    (a0 : FVec Ideal S32x2048x256 .f32) (a1 : FVec Ideal S256 .f32) (a2 : FVec Ideal S256 .f32)
    (a3 : FVec Ideal S512x256 .f32) (a4 : FVec Ideal S512 .f32) (a5 : FVec Ideal S512 .f32) (a6 : FVec Ideal S512 .f32)
    (a7 : FVec Ideal S512x512 .f32) (a8 : FVec Ideal S512 .f32) (a9 : FVec Ideal S512 .f32) (a10 : FVec Ideal S512 .f32)
    (a11 : FVec Ideal S1024x512 .f32) (a12 : FVec Ideal S1024 .f32)
    (h : fn (F := Ideal) a0 a1 a2 a3 a4 a5 a6 a7 a8 a9 a10 a11 a12 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) ∧ (∀ i, ∃ r : ℝ, a11 i = (r : EReal))
    ∧ (∀ i, ∃ r : ℝ, a12 i = (r : EReal)) := by
  have e := congrFun h ValueIdx.ix0
  dsimp only [fn, fn_part1, fn_part2, fn_part3] at e
  simp only [andi, IntOp.andi_eq_one] at e
  obtain ⟨⟨⟨⟨⟨⟨⟨⟨⟨⟨⟨⟨e0, e1⟩, e2⟩, e3⟩, e4⟩, e5⟩, e6⟩, e7⟩, e8⟩, e9⟩, e10⟩, e11⟩, e12⟩ := e
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all _ _ _ a8 e8, real_of_all _ _ _ a9 e9, real_of_all _ _ _ a10 e10, real_of_all _ _ _ a11 e11,
    real_of_all _ _ _ a12 e12⟩

end Cert.BN

end
-- ==== Proof.LibHostReduce3.lean ====
/-
  TWO HOST REDUCTIONS OF A RANK-3 ARRAY READ AT AN INDEX, at the exact instance.

  A sum over axes 0 and 1 of an [A, B, C] array into [C]: the result at `d` is the initial value plus the sum,
  over all pairs (a, b), of the array at (a, b, d) — for any witness of the reduction, any extents.  A maximum over
  axis 1 of an [A, B, C] array into [A, C], from the initial value -∞: the result at (a, c) is the supremum over `b`
  of the array at (a, b, c).  Also: the f32 word `0xFF800000` is the least extended real.
-/
import Idealize.ShloMosaic.PureOps
import Idealize.ShloMosaic.PureOps.Ideal.Laws
import Idealize.ShloMosaic.Lib.ValueIdx
import Mathlib.Order.CompleteLattice.Finset

noncomputable section

namespace Idealize.HostReduce3

open Idealize.ShloMosaic Idealize.ShloMosaic.ValueIdx

/-- A rank-3 index set is the product of its coordinate ranges, the first two paired. -/
def idxEquiv3 {A B C : ℕ} : (⟨3, ![A, B, C]⟩ : Shape).Idx ≃ (Fin A × Fin B) × Fin C where
  toFun i := ((i 0, i 1), i 2)
  invFun p := ix3 p.1.1 p.1.2 p.2
  left_inv i := (eq_ix3 i).symm
  right_inv _ := rfl

/-- Dropping axes 0 and 1 of a rank-3 index gives `d` exactly when its last coordinate is `d`. -/
theorem drop01_eq_iff {A B C : ℕ} (h : (⟨3, ![A, B, C]⟩ : Shape).ReducesTo [0, 1] ⟨1, ![C]⟩)
    (i : (⟨3, ![A, B, C]⟩ : Shape).Idx) (d : Fin C) : h.drop i = ix1 d ↔ i 2 = d := by
  have hv : ((h.drop i 0 : Fin C) : ℕ) = ((i 2 : Fin C) : ℕ) := rfl
  constructor
  · intro e
    have e0 : (h.drop i 0 : Fin C) = d := congrFun e 0
    exact Fin.ext (hv.symm.trans (congrArg Fin.val e0))
  · intro e
    funext a
    match a with
    | ⟨0, _⟩ => exact Fin.ext (hv.trans (congrArg Fin.val e))

/-- The host's sum over axes 0 and 1 of an [A, B, C] array, at `d`: the initial value plus the sum over all (a, b)
    of the array at (a, b, d). -/
theorem hostReduceAdd_axes01 {A B C : ℕ} (h : (⟨3, ![A, B, C]⟩ : Shape).ReducesTo [0, 1] ⟨1, ![C]⟩)
    (x : (⟨3, ![A, B, C]⟩ : Shape).Idx → EReal) (init : EReal) (d : Fin C) :
    Ideal.hostReduceAdd h x init (ix1 d) = init + ∑ r : Fin A × Fin B, x (ix3 r.1 r.2 d) := by
  unfold Ideal.hostReduceAdd
  congr 1
  refine Finset.sum_nbij' (fun i => (i 0, i 1)) (fun r => ix3 r.1 r.2 d) ?_ ?_ ?_ ?_ ?_
  · intro i _; exact Finset.mem_univ _
  · intro r _; exact Finset.mem_filter.2 ⟨Finset.mem_univ _, (drop01_eq_iff h _ d).2 rfl⟩
  · intro i hi
    have hj : i 2 = d := (drop01_eq_iff h i d).1 (Finset.mem_filter.1 hi).2
    subst hj; exact (eq_ix3 i).symm
  · intro r _; rfl
  · intro i hi
    have hj : i 2 = d := (drop01_eq_iff h i d).1 (Finset.mem_filter.1 hi).2
    subst hj; exact congrArg x (eq_ix3 i)

/-- The same for the host's `reduce` with an add body whose initial value is a rank-0 array. -/
theorem reduceAdd_axes01 {A B C : ℕ} (h : (⟨3, ![A, B, C]⟩ : Shape).ReducesTo [0, 1] ⟨1, ![C]⟩)
    (x : FVec Ideal ⟨3, ![A, B, C]⟩ .f32) (init : (⟨0, ![]⟩ : Shape).Idx → Ideal .f32)
    (hu : 0 < (⟨0, ![]⟩ : Shape).numel) (d : Fin C) :
    Host.reduceAdd x init h hu (ix1 d) = init (Shape.Idx.first hu) + ∑ r : Fin A × Fin B, x (ix3 r.1 r.2 d) :=
  hostReduceAdd_axes01 h x _ d

/-- From the zero word the sum is just the sum: `0 + s = s`. -/
theorem reduceAdd_axes01_zero {A B C : ℕ} (h : (⟨3, ![A, B, C]⟩ : Shape).ReducesTo [0, 1] ⟨1, ![C]⟩)
    (x : FVec Ideal ⟨3, ![A, B, C]⟩ .f32) (hu : 0 < (⟨0, ![]⟩ : Shape).numel) (d : Fin C) :
    Host.reduceAdd x (constant (F := Ideal) (⟨0, ![]⟩ : Shape) .f32 0x00000000#32) h hu (ix1 d)
      = ∑ r : Fin A × Fin B, x (ix3 r.1 r.2 d) := by
  rw [reduceAdd_axes01]
  show Ideal.ofBits .f32 0x00000000#32 + _ = _
  rw [Ideal.ofBits_zero_f32, zero_add]

/-- The f32 word `0xFF800000` is -∞, the least extended real. -/
theorem ofBits_neg_inf_f32 : Ideal.ofBits .f32 0xFF800000#32 = (⊥ : EReal) := by
  simp [Ideal.ofBits, Ideal.ieee]

/-- The reduced index (a, c) with coordinate `k` put back on axis 1 is (a, k, c). -/
theorem lift1_ix2 {A B C : ℕ} (h : (⟨3, ![A, B, C]⟩ : Shape).Reduces [1] ⟨2, ![A, C]⟩) (a : Fin A) (c : Fin C)
    (k : Fin ((⟨3, ![A, B, C]⟩ : Shape).size 1)) : h.lift (ix2 a c) k = ix3 a (⟨k.val, k.isLt⟩ : Fin B) c := by
  funext e; apply Fin.ext
  fin_cases e <;> rfl

/-- The host's maximum over axis 1 of an [A, B, C] array from -∞, at (a, c): the supremum over `b` of the array at
    (a, b, c). -/
theorem reduceMax_axis1 {A B C : ℕ} (h' : (⟨3, ![A, B, C]⟩ : Shape).ReducesTo [1] ⟨2, ![A, C]⟩)
    (x : FVec Ideal ⟨3, ![A, B, C]⟩ .f32) (hu : 0 < (⟨0, ![]⟩ : Shape).numel) (a : Fin A) (c : Fin C) :
    Host.reduce FloatOps.maximumf x (constant (F := Ideal) (⟨0, ![]⟩ : Shape) .f32 0xFF800000#32) h' hu (ix2 a c)
      = Finset.univ.sup fun b : Fin B => x (ix3 a b c) := by
  have h : (⟨3, ![A, B, C]⟩ : Shape).Reduces [1] ⟨2, ![A, C]⟩ := ⟨h'.1, Nat.zero_lt_two, h'.2⟩
  rw [Host.reduce_eq_fold_single FloatOps.maximumf x _ h' h hu]
  have hf : (x ∘ h.lift (ix2 a c)) = fun b : Fin B => x (ix3 a b c) :=
    funext fun k => congrArg x (lift1_ix2 h a c k)
  show Finset.fold max (Ideal.ofBits .f32 0xFF800000#32) (x ∘ h.lift (ix2 a c)) (Finset.univ : Finset (Fin B)) = _
  rw [hf, ofBits_neg_inf_f32]
  rfl

end Idealize.HostReduce3

end
-- ==== Proof.RefReduce.lean ====
/-
  The two reductions of the reference that its read-at-an-index module leaves to be read by hand, at literal rank-3
  shapes: a sum over axes 0 and 1 of an [A, B, C] array into [C] is the initial value plus the sum over all pairs
  (a, b); a maximum over axis 1 from -∞ is a supremum over `b`.  The statements are those of the general module,
  restated here under the names the reference-side modules use.
-/
import proofs.«114695_j893353198455_2_alg».proof.Proof.Gen.ReferenceIdeal.Read
import proofs.«114695_j893353198455_2_alg».proof.Proof.Spec
import proofs.«114695_j893353198455_2_alg».proof.Proof.LibHostReduce3

noncomputable section

namespace Cert.BN.Ref

open Idealize.ShloMosaic Idealize.ShloMosaic.ValueIdx

/-- A rank-3 index set is the product of its coordinate ranges, the first two paired. -/
def idxEquiv3 {A B C : ℕ} : (⟨3, ![A, B, C]⟩ : Shape).Idx ≃ (Fin A × Fin B) × Fin C := Idealize.HostReduce3.idxEquiv3

/-- Dropping axes 0 and 1 of a rank-3 index gives `d` exactly when its last coordinate is `d`. -/
theorem drop01_eq_iff {A B C : ℕ} (h : (⟨3, ![A, B, C]⟩ : Shape).ReducesTo [0, 1] ⟨1, ![C]⟩)
    (i : (⟨3, ![A, B, C]⟩ : Shape).Idx) (d : Fin C) : h.drop i = ix1 d ↔ i 2 = d :=
  Idealize.HostReduce3.drop01_eq_iff h i d

/-- The host's sum over axes 0 and 1 of an [A, B, C] array, at `d`: the initial value plus the sum over all (a, b)
    of the array at (a, b, d). -/
theorem hostReduceAdd_axes01 {A B C : ℕ} (h : (⟨3, ![A, B, C]⟩ : Shape).ReducesTo [0, 1] ⟨1, ![C]⟩)
    (x : (⟨3, ![A, B, C]⟩ : Shape).Idx → EReal) (init : EReal) (d : Fin C) :
    Ideal.hostReduceAdd h x init (ix1 d) = init + ∑ r : Fin A × Fin B, x (ix3 r.1 r.2 d) :=
  Idealize.HostReduce3.hostReduceAdd_axes01 h x init d

/-- The same for the host's `reduce` with an add body whose initial value is a rank-0 array. -/
theorem reduceAdd_axes01 {A B C : ℕ} (h : (⟨3, ![A, B, C]⟩ : Shape).ReducesTo [0, 1] ⟨1, ![C]⟩)
    (x : FVec Ideal ⟨3, ![A, B, C]⟩ .f32) (init : (⟨0, ![]⟩ : Shape).Idx → Ideal .f32)
    (hu : 0 < (⟨0, ![]⟩ : Shape).numel) (d : Fin C) :
    Host.reduceAdd x init h hu (ix1 d) = init (Shape.Idx.first hu) + ∑ r : Fin A × Fin B, x (ix3 r.1 r.2 d) :=
  Idealize.HostReduce3.reduceAdd_axes01 h x init hu d

/-- From the zero word the sum is just the sum: `0 + s = s`. -/
theorem reduceAdd_axes01_zero {A B C : ℕ} (h : (⟨3, ![A, B, C]⟩ : Shape).ReducesTo [0, 1] ⟨1, ![C]⟩)
    (x : FVec Ideal ⟨3, ![A, B, C]⟩ .f32) (hu : 0 < (⟨0, ![]⟩ : Shape).numel) (d : Fin C) :
    Host.reduceAdd x (constant (F := Ideal) (⟨0, ![]⟩ : Shape) .f32 0x00000000#32) h hu (ix1 d)
      = ∑ r : Fin A × Fin B, x (ix3 r.1 r.2 d) :=
  Idealize.HostReduce3.reduceAdd_axes01_zero h x hu d

/-- The f32 word `0xFF800000` is -∞, the least extended real. -/
theorem ofBits_neg_inf_f32 : Ideal.ofBits .f32 0xFF800000#32 = (⊥ : EReal) := Idealize.HostReduce3.ofBits_neg_inf_f32

/-- The reduced index (a, c) with coordinate `k` put back on axis 1 is (a, k, c). -/
theorem lift1_ix2 {A B C : ℕ} (h : (⟨3, ![A, B, C]⟩ : Shape).Reduces [1] ⟨2, ![A, C]⟩) (a : Fin A) (c : Fin C)
    (k : Fin ((⟨3, ![A, B, C]⟩ : Shape).size 1)) : h.lift (ix2 a c) k = ix3 a (⟨k.val, k.isLt⟩ : Fin B) c :=
  Idealize.HostReduce3.lift1_ix2 h a c k

/-- The host's maximum over axis 1 of an [A, B, C] array from -∞, at (a, c): the supremum over `b` of the array at
    (a, b, c). -/
theorem reduceMax_axis1 {A B C : ℕ} (h' : (⟨3, ![A, B, C]⟩ : Shape).ReducesTo [1] ⟨2, ![A, C]⟩)
    (x : FVec Ideal ⟨3, ![A, B, C]⟩ .f32) (hu : 0 < (⟨0, ![]⟩ : Shape).numel) (a : Fin A) (c : Fin C) :
    Host.reduce FloatOps.maximumf x (constant (F := Ideal) (⟨0, ![]⟩ : Shape) .f32 0xFF800000#32) h' hu (ix2 a c)
      = Finset.univ.sup fun b : Fin B => x (ix3 a b c) :=
  Idealize.HostReduce3.reduceMax_axis1 h' x hu a c

end Cert.BN.Ref

end
-- ==== Proof.RefLayer0.lean ====
/-
  The first layer of the reference, read entry by entry.

  Its input table is the first argument, rows indexed by the pair (set, member) and columns by the feature.  The
  stages of the layer are: the column mean (a sum over both row coordinates divided by the row count), the centred
  column variance, the normalised entry `(x - mean) * rsqrt (var + ε) * g + b`, the product with `Wᵀ` plus `c`, and
  the entrywise maximum with zero.  Each is identified with the function of the same name on tables.
-/
import proofs.«114695_j893353198455_2_alg».proof.Proof.RefReduce

set_option quotPrecheck false

noncomputable section

namespace Cert.BN.Ref

open Cert.ReferenceIdeal Cert.ReferenceIdeal.Gen Cert.ReferenceIdeal.Read Idealize.ShloMosaic Idealize.ShloMosaic.ValueIdx
open Idealize.SL.Sem

variable (x0 : (⟨S32x2048x256, .f32⟩ : BufTy).Contents (Elt Ideal)) (x1 x2 : (⟨S256, .f32⟩ : BufTy).Contents (Elt Ideal))
  (x3 : (⟨S512x256, .f32⟩ : BufTy).Contents (Elt Ideal)) (x4 x5 x6 : (⟨S512, .f32⟩ : BufTy).Contents (Elt Ideal))
  (x7 : (⟨S512x512, .f32⟩ : BufTy).Contents (Elt Ideal)) (x8 x9 x10 : (⟨S512, .f32⟩ : BufTy).Contents (Elt Ideal))
  (x11 : (⟨S1024x512, .f32⟩ : BufTy).Contents (Elt Ideal)) (x12 : (⟨S1024, .f32⟩ : BufTy).Contents (Elt Ideal))

local notation "XT" => (fun (r : Fin 32 × Fin 2048) (d : Fin 256) => x0 (ix3 r.1 r.2 d))
local notation "GT" => (fun (d : Fin 256) => x1 (ix1 d))
local notation "BT" => (fun (d : Fin 256) => x2 (ix1 d))
local notation "WT" => (fun (o : Fin 512) (d : Fin 256) => x3 (ix2 o d))
local notation "CT" => (fun (o : Fin 512) => x4 (ix1 o))

/-- The first layer's column mean is `colMean` of its input table. -/
theorem mean0 (d : Fin 256) :
    val_main_v2 (F := Ideal) x0 (ix1 d) = colMean (ι := Fin 32 × Fin 2048) XT d := by
  rw [val_main_v2_apply, val_main_v1_apply, val_main_cst_0_apply]
  unfold val_main_v0 val_main_cst
  rw [reduceAdd_axes01_zero]
  rfl

/-- The mean broadcast over the rows, read at (s, n, d), is the mean of column `d`. -/
theorem meanBc0a (s : Fin 32) (n : Fin 2048) (d : Fin 256) :
    val_main_v4 (F := Ideal) x0 (ix3 s n d) = colMean (ι := Fin 32 × Fin 2048) XT d := by
  rw [val_main_v4_apply, val_main_v3_apply, ← mean0]
  exact congrArg _ (funext fun a => Fin.ext (by match a with | ⟨0, _⟩ => rfl))

/-- The second broadcast of the mean, likewise. -/
theorem meanBc0b (s : Fin 32) (n : Fin 2048) (d : Fin 256) :
    val_main_v11 (F := Ideal) x0 (ix3 s n d) = colMean (ι := Fin 32 × Fin 2048) XT d := by
  rw [val_main_v11_apply, val_main_v10_apply, ← mean0]
  exact congrArg _ (funext fun a => Fin.ext (by match a with | ⟨0, _⟩ => rfl))

/-- The first layer's column variance is the centred variance `varC` of its input table. -/
theorem var0 (d : Fin 256) :
    val_main_v9 (F := Ideal) x0 (ix1 d) = varC (ι := Fin 32 × Fin 2048) XT d := by
  rw [val_main_v9_apply, val_main_v8_apply, val_main_cst_2_apply]
  unfold val_main_v7 val_main_cst_1
  rw [reduceAdd_axes01_zero]
  have h6 : ∀ r : Fin 32 × Fin 2048, val_main_v6 (F := Ideal) x0 (ix3 r.1 r.2 d)
      = (XT r d - colMean (ι := Fin 32 × Fin 2048) XT d) * (XT r d - colMean (ι := Fin 32 × Fin 2048) XT d) := by
    intro r
    rw [val_main_v6_apply, val_main_v5_apply, meanBc0a]
    rfl
  rw [Finset.sum_congr rfl fun r _ => h6 r]
  rfl

/-- The reciprocal square root of variance plus `ε`, broadcast over the rows, read at (s, n, d). -/
theorem rsqrtBc0 (s : Fin 32) (n : Fin 2048) (d : Fin 256) :
    val_main_v17 (F := Ideal) x0 (ix3 s n d) = Ideal.rsqrt (varC (ι := Fin 32 × Fin 2048) XT d + eps) := by
  rw [val_main_v17_apply, val_main_v16_apply,
    show idx_main_v16 (idx_main_v17 (ix3 s n d)) = ix1 d from
      funext fun a => Fin.ext (by match a with | ⟨0, _⟩ => rfl),
    val_main_v15_apply, val_main_v14_apply, var0, val_main_v13_apply, val_main_cst_3_apply]
  rfl

/-- The scale `g` broadcast over the rows, read at (s, n, d). -/
theorem gBc0 (s : Fin 32) (n : Fin 2048) (d : Fin 256) :
    val_main_v20 (F := Ideal) x1 (ix3 s n d) = x1 (ix1 d) := by
  rw [val_main_v20_apply, val_main_v19_apply]
  exact congrArg _ (funext fun a => Fin.ext (by match a with | ⟨0, _⟩ => rfl))

/-- The shift `b` broadcast over the rows, read at (s, n, d). -/
theorem bBc0 (s : Fin 32) (n : Fin 2048) (d : Fin 256) :
    val_main_v23 (F := Ideal) x2 (ix3 s n d) = x2 (ix1 d) := by
  rw [val_main_v23_apply, val_main_v22_apply]
  exact congrArg _ (funext fun a => Fin.ext (by match a with | ⟨0, _⟩ => rfl))

/-- The bias `c` broadcast over the rows, read at (s, n, o). -/
theorem cBc0 (s : Fin 32) (n : Fin 2048) (o : Fin 512) :
    val_main_v27 (F := Ideal) x4 (ix3 s n o) = x4 (ix1 o) := by
  rw [val_main_v27_apply, val_main_v26_apply]
  exact congrArg _ (funext fun a => Fin.ext (by match a with | ⟨0, _⟩ => rfl))

/-- The first layer's normalised entry is `normalize` with the column means and centred variances. -/
theorem norm0 (s : Fin 32) (n : Fin 2048) (d : Fin 256) :
    val_main_v24 (F := Ideal) x0 x1 x2 (ix3 s n d)
      = normalize (ι := Fin 32 × Fin 2048) XT (colMean (ι := Fin 32 × Fin 2048) XT) (varC (ι := Fin 32 × Fin 2048) XT) GT BT (s, n) d := by
  rw [val_main_v24_apply, val_main_v21_apply, val_main_v18_apply, val_main_v12_apply, meanBc0b, rsqrtBc0, gBc0, bBc0]
  rfl

/-- The first layer's output after the maximum with zero, read at (s, n, o). -/
theorem layer0 (s : Fin 32) (n : Fin 2048) (o : Fin 512) :
    val_main_v29 (F := Ideal) x0 x1 x2 x3 x4 (ix3 s n o) = relu (layerC (ι := Fin 32 × Fin 2048) XT GT BT WT CT) (s, n) o := by
  have hk : ∀ k : Fin 256, val_main_v24 (F := Ideal) x0 x1 x2 (lidx_main_v25 (ix3 s n o) k) * x3 (ridx_main_v25 (ix3 s n o) k)
      = normalize (ι := Fin 32 × Fin 2048) XT (colMean (ι := Fin 32 × Fin 2048) XT) (varC (ι := Fin 32 × Fin 2048) XT) GT BT (s, n) k * x3 (ix2 o k) := by
    intro k
    rw [show lidx_main_v25 (ix3 s n o) k = ix3 s n k from
        funext fun a => Fin.ext (by match a with | ⟨0, _⟩ => rfl | ⟨1, _⟩ => rfl | ⟨2, _⟩ => rfl),
      show ridx_main_v25 (ix3 s n o) k = ix2 o k from
        funext fun a => Fin.ext (by match a with | ⟨0, _⟩ => rfl | ⟨1, _⟩ => rfl),
      norm0]
  rw [val_main_v29_apply, val_main_v28_apply, val_main_v25_apply, cBc0, Finset.sum_congr rfl fun k _ => hk k,
    val_main_call0_v0_apply, val_main_call0_cst_apply]
  show max _ (Ideal.ofBits .f32 0x00000000#32) = _
  rw [Ideal.ofBits_zero_f32]
  rfl

end Cert.BN.Ref

end
-- ==== Proof.RefLayer1.lean ====
/-
  The second layer of the reference, read entry by entry.

  Its input table is the first layer's output after `max · 0`, rows indexed by the pair (set, member) and columns by the feature.  The
  stages of the layer are: the column mean (a sum over both row coordinates divided by the row count), the centred
  column variance, the normalised entry `(x - mean) * rsqrt (var + ε) * g + b`, the product with `Wᵀ` plus `c`, and
  the entrywise maximum with zero.  Each is identified with the function of the same name on tables.
-/
import proofs.«114695_j893353198455_2_alg».proof.Proof.RefReduce

set_option quotPrecheck false

noncomputable section

namespace Cert.BN.Ref

open Cert.ReferenceIdeal Cert.ReferenceIdeal.Gen Cert.ReferenceIdeal.Read Idealize.ShloMosaic Idealize.ShloMosaic.ValueIdx
open Idealize.SL.Sem

variable (x0 : (⟨S32x2048x256, .f32⟩ : BufTy).Contents (Elt Ideal)) (x1 x2 : (⟨S256, .f32⟩ : BufTy).Contents (Elt Ideal))
  (x3 : (⟨S512x256, .f32⟩ : BufTy).Contents (Elt Ideal)) (x4 x5 x6 : (⟨S512, .f32⟩ : BufTy).Contents (Elt Ideal))
  (x7 : (⟨S512x512, .f32⟩ : BufTy).Contents (Elt Ideal)) (x8 x9 x10 : (⟨S512, .f32⟩ : BufTy).Contents (Elt Ideal))
  (x11 : (⟨S1024x512, .f32⟩ : BufTy).Contents (Elt Ideal)) (x12 : (⟨S1024, .f32⟩ : BufTy).Contents (Elt Ideal))

local notation "XT" => (fun (r : Fin 32 × Fin 2048) (d : Fin 512) => val_main_v29 (F := Ideal) x0 x1 x2 x3 x4 (ix3 r.1 r.2 d))
local notation "GT" => (fun (d : Fin 512) => x5 (ix1 d))
local notation "BT" => (fun (d : Fin 512) => x6 (ix1 d))
local notation "WT" => (fun (o : Fin 512) (d : Fin 512) => x7 (ix2 o d))
local notation "CT" => (fun (o : Fin 512) => x8 (ix1 o))

/-- The second layer's column mean is `colMean` of its input table. -/
theorem mean1 (d : Fin 512) :
    val_main_v32 (F := Ideal) x0 x1 x2 x3 x4 (ix1 d) = colMean (ι := Fin 32 × Fin 2048) XT d := by
  rw [val_main_v32_apply, val_main_v31_apply, val_main_cst_5_apply]
  unfold val_main_v30 val_main_cst_4
  rw [reduceAdd_axes01_zero]
  rfl

/-- The mean broadcast over the rows, read at (s, n, d), is the mean of column `d`. -/
theorem meanBc1a (s : Fin 32) (n : Fin 2048) (d : Fin 512) :
    val_main_v34 (F := Ideal) x0 x1 x2 x3 x4 (ix3 s n d) = colMean (ι := Fin 32 × Fin 2048) XT d := by
  rw [val_main_v34_apply, val_main_v33_apply, ← mean1]
  exact congrArg _ (funext fun a => Fin.ext (by match a with | ⟨0, _⟩ => rfl))

/-- The second broadcast of the mean, likewise. -/
theorem meanBc1b (s : Fin 32) (n : Fin 2048) (d : Fin 512) :
    val_main_v41 (F := Ideal) x0 x1 x2 x3 x4 (ix3 s n d) = colMean (ι := Fin 32 × Fin 2048) XT d := by
  rw [val_main_v41_apply, val_main_v40_apply, ← mean1]
  exact congrArg _ (funext fun a => Fin.ext (by match a with | ⟨0, _⟩ => rfl))

/-- The second layer's column variance is the centred variance `varC` of its input table. -/
theorem var1 (d : Fin 512) :
    val_main_v39 (F := Ideal) x0 x1 x2 x3 x4 (ix1 d) = varC (ι := Fin 32 × Fin 2048) XT d := by
  rw [val_main_v39_apply, val_main_v38_apply, val_main_cst_7_apply]
  unfold val_main_v37 val_main_cst_6
  rw [reduceAdd_axes01_zero]
  have h6 : ∀ r : Fin 32 × Fin 2048, val_main_v36 (F := Ideal) x0 x1 x2 x3 x4 (ix3 r.1 r.2 d)
      = (XT r d - colMean (ι := Fin 32 × Fin 2048) XT d) * (XT r d - colMean (ι := Fin 32 × Fin 2048) XT d) := by
    intro r
    rw [val_main_v36_apply, val_main_v35_apply, meanBc1a]
    rfl
  rw [Finset.sum_congr rfl fun r _ => h6 r]
  rfl

/-- The reciprocal square root of variance plus `ε`, broadcast over the rows, read at (s, n, d). -/
theorem rsqrtBc1 (s : Fin 32) (n : Fin 2048) (d : Fin 512) :
    val_main_v47 (F := Ideal) x0 x1 x2 x3 x4 (ix3 s n d) = Ideal.rsqrt (varC (ι := Fin 32 × Fin 2048) XT d + eps) := by
  rw [val_main_v47_apply, val_main_v46_apply,
    show idx_main_v46 (idx_main_v47 (ix3 s n d)) = ix1 d from
      funext fun a => Fin.ext (by match a with | ⟨0, _⟩ => rfl),
    val_main_v45_apply, val_main_v44_apply, var1, val_main_v43_apply, val_main_cst_8_apply]
  rfl

/-- The scale `g` broadcast over the rows, read at (s, n, d). -/
theorem gBc1 (s : Fin 32) (n : Fin 2048) (d : Fin 512) :
    val_main_v50 (F := Ideal) x5 (ix3 s n d) = x5 (ix1 d) := by
  rw [val_main_v50_apply, val_main_v49_apply]
  exact congrArg _ (funext fun a => Fin.ext (by match a with | ⟨0, _⟩ => rfl))

/-- The shift `b` broadcast over the rows, read at (s, n, d). -/
theorem bBc1 (s : Fin 32) (n : Fin 2048) (d : Fin 512) :
    val_main_v53 (F := Ideal) x6 (ix3 s n d) = x6 (ix1 d) := by
  rw [val_main_v53_apply, val_main_v52_apply]
  exact congrArg _ (funext fun a => Fin.ext (by match a with | ⟨0, _⟩ => rfl))

/-- The bias `c` broadcast over the rows, read at (s, n, o). -/
theorem cBc1 (s : Fin 32) (n : Fin 2048) (o : Fin 512) :
    val_main_v57 (F := Ideal) x8 (ix3 s n o) = x8 (ix1 o) := by
  rw [val_main_v57_apply, val_main_v56_apply]
  exact congrArg _ (funext fun a => Fin.ext (by match a with | ⟨0, _⟩ => rfl))

/-- The second layer's normalised entry is `normalize` with the column means and centred variances. -/
theorem norm1 (s : Fin 32) (n : Fin 2048) (d : Fin 512) :
    val_main_v54 (F := Ideal) x0 x1 x2 x3 x4 x5 x6 (ix3 s n d)
      = normalize (ι := Fin 32 × Fin 2048) XT (colMean (ι := Fin 32 × Fin 2048) XT) (varC (ι := Fin 32 × Fin 2048) XT) GT BT (s, n) d := by
  rw [val_main_v54_apply, val_main_v51_apply, val_main_v48_apply, val_main_v42_apply, meanBc1b, rsqrtBc1, gBc1, bBc1]
  rfl

/-- The second layer's output after the maximum with zero, read at (s, n, o). -/
theorem layer1 (s : Fin 32) (n : Fin 2048) (o : Fin 512) :
    val_main_v59 (F := Ideal) x0 x1 x2 x3 x4 x5 x6 x7 x8 (ix3 s n o) = relu (layerC (ι := Fin 32 × Fin 2048) XT GT BT WT CT) (s, n) o := by
  have hk : ∀ k : Fin 512, val_main_v54 (F := Ideal) x0 x1 x2 x3 x4 x5 x6 (lidx_main_v55 (ix3 s n o) k) * x7 (ridx_main_v55 (ix3 s n o) k)
      = normalize (ι := Fin 32 × Fin 2048) XT (colMean (ι := Fin 32 × Fin 2048) XT) (varC (ι := Fin 32 × Fin 2048) XT) GT BT (s, n) k * x7 (ix2 o k) := by
    intro k
    rw [show lidx_main_v55 (ix3 s n o) k = ix3 s n k from
        funext fun a => Fin.ext (by match a with | ⟨0, _⟩ => rfl | ⟨1, _⟩ => rfl | ⟨2, _⟩ => rfl),
      show ridx_main_v55 (ix3 s n o) k = ix2 o k from
        funext fun a => Fin.ext (by match a with | ⟨0, _⟩ => rfl | ⟨1, _⟩ => rfl),
      norm1]
  rw [val_main_v59_apply, val_main_v58_apply, val_main_v55_apply, cBc1, Finset.sum_congr rfl fun k _ => hk k,
    val_main_call1_v0_apply, val_main_call1_cst_apply]
  show max _ (Ideal.ofBits .f32 0x00000000#32) = _
  rw [Ideal.ofBits_zero_f32]
  rfl

end Cert.BN.Ref

end
-- ==== Proof.RefLayer2.lean ====
/-
  The third layer of the reference, read entry by entry.

  Its input table is the second layer's output after `max · 0`, rows indexed by the pair (set, member) and columns by the feature.  The
  stages of the layer are: the column mean (a sum over both row coordinates divided by the row count), the centred
  column variance, the normalised entry `(x - mean) * rsqrt (var + ε) * g + b`, the product with `Wᵀ` plus `c`.  Each is identified with the function of the same name on tables.
-/
import proofs.«114695_j893353198455_2_alg».proof.Proof.RefReduce

set_option quotPrecheck false

noncomputable section

namespace Cert.BN.Ref

open Cert.ReferenceIdeal Cert.ReferenceIdeal.Gen Cert.ReferenceIdeal.Read Idealize.ShloMosaic Idealize.ShloMosaic.ValueIdx
open Idealize.SL.Sem

variable (x0 : (⟨S32x2048x256, .f32⟩ : BufTy).Contents (Elt Ideal)) (x1 x2 : (⟨S256, .f32⟩ : BufTy).Contents (Elt Ideal))
  (x3 : (⟨S512x256, .f32⟩ : BufTy).Contents (Elt Ideal)) (x4 x5 x6 : (⟨S512, .f32⟩ : BufTy).Contents (Elt Ideal))
  (x7 : (⟨S512x512, .f32⟩ : BufTy).Contents (Elt Ideal)) (x8 x9 x10 : (⟨S512, .f32⟩ : BufTy).Contents (Elt Ideal))
  (x11 : (⟨S1024x512, .f32⟩ : BufTy).Contents (Elt Ideal)) (x12 : (⟨S1024, .f32⟩ : BufTy).Contents (Elt Ideal))

local notation "XT" => (fun (r : Fin 32 × Fin 2048) (d : Fin 512) => val_main_v59 (F := Ideal) x0 x1 x2 x3 x4 x5 x6 x7 x8 (ix3 r.1 r.2 d))
local notation "GT" => (fun (d : Fin 512) => x9 (ix1 d))
local notation "BT" => (fun (d : Fin 512) => x10 (ix1 d))
local notation "WT" => (fun (o : Fin 1024) (d : Fin 512) => x11 (ix2 o d))
local notation "CT" => (fun (o : Fin 1024) => x12 (ix1 o))

/-- The third layer's column mean is `colMean` of its input table. -/
theorem mean2 (d : Fin 512) :
    val_main_v62 (F := Ideal) x0 x1 x2 x3 x4 x5 x6 x7 x8 (ix1 d) = colMean (ι := Fin 32 × Fin 2048) XT d := by
  rw [val_main_v62_apply, val_main_v61_apply, val_main_cst_10_apply]
  unfold val_main_v60 val_main_cst_9
  rw [reduceAdd_axes01_zero]
  rfl

/-- The mean broadcast over the rows, read at (s, n, d), is the mean of column `d`. -/
theorem meanBc2a (s : Fin 32) (n : Fin 2048) (d : Fin 512) :
    val_main_v64 (F := Ideal) x0 x1 x2 x3 x4 x5 x6 x7 x8 (ix3 s n d) = colMean (ι := Fin 32 × Fin 2048) XT d := by
  rw [val_main_v64_apply, val_main_v63_apply, ← mean2]
  exact congrArg _ (funext fun a => Fin.ext (by match a with | ⟨0, _⟩ => rfl))

/-- The second broadcast of the mean, likewise. -/
theorem meanBc2b (s : Fin 32) (n : Fin 2048) (d : Fin 512) :
    val_main_v71 (F := Ideal) x0 x1 x2 x3 x4 x5 x6 x7 x8 (ix3 s n d) = colMean (ι := Fin 32 × Fin 2048) XT d := by
  rw [val_main_v71_apply, val_main_v70_apply, ← mean2]
  exact congrArg _ (funext fun a => Fin.ext (by match a with | ⟨0, _⟩ => rfl))

/-- The third layer's column variance is the centred variance `varC` of its input table. -/
theorem var2 (d : Fin 512) :
    val_main_v69 (F := Ideal) x0 x1 x2 x3 x4 x5 x6 x7 x8 (ix1 d) = varC (ι := Fin 32 × Fin 2048) XT d := by
  rw [val_main_v69_apply, val_main_v68_apply, val_main_cst_12_apply]
  unfold val_main_v67 val_main_cst_11
  rw [reduceAdd_axes01_zero]
  have h6 : ∀ r : Fin 32 × Fin 2048, val_main_v66 (F := Ideal) x0 x1 x2 x3 x4 x5 x6 x7 x8 (ix3 r.1 r.2 d)
      = (XT r d - colMean (ι := Fin 32 × Fin 2048) XT d) * (XT r d - colMean (ι := Fin 32 × Fin 2048) XT d) := by
    intro r
    rw [val_main_v66_apply, val_main_v65_apply, meanBc2a]
    rfl
  rw [Finset.sum_congr rfl fun r _ => h6 r]
  rfl

/-- The reciprocal square root of variance plus `ε`, broadcast over the rows, read at (s, n, d). -/
theorem rsqrtBc2 (s : Fin 32) (n : Fin 2048) (d : Fin 512) :
    val_main_v77 (F := Ideal) x0 x1 x2 x3 x4 x5 x6 x7 x8 (ix3 s n d) = Ideal.rsqrt (varC (ι := Fin 32 × Fin 2048) XT d + eps) := by
  rw [val_main_v77_apply, val_main_v76_apply,
    show idx_main_v76 (idx_main_v77 (ix3 s n d)) = ix1 d from
      funext fun a => Fin.ext (by match a with | ⟨0, _⟩ => rfl),
    val_main_v75_apply, val_main_v74_apply, var2, val_main_v73_apply, val_main_cst_13_apply]
  rfl

/-- The scale `g` broadcast over the rows, read at (s, n, d). -/
theorem gBc2 (s : Fin 32) (n : Fin 2048) (d : Fin 512) :
    val_main_v80 (F := Ideal) x9 (ix3 s n d) = x9 (ix1 d) := by
  rw [val_main_v80_apply, val_main_v79_apply]
  exact congrArg _ (funext fun a => Fin.ext (by match a with | ⟨0, _⟩ => rfl))

/-- The shift `b` broadcast over the rows, read at (s, n, d). -/
theorem bBc2 (s : Fin 32) (n : Fin 2048) (d : Fin 512) :
    val_main_v83 (F := Ideal) x10 (ix3 s n d) = x10 (ix1 d) := by
  rw [val_main_v83_apply, val_main_v82_apply]
  exact congrArg _ (funext fun a => Fin.ext (by match a with | ⟨0, _⟩ => rfl))

/-- The bias `c` broadcast over the rows, read at (s, n, o). -/
theorem cBc2 (s : Fin 32) (n : Fin 2048) (o : Fin 1024) :
    val_main_v87 (F := Ideal) x12 (ix3 s n o) = x12 (ix1 o) := by
  rw [val_main_v87_apply, val_main_v86_apply]
  exact congrArg _ (funext fun a => Fin.ext (by match a with | ⟨0, _⟩ => rfl))

/-- The third layer's normalised entry is `normalize` with the column means and centred variances. -/
theorem norm2 (s : Fin 32) (n : Fin 2048) (d : Fin 512) :
    val_main_v84 (F := Ideal) x0 x1 x2 x3 x4 x5 x6 x7 x8 x9 x10 (ix3 s n d)
      = normalize (ι := Fin 32 × Fin 2048) XT (colMean (ι := Fin 32 × Fin 2048) XT) (varC (ι := Fin 32 × Fin 2048) XT) GT BT (s, n) d := by
  rw [val_main_v84_apply, val_main_v81_apply, val_main_v78_apply, val_main_v72_apply, meanBc2b, rsqrtBc2, gBc2, bBc2]
  rfl

/-- The third layer's output, read at (s, n, o). -/
theorem layer2 (s : Fin 32) (n : Fin 2048) (o : Fin 1024) :
    val_main_v88 (F := Ideal) x0 x1 x2 x3 x4 x5 x6 x7 x8 x9 x10 x11 x12 (ix3 s n o) = layerC (ι := Fin 32 × Fin 2048) XT GT BT WT CT (s, n) o := by
  have hk : ∀ k : Fin 512, val_main_v84 (F := Ideal) x0 x1 x2 x3 x4 x5 x6 x7 x8 x9 x10 (lidx_main_v85 (ix3 s n o) k) * x11 (ridx_main_v85 (ix3 s n o) k)
      = normalize (ι := Fin 32 × Fin 2048) XT (colMean (ι := Fin 32 × Fin 2048) XT) (varC (ι := Fin 32 × Fin 2048) XT) GT BT (s, n) k * x11 (ix2 o k) := by
    intro k
    rw [show lidx_main_v85 (ix3 s n o) k = ix3 s n k from
        funext fun a => Fin.ext (by match a with | ⟨0, _⟩ => rfl | ⟨1, _⟩ => rfl | ⟨2, _⟩ => rfl),
      show ridx_main_v85 (ix3 s n o) k = ix2 o k from
        funext fun a => Fin.ext (by match a with | ⟨0, _⟩ => rfl | ⟨1, _⟩ => rfl),
      norm2]
  rw [val_main_v88_apply, val_main_v85_apply, cBc2, Finset.sum_congr rfl fun k _ => hk k]
  rfl

end Cert.BN.Ref

end
-- ==== Proof.RefNet.lean ====
/-
  The reference as a whole: its result at (s, o) is the maximum, over the members `n` of set `s`, of the three-layer
  network (centred variance throughout) applied to the input table, read at row (s, n) and feature `o`.

  The last operation is a maximum over axis 1 from -∞, the supremum over `n`.  Under it sits the third layer's
  output, a function of the second layer's output table, itself a function of the first layer's: the three
  layer readings compose by substituting each table into the next.
-/
import proofs.«114695_j893353198455_2_alg».proof.Proof.RefLayer0
import proofs.«114695_j893353198455_2_alg».proof.Proof.RefLayer1
import proofs.«114695_j893353198455_2_alg».proof.Proof.RefLayer2

noncomputable section

namespace Cert.BN.Ref

open Cert.ReferenceIdeal Cert.ReferenceIdeal.Gen Cert.ReferenceIdeal.Read Idealize.ShloMosaic Idealize.ShloMosaic.ValueIdx
open Idealize.SL.Sem

/-- The reference's result at (s, o) is `setMax` of the three-layer network with centred variances, applied to the
    argument tables. -/
theorem ref_eq (x0 : (⟨S32x2048x256, .f32⟩ : BufTy).Contents (Elt Ideal)) (x1 x2 : (⟨S256, .f32⟩ : BufTy).Contents (Elt Ideal))
    (x3 : (⟨S512x256, .f32⟩ : BufTy).Contents (Elt Ideal)) (x4 x5 x6 : (⟨S512, .f32⟩ : BufTy).Contents (Elt Ideal))
    (x7 : (⟨S512x512, .f32⟩ : BufTy).Contents (Elt Ideal)) (x8 x9 x10 : (⟨S512, .f32⟩ : BufTy).Contents (Elt Ideal))
    (x11 : (⟨S1024x512, .f32⟩ : BufTy).Contents (Elt Ideal)) (x12 : (⟨S1024, .f32⟩ : BufTy).Contents (Elt Ideal))
    (s : Fin 32) (o : Fin 1024) :
    Cert.ReferenceIdeal.Read.val_main_v89 (F := Ideal) x0 x1 x2 x3 x4 x5 x6 x7 x8 x9 x10 x11 x12 (ValueIdx.ix2 s o)
      = Cert.BN.setMax (Cert.BN.netC (ι := Fin 32 × Fin 2048)
          (fun r d => x0 (ValueIdx.ix3 r.1 r.2 d)) (fun d => x1 (ValueIdx.ix1 d)) (fun d => x2 (ValueIdx.ix1 d))
          (fun o d => x3 (ValueIdx.ix2 o d)) (fun o => x4 (ValueIdx.ix1 o))
          (fun d => x5 (ValueIdx.ix1 d)) (fun d => x6 (ValueIdx.ix1 d)) (fun o d => x7 (ValueIdx.ix2 o d)) (fun o => x8 (ValueIdx.ix1 o))
          (fun d => x9 (ValueIdx.ix1 d)) (fun d => x10 (ValueIdx.ix1 d)) (fun o d => x11 (ValueIdx.ix2 o d)) (fun o => x12 (ValueIdx.ix1 o))) s o := by
  have e1 : (fun (r : Fin 32 × Fin 2048) (d : Fin 512) => val_main_v29 (F := Ideal) x0 x1 x2 x3 x4 (ix3 r.1 r.2 d))
      = relu (layerC (ι := Fin 32 × Fin 2048) (fun r d => x0 (ix3 r.1 r.2 d)) (fun d => x1 (ix1 d)) (fun d => x2 (ix1 d))
          (fun o d => x3 (ix2 o d)) (fun o => x4 (ix1 o))) :=
    funext fun r => funext fun d => layer0 x0 x1 x2 x3 x4 r.1 r.2 d
  have e2 : (fun (r : Fin 32 × Fin 2048) (d : Fin 512) => val_main_v59 (F := Ideal) x0 x1 x2 x3 x4 x5 x6 x7 x8 (ix3 r.1 r.2 d))
      = relu (layerC (ι := Fin 32 × Fin 2048)
          (fun (r : Fin 32 × Fin 2048) (d : Fin 512) => val_main_v29 (F := Ideal) x0 x1 x2 x3 x4 (ix3 r.1 r.2 d))
          (fun d => x5 (ix1 d)) (fun d => x6 (ix1 d)) (fun o d => x7 (ix2 o d)) (fun o => x8 (ix1 o))) :=
    funext fun r => funext fun d => layer1 x0 x1 x2 x3 x4 x5 x6 x7 x8 r.1 r.2 d
  unfold val_main_v89 val_main_cst_14
  rw [reduceMax_axis1]
  unfold setMax netC
  refine congrArg (Finset.sup Finset.univ) (funext fun n => ?_)
  rw [layer2, e2, e1]

end Cert.BN.Ref

end
-- ==== Proof.KRun.lean ====
/-
  The idealized kernel's whole run, with its result named.

  The program is four pipelined regions among five stretches of host operations.  Every weakly fair execution
  terminates without a fault; at the end every unscoped buffer holds the last boundary's contents `W9` — the fold of
  the host stretches and of the regions' write-backs over the launch memory.  The frame certificate reads that fact
  at the thirteen argument buffers; here it is read at the result buffer as well, so that the value of the result
  is the fold's value there.
-/
import proofs.«114695_j893353198455_2_alg».proof.Proof.Gen.KernelIdeal.Frame

set_option maxRecDepth 16384

noncomputable section

namespace Cert.BN.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the thirteen arguments as launched. -/
theorem run_value : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.BN.Ker

end
-- ==== Proof.KTables.lean ====
/-
  The argument arrays as tables, and the activations of the first two layers.

  The input is a table of 32·2048 rows (set `s`, member `y`) of 256 features; the per-layer vectors and matrices are
  read off the argument buffers.  `tY0` and `tY1` are the first and second layers' activations, with the column
  variance by moments, as the kernel computes it.
-/
import proofs.«114695_j893353198455_2_alg».proof.Proof.Gen.KernelIdeal.Frame
import proofs.«114695_j893353198455_2_alg».proof.Proof.Spec

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-- The input as a table: row `(s, y)` is member `y` of set `s`. -/
abbrev tX : Fin 32 × Fin 2048 → Fin 256 → EReal := fun r d => m ((c.tc : Thread nD τ).loc main_arg0) (ix3 r.1 r.2 d)
abbrev tg0 : Fin 256 → EReal := fun d => m ((c.tc : Thread nD τ).loc main_arg1) (ix1 d)
abbrev tb0 : Fin 256 → EReal := fun d => m ((c.tc : Thread nD τ).loc main_arg2) (ix1 d)
abbrev tW0 : Fin 512 → Fin 256 → EReal := fun o d => m ((c.tc : Thread nD τ).loc main_arg3) (ix2 o d)
abbrev tc0 : Fin 512 → EReal := fun o => m ((c.tc : Thread nD τ).loc main_arg4) (ix1 o)
abbrev tg1 : Fin 512 → EReal := fun d => m ((c.tc : Thread nD τ).loc main_arg5) (ix1 d)
abbrev tb1 : Fin 512 → EReal := fun d => m ((c.tc : Thread nD τ).loc main_arg6) (ix1 d)
abbrev tW1 : Fin 512 → Fin 512 → EReal := fun o d => m ((c.tc : Thread nD τ).loc main_arg7) (ix2 o d)
abbrev tc1 : Fin 512 → EReal := fun o => m ((c.tc : Thread nD τ).loc main_arg8) (ix1 o)
abbrev tg2 : Fin 512 → EReal := fun d => m ((c.tc : Thread nD τ).loc main_arg9) (ix1 d)
abbrev tb2 : Fin 512 → EReal := fun d => m ((c.tc : Thread nD τ).loc main_arg10) (ix1 d)
abbrev tW2 : Fin 1024 → Fin 512 → EReal := fun o d => m ((c.tc : Thread nD τ).loc main_arg11) (ix2 o d)
abbrev tc2 : Fin 1024 → EReal := fun o => m ((c.tc : Thread nD τ).loc main_arg12) (ix1 o)

/-- The first layer's activations. -/
def tY0 : Fin 32 × Fin 2048 → Fin 512 → EReal :=
  Cert.BN.relu (Cert.BN.layerM (tX m c) (tg0 m c) (tb0 m c) (tW0 m c) (tc0 m c))
/-- The second layer's activations. -/
def tY1 : Fin 32 × Fin 2048 → Fin 512 → EReal :=
  Cert.BN.relu (Cert.BN.layerM (tY0 m c) (tg1 m c) (tb1 m c) (tW1 m c) (tc1 m c))

end Cert.BN.Ker

end
-- ==== Proof.KIdx.lean ====
/-
  Row arithmetic shared by the kernel-side modules.

  An activation array has 65536 rows: row `2048·t + y` is row `y` of tile (grid point, set) `t`.  A partial-sum array
  has 256 rows: row `8·t + j` is row `j` of tile `t`'s 8-row block.  Every region's grid has the 32 points `t`.
-/
import proofs.«114695_j893353198455_2_alg».proof.Proof.Gen.KernelIdeal.Frame
import proofs.«114695_j893353198455_2_alg».proof.Proof.Spec

import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

/-- Row `j` of tile `t` among the 256 rows of a partial-sum array. -/
def prow (t : Fin 32) (j : Fin 8) : Fin 256 := ⟨t.val * 8 + j.val, by omega⟩

/-- Row `y` of tile `t` among the 65536 rows of an activation array. -/
def row (t : Fin 32) (y : Fin 2048) : Fin 65536 := ⟨t.val * 2048 + y.val, by omega⟩

theorem prow_val (t : Fin 32) (j : Fin 8) : (prow t j).val = t.val * 8 + j.val := rfl
theorem row_val (t : Fin 32) (y : Fin 2048) : (row t y).val = t.val * 2048 + y.val := rfl

/-- A point of region 0's grid as a tile number. -/
def pt0 (t : Fin cfg0.N) : Fin 32 := ⟨t.val, by have h : cfg0.N = 32 := N_0; have := t.isLt; omega⟩
/-- A point of region 1's grid as a tile number. -/
def pt1 (t : Fin cfg1.N) : Fin 32 := ⟨t.val, by have h : cfg1.N = 32 := N_1; have := t.isLt; omega⟩
/-- A point of region 2's grid as a tile number. -/
def pt2 (t : Fin cfg2.N) : Fin 32 := ⟨t.val, by have h : cfg2.N = 32 := N_2; have := t.isLt; omega⟩
/-- A point of region 3's grid as a tile number. -/
def pt3 (t : Fin cfg3.N) : Fin 32 := ⟨t.val, by have h : cfg3.N = 32 := N_3; have := t.isLt; omega⟩

/-- Every tile number is a point of region 0's grid (and likewise below). -/
def tp0 (s : Fin 32) : Fin cfg0.N := ⟨s.val, by have h : cfg0.N = 32 := N_0; have := s.isLt; omega⟩
def tp1 (s : Fin 32) : Fin cfg1.N := ⟨s.val, by have h : cfg1.N = 32 := N_1; have := s.isLt; omega⟩
def tp2 (s : Fin 32) : Fin cfg2.N := ⟨s.val, by have h : cfg2.N = 32 := N_2; have := s.isLt; omega⟩
def tp3 (s : Fin 32) : Fin cfg3.N := ⟨s.val, by have h : cfg3.N = 32 := N_3; have := s.isLt; omega⟩

theorem pt0_tp0 (s : Fin 32) : pt0 (tp0 s) = s := rfl
theorem pt1_tp1 (s : Fin 32) : pt1 (tp1 s) = s := rfl
theorem pt2_tp2 (s : Fin 32) : pt2 (tp2 s) = s := rfl
theorem pt3_tp3 (s : Fin 32) : pt3 (tp3 s) = s := rfl

end Cert.BN.Ker

end
-- ==== Proof.KSum.lean ====
/-
  From a region's partial column sums to the next layer's column statistics.

  A region writes, for each of the 32 tiles, an 8-row block whose row 0 holds the tile's column sums (of the entries,
  or of their squares) and whose other rows are zero.  Summing all 32·8 partial rows therefore sums the tile sums,
  that is, the column over all 32·2048 rows; divided by the row count this is the column mean, and mean of squares
  minus squared mean, floored at zero, is the column variance by moments.
-/
import proofs.«114695_j893353198455_2_alg».proof.Proof.Spec
import proofs.«114695_j893353198455_2_alg».proof.Proof.KIdx
import Mathlib.Algebra.BigOperators.Fin

noncomputable section

namespace Cert.BN.Ker

open Idealize.ShloMosaic

/-- Only row 0 of each tile's block is nonzero, so the sum over the partial rows is the sum over all rows. -/
theorem sum_partial (f : Fin 32 × Fin 2048 → EReal) :
    ∑ r : Fin 32 × Fin 8, (if r.2.val = 0 then ∑ y : Fin 2048, f (r.1, y) else 0) = ∑ r : Fin 32 × Fin 2048, f r := by
  rw [Fintype.sum_prod_type, Fintype.sum_prod_type]
  refine Finset.sum_congr rfl fun t _ => ?_
  rw [Finset.sum_eq_single (0 : Fin 8)]
  · rfl
  · intro j _ hj
    rw [if_neg]
    exact fun h => hj (Fin.ext h)
  · intro h
    exact absurd (Finset.mem_univ _) h

variable {O : ℕ}

/-- The column mean from the partial sums. -/
theorem mean_of_partial (Y : Fin 32 × Fin 2048 → Fin O → EReal) (S : Fin 256 → EReal) (o : Fin O)
    (hS : ∀ (s : Fin 32) (j : Fin 8), S (prow s j) = if j.val = 0 then ∑ y : Fin 2048, Y (s, y) o else 0) :
    Ideal.div (∑ r : Fin 32 × Fin 8, S (prow r.1 r.2)) cnt = colMean Y o := by
  unfold colMean
  rw [← sum_partial (fun r => Y r o)]
  exact congrArg (fun z => Ideal.div z cnt) (Finset.sum_congr rfl fun r _ => hS r.1 r.2)

/-- The column variance by moments from the two families of partial sums. -/
theorem var_of_partial (Y : Fin 32 × Fin 2048 → Fin O → EReal) (S Q : Fin 256 → EReal) (o : Fin O)
    (hS : ∀ (s : Fin 32) (j : Fin 8), S (prow s j) = if j.val = 0 then ∑ y : Fin 2048, Y (s, y) o else 0)
    (hQ : ∀ (s : Fin 32) (j : Fin 8), Q (prow s j) = if j.val = 0 then ∑ y : Fin 2048, Y (s, y) o * Y (s, y) o else 0) :
    max (Ideal.div (∑ r : Fin 32 × Fin 8, Q (prow r.1 r.2)) cnt
        - Ideal.div (∑ r : Fin 32 × Fin 8, S (prow r.1 r.2)) cnt * Ideal.div (∑ r : Fin 32 × Fin 8, S (prow r.1 r.2)) cnt) 0
      = varM Y o := by
  rw [mean_of_partial Y S o hS]
  unfold varM
  rw [← sum_partial (fun r => Y r o * Y r o)]
  exact congrArg (fun z => max (Ideal.div z cnt - colMean Y o * colMean Y o) 0) (Finset.sum_congr rfl fun r _ => hQ r.1 r.2)

end Cert.BN.Ker

end
-- ==== Proof.LibPlainDot.lean ====
/-
  A PLAIN MATRIX PRODUCT READ AT AN INDEX.

  A product of an `M × K` by a `K × N` matrix with no batch axis (left operand contracted on its last axis, right
  operand on its first) has one contraction axis of extent `K`. At the exact instance both the matrix unit's product into
  a zero accumulator and the host's `dot_general` are, at the output index `(p, q)`, the plain sum over `k` of the left
  operand at `(p, k)` times the right operand at `(k, q)`.
-/
import Idealize.ShloMosaic.PureOps
import Idealize.ShloMosaic.PureOps.Ideal.Laws
import Idealize.ShloMosaic.Lib.ValueIdx

namespace Idealize.PlainDot

open Idealize.ShloMosaic Idealize.ShloMosaic.ValueIdx

/-- Dimension numbers with the plain fields are `DotDims.plain` (whatever proof of their conditions they carry). -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  obtain ⟨lc, rc, ln, rn, lb, rb, wf⟩ := d
  dsimp only at h1 h2 h3 h4 h5 h6
  subst h1 h2 h3 h4 h5 h6
  rfl

/-- THE CONTRACTION AS A PLAIN SUM: over the one contraction axis of a plain product, the sum of the products of the
    operands at the dot's operand indices for output `(p, q)` is the sum over `k : Fin K` of `l (p, k) * r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- THE MATRIX UNIT'S PRODUCT INTO A ZERO ACCUMULATOR, read at `(p, q)`. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant (⟨2, ![M, N]⟩ : Shape) .f32 0x00000000#32) (ix2 p q)
      = ∑ k : Fin K, l (ix2 p k) * r (ix2 k q) := by
  subst hd
  show FloatOps.matmul _ prec l r _ _ = _
  rw [Ideal.matmul_constant_zero_apply]
  exact plain_sum l r p q

/-- THE HOST'S `dot_general`, read at `(p, q)`. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Idealize.PlainDot
-- ==== Proof.PayCommon.lean ====
/-
  Small facts shared by the four kernel bodies read at an index: the zero offsets of a whole-block rectangle, a sum down
  the rows of a table read at a column, a one-row table laid under every row, the "row 0 only" mask of an eight-row
  block, and a maximum down the rows.
-/
import proofs.«114695_j893353198455_2_alg».proof.Proof.Gen.KernelIdeal.Frame
import proofs.«114695_j893353198455_2_alg».proof.Proof.Spec
import proofs.«114695_j893353198455_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.BN.Pay

open Cert.KernelIdeal Cert.KernelIdeal.Gen Idealize.ShloMosaic ValueIdx

/-- The offsets of a whole rank-2 block are all zero. -/
theorem hz2 : (![0, 0] : Fin 2 → Nat) = fun _ => 0 := funext fun a => by fin_cases a <;> rfl

/-- The offsets of a whole rank-3 block are all zero. -/
theorem hz3 : (![0, 0, 0] : Fin 3 → Nat) = fun _ => 0 := funext fun a => by fin_cases a <;> rfl

/-- A sum over the rows of an `R × D` table, read at column `d`, is the sum over `y` of the entries `(y, d)`. -/
theorem sumRows_apply {R D : ℕ} (src : FVec Ideal ⟨2, ![R, D]⟩ .f32) (acc : BitVec 32)
    (h : Shape.Reduces ⟨2, ![R, D]⟩ [0] ⟨1, ![D]⟩) (hφ : FKind.Formats .f32) (hacc : acc = FKind.add.neutral .f32 hφ)
    (d : Fin D) :
    multiReduction (F := Ideal) .add [0] ⟨1, ![D]⟩ src acc h hφ hacc (ix1 d) = ∑ y : Fin R, src (ix2 y d) :=
  (Ideal.multiReduction_add_single src acc h hφ hacc (ix1 d)).trans
    (Finset.sum_congr rfl fun y _ => congrArg src (funext fun c => Fin.ext (by
      match c with
      | ⟨0, _⟩ => rfl
      | ⟨1, _⟩ => rfl)))

/-- The same sum kept as a one-row table: a `[D]` vector viewed `[1, D]`, read at `(u, d)`. -/
theorem sumRowsKeep_apply {R D : ℕ} (src : FVec Ideal ⟨2, ![R, D]⟩ .f32) (acc : BitVec 32)
    (h : Shape.Reduces ⟨2, ![R, D]⟩ [0] ⟨1, ![D]⟩) (hφ : FKind.Formats .f32) (hacc : acc = FKind.add.neutral .f32 hφ)
    (hc : (⟨1, ![D]⟩ : Shape).ShapeCasts ⟨2, ![1, D]⟩) (u : Fin 1) (d : Fin D) :
    shapeCast ⟨2, ![1, D]⟩ (multiReduction (F := Ideal) .add [0] ⟨1, ![D]⟩ src acc h hφ hacc) hc (ix2 u d)
      = ∑ y : Fin R, src (ix2 y d) :=
  (shapeCast_a_1a_apply _ hc u d).trans (sumRows_apply src acc h hφ hacc d)

/-- In an eight-row block the mask "the row number is 0" picks the first operand on row 0 and the second elsewhere. -/
theorem rowMask_apply {D : ℕ} {α : Type} (hi : Shape.Iotas (⟨2, ![8, D]⟩ : Shape) .tc 32 [0])
    (a b : (⟨2, ![8, D]⟩ : Shape).Idx → α) (j : Fin 8) (d : Fin D) :
    select (cmpi .eq (iota .tc ⟨2, ![8, D]⟩ 32 [0] hi) (broadcast ⟨2, ![8, D]⟩ 0#32)) a b (ix2 j d)
      = if j.val = 0 then a (ix2 j d) else b (ix2 j d) := by
  rw [select_apply]
  show Scalar.select (IntOp.cmpi .eq (iota .tc ⟨2, ![8, D]⟩ 32 [0] hi (ix2 j d)) 0#32) _ _ = _
  rw [iota_single_apply]
  show Scalar.select (IntOp.cmpi .eq (BitVec.ofNat 32 j.val) 0#32) _ _ = _
  have hj := j.isLt
  generalize j.val = n at hj ⊢
  interval_cases n <;> rfl

end Cert.BN.Pay

end
-- ==== Proof.Pay0.lean ====
/-
  REGION 0, the statistics of the raw input, read at an index: the body leaves in each of its two eight-row output
  blocks the column sums (of the entries, of their squares) on row 0 and zero on the other rows.
-/
import proofs.«114695_j893353198455_2_alg».proof.Proof.PayCommon

noncomputable section

namespace Cert.BN.Pay

open Cert.KernelIdeal Cert.KernelIdeal.Gen Idealize.ShloMosaic ValueIdx

/-- The sum of every row of the block, kept in row 0 of an eight-row block that is zero elsewhere. -/
theorem out0_1_apply (x0 : Vec Ideal S2048x256 .f32) (j : Fin 8) (d : Fin 256) :
    out0_1 (F := Ideal) x0 (ix2 j d) = if j.val = 0 then ∑ y : Fin 2048, x0 (ix2 y d) else 0 := by
  unfold out0_1
  rw [View.canon_unit_zero hz2]
  simp only [View.ld_unit_zero (S := S2048x256) hz2]
  unfold k0_pay3 k0_pay2 k0_pay1
  refine (rowMask_apply iota_S8x256_d0_w32 _ _ j d).trans (if_congr Iff.rfl ?_ ?_)
  · refine (broadcastTo_1b_ab_apply _ broadcasts_S1x256_S8x256 j d).trans ?_
    refine (congrFun (shapeCast_self _ shapeCasts_S1x256_S1x256) _).trans ?_
    refine (sumRowsKeep_apply _ _ reduces_S2048x256_S256 _ _ shapeCasts_S256_S1x256 0 d).trans ?_
    exact Finset.sum_congr rfl fun y _ => congrFun (shapeCast_self x0 shapeCasts_S2048x256_S2048x256) (ix2 y d)
  · exact Ideal.ofBits_zero_f32

/-- The sum of the squares of every row of the block, kept in row 0 of an eight-row block that is zero elsewhere. -/
theorem out0_2_apply (x0 : Vec Ideal S2048x256 .f32) (j : Fin 8) (d : Fin 256) :
    out0_2 (F := Ideal) x0 (ix2 j d) = if j.val = 0 then ∑ y : Fin 2048, x0 (ix2 y d) * x0 (ix2 y d) else 0 := by
  unfold out0_2
  rw [View.canon_unit_zero hz2]
  simp only [View.ld_unit_zero (S := S2048x256) hz2]
  unfold k0_pay4 k0_pay2 k0_pay1
  refine (rowMask_apply iota_S8x256_d0_w32 _ _ j d).trans (if_congr Iff.rfl ?_ ?_)
  · refine (broadcastTo_1b_ab_apply _ broadcasts_S1x256_S8x256 j d).trans ?_
    refine (congrFun (shapeCast_self _ shapeCasts_S1x256_S1x256) _).trans ?_
    refine (sumRowsKeep_apply _ _ reduces_S2048x256_S256 _ _ shapeCasts_S256_S1x256 0 d).trans ?_
    refine Finset.sum_congr rfl fun y _ => ?_
    have e := congrFun (shapeCast_self x0 shapeCasts_S2048x256_S2048x256) (ix2 y d)
    exact (mulf_apply _ _ _).trans (by rw [e])
  · exact Ideal.ofBits_zero_f32

end Cert.BN.Pay

end
-- ==== Proof.KReg0.lean ====
/-
  REGION 0 (the statistics of the raw input), the arrays it leaves read at an index.

  The grid has 32 points. At point t the body is given rows 2048·t … 2048·t + 2047 of the 65536-row input and writes, in
  each of its two outputs, the eight-row block of rows 8·t … 8·t + 7: row 0 of the block holds the column sums over the
  2048 rows (of the entries; of their squares), rows 1 … 7 hold zero. Distinct points write distinct blocks, so after
  the region each block of an output array holds exactly what its own point wrote. The input array is only read.
-/
import proofs.«114695_j893353198455_2_alg».proof.Proof.KIdx
import proofs.«114695_j893353198455_2_alg».proof.Proof.Pay0

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The block index of each of the three windows at point t is (t, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## Where a block's entry sits in its array -/

/-- Entry (y, d) of the input block at point t is entry (2048·t + y, d) of the input array. -/
theorem emb0_0 (t : Fin cfg0.N) (y : Fin 2048) (d : Fin 256) :
    ((cfg0.win 0).blk t).view.emb (ix2 y d) = ix2 (row (pt0 t) y) d := by
  funext a; apply Fin.ext
  match a with
  | ⟨0, _⟩ => show win0_0.index t (0 : Fin 2) * 2048 + 1 * y.val = t.val * 2048 + y.val; rw [(idx0 t).1]; omega
  | ⟨1, _⟩ => show win0_0.index t (1 : Fin 2) * 256 + 1 * d.val = d.val; rw [(idx0 t).2.1]; omega

/-- Entry (j, d) of the first output's block at point t is entry (8·t + j, d) of that output array. -/
theorem emb0_1 (t : Fin cfg0.N) (j : Fin 8) (d : Fin 256) :
    ((cfg0.win 1).blk t).view.emb (ix2 j d) = ix2 (prow (pt0 t) j) d := by
  funext a; apply Fin.ext
  match a with
  | ⟨0, _⟩ => show win0_1.index t (0 : Fin 2) * 8 + 1 * j.val = t.val * 8 + j.val; rw [(idx0 t).2.2.1]; omega
  | ⟨1, _⟩ => show win0_1.index t (1 : Fin 2) * 256 + 1 * d.val = d.val; rw [(idx0 t).2.2.2.1]; omega

/-- Entry (j, d) of the second output's block at point t is entry (8·t + j, d) of that output array. -/
theorem emb0_2 (t : Fin cfg0.N) (j : Fin 8) (d : Fin 256) :
    ((cfg0.win 2).blk t).view.emb (ix2 j d) = ix2 (prow (pt0 t) j) d := by
  funext a; apply Fin.ext
  match a with
  | ⟨0, _⟩ => show win0_2.index t (0 : Fin 2) * 8 + 1 * j.val = t.val * 8 + j.val; rw [(idx0 t).2.2.2.2.1]; omega
  | ⟨1, _⟩ => show win0_2.index t (1 : Fin 2) * 256 + 1 * d.val = d.val; rw [(idx0 t).2.2.2.2.2]; omega

/-- The input block at point t, read at (y, d), is the input array at (2048·t + y, d). -/
theorem iblk0_0_apply (c : Dev nD) (t : Fin cfg0.N) (y : Fin 2048) (d : Fin 256) :
    (iblk0 V c 0 t : S2048x256.Idx → EReal) (ix2 y d) = (V c main_v0 : S65536x256.Idx → EReal) (ix2 (row (pt0 t) y) d) := by
  unfold iblk0
  rw [View.read_apply]
  exact congrArg (V c main_v0 : S65536x256.Idx → EReal) (emb0_0 t y d)

/-! ## Distinct points write distinct blocks -/

theorem idx_inj0_1 (t t' : Fin cfg0.N) (h : win0_1.index t = win0_1.index t') : t = t' :=
  Fin.ext (by have e := congrFun h (0 : Fin 2); rwa [(idx0 t).2.2.1, (idx0 t').2.2.1] at e)

theorem idx_inj0_2 (t t' : Fin cfg0.N) (h : win0_2.index t = win0_2.index t') : t = t' :=
  Fin.ext (by have e := congrFun h (0 : Fin 2); rwa [(idx0 t).2.2.2.2.1, (idx0 t').2.2.2.2.1] at e)

theorem disjoint0_1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj0_1 t t' h)

theorem disjoint0_2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj0_2 t t' h)

/-! ## The output arrays, block by block -/

/-- After the region, the first output array at (8·t + j, d) is what point t's body left at (j, d). -/
theorem arr0_1_pt (c : Dev nD) (t : Fin cfg0.N) (j : Fin 8) (d : Fin 256) :
    (dat0 V c).arrAt 1 cfg0.N (ix2 (prow (pt0 t) j) d) = out0_1 (F := Ideal) (iblk0 V c 0 t) (ix2 j d) := by
  have h := (dat0 V c).arrAt_emb_eq_flushed 1 disjoint0_1 t (flush0_1 t) (ix2 j d)
  rw [cast_eq] at h
  refine (congrArg ((dat0 V c).arrAt 1 cfg0.N) (emb0_1 t j d)).symm.trans (h.trans ?_)
  show (dat0 V c).after 1 t (ix2 j d) = _
  rw [after0_1]

/-- After the region, the second output array at (8·t + j, d) is what point t's body left at (j, d). -/
theorem arr0_2_pt (c : Dev nD) (t : Fin cfg0.N) (j : Fin 8) (d : Fin 256) :
    (dat0 V c).arrAt 2 cfg0.N (ix2 (prow (pt0 t) j) d) = out0_2 (F := Ideal) (iblk0 V c 0 t) (ix2 j d) := by
  have h := (dat0 V c).arrAt_emb_eq_flushed 2 disjoint0_2 t (flush0_2 t) (ix2 j d)
  rw [cast_eq] at h
  refine (congrArg ((dat0 V c).arrAt 2 cfg0.N) (emb0_2 t j d)).symm.trans (h.trans ?_)
  show (dat0 V c).after 2 t (ix2 j d) = _
  rw [after0_2]

/-! ## The output arrays in closed form -/

/-- The first output: row 8·s of tile s holds the column sums over the tile's 2048 rows, rows 8·s + 1 … 8·s + 7 zero. -/
theorem arr0_1 (c : Dev nD) (s : Fin 32) (j : Fin 8) (d : Fin 256) :
    @Eq EReal ((dat0 V c).arrAt 1 cfg0.N (ix2 (prow s j) d))
      (if j.val = 0 then ∑ y : Fin 2048, V c main_v0 (ix2 (row s y) d) else 0) :=
  (arr0_1_pt V c (tp0 s) j d).trans ((Pay.out0_1_apply (iblk0 V c 0 (tp0 s)) j d).trans
    (if_congr Iff.rfl (Finset.sum_congr rfl fun y _ => iblk0_0_apply V c (tp0 s) y d) rfl))

/-- The second output, with the input array named as a table X0 of extended reals: the same with the squares of the
    entries. (Instantiate X0 by the array itself, the equation by reflexivity: `arr0_2` below.) -/
theorem arr0_2_of (c : Dev nD) (s : Fin 32) (j : Fin 8) (d : Fin 256) (X0 : S65536x256.Idx → EReal)
    (h0 : X0 = V c main_v0) :
    @Eq EReal ((dat0 V c).arrAt 2 cfg0.N (ix2 (prow s j) d))
      (if j.val = 0 then ∑ y : Fin 2048, X0 (ix2 (row s y) d) * X0 (ix2 (row s y) d) else 0) := by
  subst h0
  exact (arr0_2_pt V c (tp0 s) j d).trans ((Pay.out0_2_apply (iblk0 V c 0 (tp0 s)) j d).trans
    (if_congr Iff.rfl (Finset.sum_congr rfl fun y _ =>
      congrArg₂ (fun a b : EReal => a * b) (iblk0_0_apply V c (tp0 s) y d) (iblk0_0_apply V c (tp0 s) y d)) rfl))

/-- The second output: (dat0 V c).arrAt 2 cfg0.N (ix2 (prow s j) d)
      = if j.val = 0 then ∑ y : Fin 2048, V c main_v0 (ix2 (row s y) d) * V c main_v0 (ix2 (row s y) d) else 0. -/
theorem arr0_2 (c : Dev nD) (s : Fin 32) (j : Fin 8) (d : Fin 256) :
    type_of% (arr0_2_of V c s j d _ rfl) :=
  arr0_2_of V c s j d _ rfl

/-- The input array is only read: after the region it is as the region found it. -/
theorem kept0 (c : Dev nD) (w : Fin cfg0.W) (hw : (cfg0.win w).isOut = false) :
    (dat0 V c).arrAt w cfg0.N = V c (Pipeline.arrRef spec0 w) :=
  ((dat0 V c).arrAt_in w hw _).trans (A_eq0 V c w)

/-- The input array after the region. -/
theorem kept0_0 (c : Dev nD) : (dat0 V c).arrAt 0 cfg0.N = V c main_v0 := kept0 V c 0 rfl

end Cert.BN.Ker

end
-- ==== Proof.KHost256.lean ====
/-
  The host operations between two regions, for a 256-wide layer, read at an index.

  A region leaves two [256, 256] arrays of partial column sums: rows `8t` hold tile `t`'s sums (of the entries, of
  their squares), the other rows zero.  The host regroups them as [32, 8, 256], sums over the first two axes, divides
  by the row count, and forms `max (mean of squares - mean², 0)`; both column vectors are then given a leading unit
  axis.  Read at a column `d` these are the quotient of the sum over all 32·8 partial rows by `cnt`.
-/
import proofs.«114695_j893353198455_2_alg».proof.Proof.Gen.KernelIdeal.Frame
import proofs.«114695_j893353198455_2_alg».proof.Proof.Spec
import proofs.«114695_j893353198455_2_alg».proof.Proof.RefReduce
import proofs.«114695_j893353198455_2_alg».proof.Proof.KIdx
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

/-- The partial-sum array regrouped as [32, 8, 256], at `(t, j, d)`: its row `8t + j`. -/
theorem split_256x256 (S : S256x256.Idx → EReal) (h : S256x256.ShapeCasts S32x8x256) (t : Fin 32) (j : Fin 8) (d : Fin 256) :
    shapeCast S32x8x256 S h (ix3 t j d) = S (ix2 (prow t j) d) :=
  shapeCast_apply S h _ _ (by rw [Shape.rowMajor_val_two, Shape.rowMajor_val_three]; rfl)

/-- The column mean the host forms from a partial-sum array. -/
theorem mean_stage256 (S : S256x256.Idx → EReal) (a : Fin 1) (d : Fin 256) :
    shapeCast S1x256 (Host.divf (Host.reduceAdd (fun i => shapeCast S32x8x256 S shapeCasts_S256x256_S32x8x256 i)
        (constant (F := Ideal) S_ .f32 0x00000000#32) reducesTo_S32x8x256_S256_d0_1 h_S_)
      (broadcastInDim S256 ![] bcast_S_S256 (constant (F := Ideal) S_ .f32 0x47800000#32))) shapeCasts_S256_S1x256 (ix2 a d)
      = Ideal.div (∑ r : Fin 32 × Fin 8, S (ix2 (prow r.1 r.2) d)) Cert.BN.cnt := by
  refine (shapeCast_a_1a_apply _ _ a d).trans ?_
  simp only [Host.divf, Cert.BN.Ref.reduceAdd_axes01_zero, split_256x256]
  rfl

/-- The column variance by moments the host forms from the two partial-sum arrays (`S`: sums, `Q`: sums of squares). -/
theorem var_stage256 (S Q : S256x256.Idx → EReal) (a : Fin 1) (d : Fin 256) :
    shapeCast S1x256 (maximumf
        (subf
          (Host.divf (Host.reduceAdd (fun i => shapeCast S32x8x256 Q shapeCasts_S256x256_S32x8x256 i)
              (constant (F := Ideal) S_ .f32 0x00000000#32) reducesTo_S32x8x256_S256_d0_1 h_S_)
            (broadcastInDim S256 ![] bcast_S_S256 (constant (F := Ideal) S_ .f32 0x47800000#32)))
          (mulf
            (Host.divf (Host.reduceAdd (fun i => shapeCast S32x8x256 S shapeCasts_S256x256_S32x8x256 i)
                (constant (F := Ideal) S_ .f32 0x00000000#32) reducesTo_S32x8x256_S256_d0_1 h_S_)
              (broadcastInDim S256 ![] bcast_S_S256 (constant (F := Ideal) S_ .f32 0x47800000#32)))
            (Host.divf (Host.reduceAdd (fun i => shapeCast S32x8x256 S shapeCasts_S256x256_S32x8x256 i)
                (constant (F := Ideal) S_ .f32 0x00000000#32) reducesTo_S32x8x256_S256_d0_1 h_S_)
              (broadcastInDim S256 ![] bcast_S_S256 (constant (F := Ideal) S_ .f32 0x47800000#32)))))
        (broadcastInDim S256 ![] bcast_S_S256 (constant (F := Ideal) S_ .f32 0x00000000#32))) shapeCasts_S256_S1x256 (ix2 a d)
      = max (Ideal.div (∑ r : Fin 32 × Fin 8, Q (ix2 (prow r.1 r.2) d)) Cert.BN.cnt
          - Ideal.div (∑ r : Fin 32 × Fin 8, S (ix2 (prow r.1 r.2) d)) Cert.BN.cnt
            * Ideal.div (∑ r : Fin 32 × Fin 8, S (ix2 (prow r.1 r.2) d)) Cert.BN.cnt) 0 := by
  refine (shapeCast_a_1a_apply _ _ a d).trans ?_
  simp only [maximumf, subf, mulf, Host.divf, Cert.BN.Ref.reduceAdd_axes01_zero, split_256x256]
  refine Eq.trans ?_ (congrArg (max _) Ideal.ofBits_zero_f32)
  rfl

/-- A column vector given a leading unit axis, at `(0, d)`: its entry `d`. -/
theorem vec_stage256 (g : S256.Idx → EReal) (a : Fin 1) (d : Fin 256) :
    shapeCast S1x256 g shapeCasts_S256_S1x256 (ix2 a d) = g (ix1 d) := shapeCast_a_1a_apply _ _ a d

/-- The weight matrix transposed and narrowed, at `(d, o)`: its entry `(o, d)` (a change of format is the identity). -/
theorem wt_stage256x512 (W : S512x256.Idx → EReal) (d : Fin 256) (o : Fin 512) :
    truncf (F := Ideal) .bf16 (transpose S256x512 [1, 0] W transposes_S512x256_S256x512_1_0) bitsLt_bf16_f32 (ix2 d o) = W (ix2 o d) :=
  transpose_ix2_apply W transposes_S512x256_S256x512_1_0 d o

/-- The input flattened to rows, at row `2048 s + y`: the entry of set `s`, member `y`. -/
theorem in_stage (X : S32x2048x256.Idx → EReal) (s : Fin 32) (y : Fin 2048) (d : Fin 256) :
    shapeCast S65536x256 X shapeCasts_S32x2048x256_S65536x256 (ix2 (row s y) d) = X (ix3 s y d) :=
  shapeCast_apply X _ _ _ (by rw [Shape.rowMajor_val_two, Shape.rowMajor_val_three]; rfl)

end Cert.BN.Ker

end
-- ==== Proof.KStretch0.lean ====
/-
  The first stretch of host operations of the kernel program, read at an index.

  Its one operation flattens the input array [32, 2048, 256] to 65536 rows of 256: row `2048 s + y` is member `y` of
  set `s`.
-/
import proofs.«114695_j893353198455_2_alg».proof.Proof.KHost256

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-- The flattened input at row `2048 s + y`, column `d`: the first argument at (s, y, d). -/
theorem W1_v0 (s : Fin 32) (y : Fin 2048) (d : Fin 256) :
    (W1 m ρ c (Proc.devRef .tc main_v0) : S65536x256.Idx → EReal) (ix2 (row s y) d) = (m ((c : Thread nD τ).loc main_arg0) : S32x2048x256.Idx → EReal) (ix3 s y d) := by
  show StableHlo.after hostOps0 (W0 m ρ c) (Proc.devRef .tc main_v0) (ix2 (row s y) d) = _
  after_results_simp
  exact in_stage _ s y d

end Cert.BN.Ker

end
-- ==== Proof.KHost512.lean ====
/-
  The host operations between two regions, for a 512-wide layer, read at an index; and the last reshape.

  The same as for the 256-wide layer: the two [256, 512] arrays of partial column sums are regrouped as [32, 8, 512],
  summed over the first two axes, divided by the row count, and combined into `max (mean of squares - mean², 0)`.
-/
import proofs.«114695_j893353198455_2_alg».proof.Proof.Gen.KernelIdeal.Frame
import proofs.«114695_j893353198455_2_alg».proof.Proof.Spec
import proofs.«114695_j893353198455_2_alg».proof.Proof.RefReduce
import proofs.«114695_j893353198455_2_alg».proof.Proof.KIdx
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

/-- The partial-sum array regrouped as [32, 8, 512], at `(t, j, d)`: its row `8t + j`. -/
theorem split_256x512 (S : S256x512.Idx → EReal) (h : S256x512.ShapeCasts S32x8x512) (t : Fin 32) (j : Fin 8) (d : Fin 512) :
    shapeCast S32x8x512 S h (ix3 t j d) = S (ix2 (prow t j) d) :=
  shapeCast_apply S h _ _ (by rw [Shape.rowMajor_val_two, Shape.rowMajor_val_three]; rfl)

/-- The column mean the host forms from a partial-sum array. -/
theorem mean_stage512 (S : S256x512.Idx → EReal) (a : Fin 1) (d : Fin 512) :
    shapeCast S1x512 (Host.divf (Host.reduceAdd (fun i => shapeCast S32x8x512 S shapeCasts_S256x512_S32x8x512 i)
        (constant (F := Ideal) S_ .f32 0x00000000#32) reducesTo_S32x8x512_S512_d0_1 h_S_)
      (broadcastInDim S512 ![] bcast_S_S512 (constant (F := Ideal) S_ .f32 0x47800000#32))) shapeCasts_S512_S1x512 (ix2 a d)
      = Ideal.div (∑ r : Fin 32 × Fin 8, S (ix2 (prow r.1 r.2) d)) Cert.BN.cnt := by
  refine (shapeCast_a_1a_apply _ _ a d).trans ?_
  simp only [Host.divf, Cert.BN.Ref.reduceAdd_axes01_zero, split_256x512]
  rfl

/-- The column variance by moments the host forms from the two partial-sum arrays (`S`: sums, `Q`: sums of squares). -/
theorem var_stage512 (S Q : S256x512.Idx → EReal) (a : Fin 1) (d : Fin 512) :
    shapeCast S1x512 (maximumf
        (subf
          (Host.divf (Host.reduceAdd (fun i => shapeCast S32x8x512 Q shapeCasts_S256x512_S32x8x512 i)
              (constant (F := Ideal) S_ .f32 0x00000000#32) reducesTo_S32x8x512_S512_d0_1 h_S_)
            (broadcastInDim S512 ![] bcast_S_S512 (constant (F := Ideal) S_ .f32 0x47800000#32)))
          (mulf
            (Host.divf (Host.reduceAdd (fun i => shapeCast S32x8x512 S shapeCasts_S256x512_S32x8x512 i)
                (constant (F := Ideal) S_ .f32 0x00000000#32) reducesTo_S32x8x512_S512_d0_1 h_S_)
              (broadcastInDim S512 ![] bcast_S_S512 (constant (F := Ideal) S_ .f32 0x47800000#32)))
            (Host.divf (Host.reduceAdd (fun i => shapeCast S32x8x512 S shapeCasts_S256x512_S32x8x512 i)
                (constant (F := Ideal) S_ .f32 0x00000000#32) reducesTo_S32x8x512_S512_d0_1 h_S_)
              (broadcastInDim S512 ![] bcast_S_S512 (constant (F := Ideal) S_ .f32 0x47800000#32)))))
        (broadcastInDim S512 ![] bcast_S_S512 (constant (F := Ideal) S_ .f32 0x00000000#32))) shapeCasts_S512_S1x512 (ix2 a d)
      = max (Ideal.div (∑ r : Fin 32 × Fin 8, Q (ix2 (prow r.1 r.2) d)) Cert.BN.cnt
          - Ideal.div (∑ r : Fin 32 × Fin 8, S (ix2 (prow r.1 r.2) d)) Cert.BN.cnt
            * Ideal.div (∑ r : Fin 32 × Fin 8, S (ix2 (prow r.1 r.2) d)) Cert.BN.cnt) 0 := by
  refine (shapeCast_a_1a_apply _ _ a d).trans ?_
  simp only [maximumf, subf, mulf, Host.divf, Cert.BN.Ref.reduceAdd_axes01_zero, split_256x512]
  refine Eq.trans ?_ (congrArg (max _) Ideal.ofBits_zero_f32)
  rfl

/-- A column vector given a leading unit axis, at `(0, d)`: its entry `d`. -/
theorem vec_stage512 (g : S512.Idx → EReal) (a : Fin 1) (d : Fin 512) :
    shapeCast S1x512 g shapeCasts_S512_S1x512 (ix2 a d) = g (ix1 d) := shapeCast_a_1a_apply _ _ a d

/-- The same for the last layer's 1024 output features. -/
theorem vec_stage1024 (g : S1024.Idx → EReal) (a : Fin 1) (d : Fin 1024) :
    shapeCast S1x1024 g shapeCasts_S1024_S1x1024 (ix2 a d) = g (ix1 d) := shapeCast_a_1a_apply _ _ a d

/-- The second weight matrix transposed and narrowed, at `(d, o)`: its entry `(o, d)`. -/
theorem wt_stage512x512 (W : S512x512.Idx → EReal) (d : Fin 512) (o : Fin 512) :
    truncf (F := Ideal) .bf16 (transpose S512x512 [1, 0] W transposes_S512x512_S512x512_1_0) bitsLt_bf16_f32 (ix2 d o) = W (ix2 o d) :=
  transpose_ix2_apply W transposes_S512x512_S512x512_1_0 d o

/-- The third weight matrix transposed and narrowed, at `(d, o)`: its entry `(o, d)`. -/
theorem wt_stage512x1024 (W : S1024x512.Idx → EReal) (d : Fin 512) (o : Fin 1024) :
    truncf (F := Ideal) .bf16 (transpose S512x1024 [1, 0] W transposes_S1024x512_S512x1024_1_0) bitsLt_bf16_f32 (ix2 d o) = W (ix2 o d) :=
  transpose_ix2_apply W transposes_S1024x512_S512x1024_1_0 d o

/-- The result with its unit axis dropped, at `(s, o)`: the entry `(s, 0, o)`. -/
theorem out_stage (Z : S32x1x1024.Idx → EReal) (s : Fin 32) (o : Fin 1024) :
    shapeCast S32x1024 Z shapeCasts_S32x1x1024_S32x1024 (ix2 s o) = Z (ix3 s (0 : Fin 1) o) :=
  shapeCast_apply Z _ _ _ (by
    rw [Shape.rowMajor_val_two, Shape.rowMajor_val_three]
    show (s.val * 1 + 0) * 1024 + o.val = s.val * 1024 + o.val
    omega)

end Cert.BN.Ker

end
-- ==== Proof.KStretch1.lean ====
/-
  The first stretch of host operations between two regions of the kernel program, read at an index.

  The stretch turns the two arrays of partial column sums the preceding region left into the column mean and the
  column variance by moments, gives the layer's scale, shift and bias vectors a leading unit axis, and transposes the
  weight matrix.  Each result is read here at an index in terms of the preceding region's arrays and of the
  program's arguments, which no earlier operation or region writes.
-/
import proofs.«114695_j893353198455_2_alg».proof.Proof.KHost256
import proofs.«114695_j893353198455_2_alg».proof.Proof.KHost512

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-! ## The arguments the first stretch reads are as launched -/

/-- Argument 1 is still as launched when the first stretch starts: nothing before it writes that buffer. -/
theorem W2_arg1 : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp

/-- Argument 2 is still as launched when the first stretch starts: nothing before it writes that buffer. -/
theorem W2_arg2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp

/-- Argument 3 is still as launched when the first stretch starts: nothing before it writes that buffer. -/
theorem W2_arg3 : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results_simp

/-- Argument 4 is still as launched when the first stretch starts: nothing before it writes that buffer. -/
theorem W2_arg4 : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results_simp

/-! ## The first stretch's results, read at an index -/

/-- The column mean: the sum of the partial sums over all 32·8 partial rows, divided by the row count. -/
theorem W3_v14 (a : Fin 1) (d : Fin 256) :
    (W3 m ρ c (Proc.devRef .tc main_v14) : S1x256.Idx → EReal) (ix2 a d) = Ideal.div (∑ r : Fin 32 × Fin 8, (W2 m ρ c (Proc.devRef .tc main_v1_0) : S256x256.Idx → EReal) (ix2 (prow r.1 r.2) d)) Cert.BN.cnt := by
  show StableHlo.after hostOps1 (W2 m ρ c) (Proc.devRef .tc main_v14) (ix2 a d) = _
  after_results_simp
  exact mean_stage256 _ a d

/-- The column variance by moments: mean of squares minus squared mean, floored at zero. -/
theorem W3_v15 (a : Fin 1) (d : Fin 256) :
    (W3 m ρ c (Proc.devRef .tc main_v15) : S1x256.Idx → EReal) (ix2 a d)
      = max (Ideal.div (∑ r : Fin 32 × Fin 8, (W2 m ρ c (Proc.devRef .tc main_v1_1) : S256x256.Idx → EReal) (ix2 (prow r.1 r.2) d)) Cert.BN.cnt
          - Ideal.div (∑ r : Fin 32 × Fin 8, (W2 m ρ c (Proc.devRef .tc main_v1_0) : S256x256.Idx → EReal) (ix2 (prow r.1 r.2) d)) Cert.BN.cnt
            * Ideal.div (∑ r : Fin 32 × Fin 8, (W2 m ρ c (Proc.devRef .tc main_v1_0) : S256x256.Idx → EReal) (ix2 (prow r.1 r.2) d)) Cert.BN.cnt) 0 := by
  show StableHlo.after hostOps1 (W2 m ρ c) (Proc.devRef .tc main_v15) (ix2 a d) = _
  after_results_simp
  exact var_stage256 _ _ a d

/-- The scale vector with a leading unit axis is argument 1. -/
theorem W3_v16 (a : Fin 1) (d : Fin 256) :
    (W3 m ρ c (Proc.devRef .tc main_v16) : S1x256.Idx → EReal) (ix2 a d) = (m ((c : Thread nD τ).loc main_arg1) : S256.Idx → EReal) (ix1 d) := by
  show StableHlo.after hostOps1 (W2 m ρ c) (Proc.devRef .tc main_v16) (ix2 a d) = _
  after_results_simp
  rw [W2_arg1]
  exact vec_stage256 _ a d

/-- The shift vector with a leading unit axis is argument 2. -/
theorem W3_v17 (a : Fin 1) (d : Fin 256) :
    (W3 m ρ c (Proc.devRef .tc main_v17) : S1x256.Idx → EReal) (ix2 a d) = (m ((c : Thread nD τ).loc main_arg2) : S256.Idx → EReal) (ix1 d) := by
  show StableHlo.after hostOps1 (W2 m ρ c) (Proc.devRef .tc main_v17) (ix2 a d) = _
  after_results_simp
  rw [W2_arg2]
  exact vec_stage256 _ a d

/-- The bias vector with a leading unit axis is argument 4. -/
theorem W3_v18 (a : Fin 1) (o : Fin 512) :
    (W3 m ρ c (Proc.devRef .tc main_v18) : S1x512.Idx → EReal) (ix2 a o) = (m ((c : Thread nD τ).loc main_arg4) : S512.Idx → EReal) (ix1 o) := by
  show StableHlo.after hostOps1 (W2 m ρ c) (Proc.devRef .tc main_v18) (ix2 a o) = _
  after_results_simp
  rw [W2_arg4]
  exact vec_stage512 _ a o

/-- The weight matrix transposed (and narrowed, the identity on ideal values), at (d, o): argument 3 at (o, d). -/
theorem W3_v20 (d : Fin 256) (o : Fin 512) :
    (W3 m ρ c (Proc.devRef .tc main_v20) : S256x512.Idx → EReal) (ix2 d o) = (m ((c : Thread nD τ).loc main_arg3) : S512x256.Idx → EReal) (ix2 o d) := by
  show StableHlo.after hostOps1 (W2 m ρ c) (Proc.devRef .tc main_v20) (ix2 d o) = _
  after_results_simp
  rw [W2_arg3]
  exact wt_stage256x512 _ d o

/-- The first stretch leaves the activation array as the preceding region left it. -/
theorem W3_v0 : W3 m ρ c (Proc.devRef .tc main_v0) = W2 m ρ c (Proc.devRef .tc main_v0) := by
  show StableHlo.after hostOps1 (W2 m ρ c) (Proc.devRef .tc main_v0) = _
  after_results_simp

end Cert.BN.Ker

end
-- ==== Proof.KChain0.lean ====
/-
  The kernel program up to the entry of its second region: the first layer's column statistics.

  The first region leaves the partial column sums of the input table; the host operations after it turn them into
  the column mean and the column variance by moments of the whole table, and lay out the first layer's parameters.
-/
import proofs.«114695_j893353198455_2_alg».proof.Proof.Gen.KernelIdeal.Frame
import proofs.«114695_j893353198455_2_alg».proof.Proof.Spec
import proofs.«114695_j893353198455_2_alg».proof.Proof.KTables
import proofs.«114695_j893353198455_2_alg».proof.Proof.KSum
import proofs.«114695_j893353198455_2_alg».proof.Proof.KReg0
import proofs.«114695_j893353198455_2_alg».proof.Proof.KStretch0
import proofs.«114695_j893353198455_2_alg».proof.Proof.KStretch1
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-- Entering the first region, the flattened input at row `2048 s + y` is the table's row `(s, y)`. -/
theorem V1_v0 (s : Fin 32) (y : Fin 2048) (d : Fin 256) :
    (V1 m ρ c main_v0 : S65536x256.Idx → EReal) (ix2 (row s y) d) = tX m c (s, y) d :=
  W1_v0 m ρ c s y d

/-- Leaving the first region, the first output array: row 0 of tile `s`'s block holds the tile's column sums. -/
theorem W2_v1_0 (s : Fin 32) (j : Fin 8) (d : Fin 256) :
    (W2 m ρ c (Proc.devRef .tc main_v1_0) : S256x256.Idx → EReal) (ix2 (prow s j) d)
      = if j.val = 0 then ∑ y : Fin 2048, tX m c (s, y) d else 0 := by
  refine (congrFun (W2_arr m ρ c 1) _).trans ((arr0_1 (V1 m ρ) c s j d).trans ?_)
  exact if_congr Iff.rfl (Finset.sum_congr rfl fun y _ => V1_v0 m ρ c s y d) rfl

/-- The second output array: the same with the squares. -/
theorem W2_v1_1 (s : Fin 32) (j : Fin 8) (d : Fin 256) :
    (W2 m ρ c (Proc.devRef .tc main_v1_1) : S256x256.Idx → EReal) (ix2 (prow s j) d)
      = if j.val = 0 then ∑ y : Fin 2048, tX m c (s, y) d * tX m c (s, y) d else 0 := by
  refine (congrFun (W2_arr m ρ c 2) _).trans ((arr0_2 (V1 m ρ) c s j d).trans ?_)
  exact if_congr Iff.rfl (Finset.sum_congr rfl fun y _ => by rw [V1_v0 m ρ c s y d]) rfl

/-- Entering the second region, the mean vector is the input table's column mean. -/
theorem V3_v14 (a : Fin 1) (d : Fin 256) :
    (V3 m ρ c main_v14 : S1x256.Idx → EReal) (ix2 a d) = Cert.BN.colMean (tX m c) d :=
  (W3_v14 m ρ c a d).trans
    (mean_of_partial (tX m c) (fun p => (W2 m ρ c (Proc.devRef .tc main_v1_0) : S256x256.Idx → EReal) (ix2 p d)) d
      (fun s j => W2_v1_0 m ρ c s j d))

/-- … and the variance vector its column variance by moments. -/
theorem V3_v15 (a : Fin 1) (d : Fin 256) :
    (V3 m ρ c main_v15 : S1x256.Idx → EReal) (ix2 a d) = Cert.BN.varM (tX m c) d :=
  (W3_v15 m ρ c a d).trans
    (var_of_partial (tX m c) (fun p => (W2 m ρ c (Proc.devRef .tc main_v1_0) : S256x256.Idx → EReal) (ix2 p d))
      (fun p => (W2 m ρ c (Proc.devRef .tc main_v1_1) : S256x256.Idx → EReal) (ix2 p d)) d
      (fun s j => W2_v1_0 m ρ c s j d) (fun s j => W2_v1_1 m ρ c s j d))

/-- The input array is still the table. -/
theorem V3_v0 (s : Fin 32) (y : Fin 2048) (d : Fin 256) :
    (V3 m ρ c main_v0 : S65536x256.Idx → EReal) (ix2 (row s y) d) = tX m c (s, y) d := by
  have e : V3 m ρ c main_v0 = V1 m ρ c main_v0 :=
    (W3_v0 m ρ c).trans ((W2_arr m ρ c 0).trans (kept0_0 (V1 m ρ) c))
  rw [e]
  exact V1_v0 m ρ c s y d

end Cert.BN.Ker

end
-- ==== Proof.PayNorm.lean ====
/-
  The batch-norm + linear arithmetic of a kernel body read at an index, over tables of any extents: the normalised
  entry, the rows times the weight table plus the shift, and a maximum down the rows of a table.
-/
import proofs.«114695_j893353198455_2_alg».proof.Proof.PayCommon

noncomputable section

namespace Cert.BN.Pay

open Cert.KernelIdeal Cert.KernelIdeal.Gen Idealize.ShloMosaic ValueIdx

/-- The normalised entry `(y, d)`: centred by the column's mean `x1`, scaled by the reciprocal root of the column's
    variance `x2` plus `ε` and by `x3`, shifted by `x4` (each a one-row table laid under every row). -/
theorem normRows_apply {R D : ℕ} (x0 : FVec Ideal ⟨2, ![R, D]⟩ .f32) (x1 x2 x3 x4 : FVec Ideal ⟨2, ![1, D]⟩ .f32)
    (h0 : (⟨2, ![R, D]⟩ : Shape).ShapeCasts ⟨2, ![R, D]⟩) (h1 : (⟨2, ![1, D]⟩ : Shape).ShapeCasts ⟨2, ![1, D]⟩)
    (hb : (⟨2, ![1, D]⟩ : Shape).Broadcasts ⟨2, ![R, D]⟩) (y : Fin R) (d : Fin D) :
    addf (mulf (mulf (subf (shapeCast ⟨2, ![R, D]⟩ x0 h0) (broadcastTo ⟨2, ![R, D]⟩ (shapeCast ⟨2, ![1, D]⟩ x1 h1) hb))
            (broadcastTo ⟨2, ![R, D]⟩
              (rsqrt (addf (shapeCast ⟨2, ![1, D]⟩ x2 h1)
                (broadcast ⟨2, ![1, D]⟩ (FloatOps.ofBits (F := Ideal) .f32 0x3727C5AC#32)))) hb))
          (broadcastTo ⟨2, ![R, D]⟩ (shapeCast ⟨2, ![1, D]⟩ x3 h1) hb))
        (broadcastTo ⟨2, ![R, D]⟩ (shapeCast ⟨2, ![1, D]⟩ x4 h1) hb) (ix2 y d)
      = (x0 (ix2 y d) - x1 (ix2 0 d)) * Ideal.rsqrt (x2 (ix2 0 d) + eps) * x3 (ix2 0 d) + x4 (ix2 0 d) := by
  simp only [shapeCast_self]
  show (x0 (ix2 y d) - broadcastTo _ x1 hb (ix2 y d)) * broadcastTo _ (rsqrt (addf x2 (broadcast _ _))) hb (ix2 y d)
      * broadcastTo _ x3 hb (ix2 y d) + broadcastTo _ x4 hb (ix2 y d) = _
  simp only [broadcastTo_1b_ab_apply]
  rfl

/-- The normalised rows, rounded for the matrix unit (the identity on exact values), times the weight table `x5`
    into a zero accumulator, plus the shift `x6`: at `(y, o)` the sum over `d` of the normalised entry `(y, d)`
    times `x5 (d, o)`, plus `x6 o`. -/
theorem affineNorm_apply {R D O : ℕ} (x0 : FVec Ideal ⟨2, ![R, D]⟩ .f32) (x1 x2 x3 x4 : FVec Ideal ⟨2, ![1, D]⟩ .f32)
    (x5 : FVec Ideal ⟨2, ![D, O]⟩ .bf16) (x6 : FVec Ideal ⟨2, ![1, O]⟩ .f32)
    (h0 : (⟨2, ![R, D]⟩ : Shape).ShapeCasts ⟨2, ![R, D]⟩) (h1 : (⟨2, ![1, D]⟩ : Shape).ShapeCasts ⟨2, ![1, D]⟩)
    (hb : (⟨2, ![1, D]⟩ : Shape).Broadcasts ⟨2, ![R, D]⟩)
    (h5 : (⟨2, ![D, O]⟩ : Shape).ShapeCasts ⟨2, ![D, O]⟩) (h6 : (⟨2, ![1, O]⟩ : Shape).ShapeCasts ⟨2, ![1, O]⟩)
    (hb6 : (⟨2, ![1, O]⟩ : Shape).Broadcasts ⟨2, ![R, O]⟩)
    (dd : DotDims ⟨2, ![R, D]⟩ ⟨2, ![D, O]⟩ ⟨2, ![R, O]⟩) (hd : dd = DotDims.plain R D O)
    (hlt : FTy.bits .bf16 < FTy.bits .f32) (y : Fin R) (o : Fin O) :
    addf (matmul dd none
          (truncf .bf16
            (addf (mulf (mulf (subf (shapeCast ⟨2, ![R, D]⟩ x0 h0) (broadcastTo ⟨2, ![R, D]⟩ (shapeCast ⟨2, ![1, D]⟩ x1 h1) hb))
            (broadcastTo ⟨2, ![R, D]⟩
              (rsqrt (addf (shapeCast ⟨2, ![1, D]⟩ x2 h1)
                (broadcast ⟨2, ![1, D]⟩ (FloatOps.ofBits (F := Ideal) .f32 0x3727C5AC#32)))) hb))
          (broadcastTo ⟨2, ![R, D]⟩ (shapeCast ⟨2, ![1, D]⟩ x3 h1) hb))
        (broadcastTo ⟨2, ![R, D]⟩ (shapeCast ⟨2, ![1, D]⟩ x4 h1) hb)) hlt)
          (shapeCast ⟨2, ![D, O]⟩ x5 h5) (constant (F := Ideal) ⟨2, ![R, O]⟩ .f32 0x00000000#32))
        (broadcastTo ⟨2, ![R, O]⟩ (shapeCast ⟨2, ![1, O]⟩ x6 h6) hb6) (ix2 y o)
      = (∑ d : Fin D, ((x0 (ix2 y d) - x1 (ix2 0 d)) * Ideal.rsqrt (x2 (ix2 0 d) + eps) * x3 (ix2 0 d) + x4 (ix2 0 d))
            * x5 (ix2 d o)) + x6 (ix2 0 o) := by
  refine (addf_apply _ _ _).trans (congrArg₂ (· + ·) ?_ ?_)
  · refine (Idealize.PlainDot.matmul_zero_apply dd hd none _ _ y o).trans
      (Finset.sum_congr rfl fun d _ => congrArg₂ (· * ·) ?_ ?_)
    · exact normRows_apply x0 x1 x2 x3 x4 h0 h1 hb y d
    · exact congrFun (shapeCast_self x5 h5) (ix2 d o)
  · exact (broadcastTo_1b_ab_apply _ hb6 y o).trans (congrFun (shapeCast_self x6 h6) _)

end Cert.BN.Pay

end
-- ==== Proof.Pay1.lean ====
/-
  REGION 1, a batch-norm + linear layer followed by `max · 0`, with the statistics of its result, read at an
  index: the body leaves the layer's output block, and in two eight-row blocks the column sums of that output and of its
  squares on row 0, zero on the other rows.
-/
import proofs.«114695_j893353198455_2_alg».proof.Proof.PayNorm

noncomputable section

namespace Cert.BN.Pay

open Cert.KernelIdeal Cert.KernelIdeal.Gen Idealize.ShloMosaic ValueIdx

/-- What the body stores in the output block is its arithmetic applied to the input blocks themselves. -/
theorem out1_7_eq (x0 : Vec Ideal S2048x256 .f32) (x1 x2 x3 x4 : Vec Ideal S1x256 .f32)
    (x5 : Vec Ideal S256x512 .bf16) (x6 : Vec Ideal S1x512 .f32) :
    out1_7 (F := Ideal) x0 x1 x2 x3 x4 x5 x6 = k1_pay3 x0 x1 x2 x3 x4 x5 x6 := by
  unfold out1_7
  rw [View.canon_unit_zero hz2]
  simp only [View.ld_unit_zero (S := S2048x256) hz2,
    View.ld_unit_zero (S := S1x256) hz2,
    View.ld_unit_zero (S := S256x512) hz2,
    View.ld_unit_zero (S := S1x512) hz2]

/-- The layer's output at row `y`, feature `o`: the normalised row times the weight table, plus the shift, floored at
    zero. -/
theorem out1_7_apply (x0 : Vec Ideal S2048x256 .f32) (x1 x2 x3 x4 : Vec Ideal S1x256 .f32)
    (x5 : Vec Ideal S256x512 .bf16) (x6 : Vec Ideal S1x512 .f32) (y : Fin 2048) (o : Fin 512) :
    out1_7 (F := Ideal) x0 x1 x2 x3 x4 x5 x6 (ix2 y o)
      = max ((∑ d : Fin 256, ((x0 (ix2 y d) - x1 (ix2 0 d)) * Ideal.rsqrt (x2 (ix2 0 d) + eps) * x3 (ix2 0 d) + x4 (ix2 0 d))
              * x5 (ix2 d o)) + x6 (ix2 0 o)) 0 := by
  rw [out1_7_eq]
  unfold k1_pay3
  refine (maximumf_apply _ _ _).trans (congrArg₂ max ?_ Ideal.ofBits_zero_f32)
  exact affineNorm_apply x0 x1 x2 x3 x4 x5 x6 _ _ _ _ _ _ dot_S2048x256_S256x512_S2048x512_1_0_0_1_n_n
    (Idealize.PlainDot.eq_plain _ rfl rfl rfl rfl rfl rfl) _ y o

/-- The column sums of the layer's output, on row 0 of an eight-row block that is zero elsewhere. -/
theorem out1_8_apply (x0 : Vec Ideal S2048x256 .f32) (x1 x2 x3 x4 : Vec Ideal S1x256 .f32)
    (x5 : Vec Ideal S256x512 .bf16) (x6 : Vec Ideal S1x512 .f32) (j : Fin 8) (o : Fin 512) :
    out1_8 (F := Ideal) x0 x1 x2 x3 x4 x5 x6 (ix2 j o)
      = if j.val = 0 then ∑ y : Fin 2048, out1_7 (F := Ideal) x0 x1 x2 x3 x4 x5 x6 (ix2 y o) else 0 := by
  rw [out1_7_eq]
  unfold out1_8
  rw [View.canon_unit_zero hz2]
  simp only [View.ld_unit_zero (S := S2048x256) hz2,
    View.ld_unit_zero (S := S1x256) hz2,
    View.ld_unit_zero (S := S256x512) hz2,
    View.ld_unit_zero (S := S1x512) hz2]
  unfold k1_pay1 k1_pay4 k1_pay5
  refine (rowMask_apply iota_S8x512_d0_w32 _ _ j o).trans (if_congr Iff.rfl ?_ ?_)
  · refine (broadcastTo_1b_ab_apply _ broadcasts_S1x512_S8x512 j o).trans ?_
    refine (congrFun (shapeCast_self _ shapeCasts_S1x512_S1x512) _).trans ?_
    exact sumRowsKeep_apply _ _ reduces_S2048x512_S512 _ _ shapeCasts_S512_S1x512 0 o
  · exact Ideal.ofBits_zero_f32

/-- The column sums of the squares of the layer's output, on row 0 of an eight-row block that is zero elsewhere. -/
theorem out1_9_apply (x0 : Vec Ideal S2048x256 .f32) (x1 x2 x3 x4 : Vec Ideal S1x256 .f32)
    (x5 : Vec Ideal S256x512 .bf16) (x6 : Vec Ideal S1x512 .f32) (j : Fin 8) (o : Fin 512) :
    out1_9 (F := Ideal) x0 x1 x2 x3 x4 x5 x6 (ix2 j o)
      = if j.val = 0 then ∑ y : Fin 2048, out1_7 (F := Ideal) x0 x1 x2 x3 x4 x5 x6 (ix2 y o) * out1_7 (F := Ideal) x0 x1 x2 x3 x4 x5 x6 (ix2 y o)
        else 0 := by
  rw [out1_7_eq]
  unfold out1_9
  rw [View.canon_unit_zero hz2]
  simp only [View.ld_unit_zero (S := S2048x256) hz2,
    View.ld_unit_zero (S := S1x256) hz2,
    View.ld_unit_zero (S := S256x512) hz2,
    View.ld_unit_zero (S := S1x512) hz2]
  unfold k1_pay2 k1_pay4
  refine (rowMask_apply iota_S8x512_d0_w32 _ _ j o).trans (if_congr Iff.rfl ?_ ?_)
  · refine (broadcastTo_1b_ab_apply _ broadcasts_S1x512_S8x512 j o).trans ?_
    refine (congrFun (shapeCast_self _ shapeCasts_S1x512_S1x512) _).trans ?_
    exact sumRowsKeep_apply _ _ reduces_S2048x512_S512 _ _ shapeCasts_S512_S1x512 0 o
  · exact Ideal.ofBits_zero_f32

end Cert.BN.Pay

end
-- ==== Proof.KReg1.lean ====
/-
  REGION 1 (first batch-norm + linear layer with its statistics), the arrays it leaves read at an index.

  The grid has 32 points. At point t the body is given rows 2048·t … 2048·t + 2047 of the 65536-row input together with
  four whole one-row arrays (mean, variance, scale, shift), the whole weight array and the whole one-row offset array.
  It writes rows 2048·t … 2048·t + 2047 of the output: each input row is normalised, multiplied by the weights, shifted
  by the offsets and floored at zero. It also writes the eight-row block 8·t … 8·t + 7 of two partial-sum arrays: row 0
  of the block holds the column sums over the 2048 output rows (of the entries; of their squares), rows 1 … 7 zero.
  Distinct points write distinct blocks, so after the region each block of an output array holds what its own point
  wrote. The seven input arrays are only read.
-/
import proofs.«114695_j893353198455_2_alg».proof.Proof.KIdx
import proofs.«114695_j893353198455_2_alg».proof.Proof.Pay1

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The block index of every window at point t: (t, 0) for the four row-blocked windows (the input rows, the output
    rows and the two partial-sum outputs), (0, 0) for the six windows that hold a whole array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-! ## Where a block's entry sits in its array -/

/-- Entry (y, d) of the input block at point t is entry (2048·t + y, d) of the input array. -/
theorem emb1_0 (t : Fin cfg1.N) (y : Fin 2048) (d : Fin 256) :
    ((cfg1.win 0).blk t).view.emb (ix2 y d) = ix2 (row (pt1 t) y) d := by
  funext ax; apply Fin.ext
  match ax with
  | ⟨0, _⟩ => show win1_0.index t (0 : Fin 2) * 2048 + 1 * y.val = t.val * 2048 + y.val; rw [(idx1 t).1]; omega
  | ⟨1, _⟩ => show win1_0.index t (1 : Fin 2) * 256 + 1 * d.val = d.val; rw [(idx1 t).2.1]; omega

/-- Window 1 holds its whole one-row array: entry (a, d) of the block is entry (a, d) of the array. -/
theorem emb1_1 (t : Fin cfg1.N) (a : Fin 1) (d : Fin 256) :
    ((cfg1.win 1).blk t).view.emb (ix2 a d) = ix2 a d := by
  funext ax; apply Fin.ext
  match ax with
  | ⟨0, _⟩ => show win1_1.index t (0 : Fin 2) * 1 + 1 * a.val = a.val; rw [(idx1 t).2.2.1]; omega
  | ⟨1, _⟩ => show win1_1.index t (1 : Fin 2) * 256 + 1 * d.val = d.val; rw [(idx1 t).2.2.2.1]; omega

/-- Window 2 holds its whole one-row array: entry (a, d) of the block is entry (a, d) of the array. -/
theorem emb1_2 (t : Fin cfg1.N) (a : Fin 1) (d : Fin 256) :
    ((cfg1.win 2).blk t).view.emb (ix2 a d) = ix2 a d := by
  funext ax; apply Fin.ext
  match ax with
  | ⟨0, _⟩ => show win1_2.index t (0 : Fin 2) * 1 + 1 * a.val = a.val; rw [(idx1 t).2.2.2.2.1]; omega
  | ⟨1, _⟩ => show win1_2.index t (1 : Fin 2) * 256 + 1 * d.val = d.val; rw [(idx1 t).2.2.2.2.2.1]; omega

/-- Window 3 holds its whole one-row array: entry (a, d) of the block is entry (a, d) of the array. -/
theorem emb1_3 (t : Fin cfg1.N) (a : Fin 1) (d : Fin 256) :
    ((cfg1.win 3).blk t).view.emb (ix2 a d) = ix2 a d := by
  funext ax; apply Fin.ext
  match ax with
  | ⟨0, _⟩ => show win1_3.index t (0 : Fin 2) * 1 + 1 * a.val = a.val; rw [(idx1 t).2.2.2.2.2.2.1]; omega
  | ⟨1, _⟩ => show win1_3.index t (1 : Fin 2) * 256 + 1 * d.val = d.val; rw [(idx1 t).2.2.2.2.2.2.2.1]; omega

/-- Window 4 holds its whole one-row array: entry (a, d) of the block is entry (a, d) of the array. -/
theorem emb1_4 (t : Fin cfg1.N) (a : Fin 1) (d : Fin 256) :
    ((cfg1.win 4).blk t).view.emb (ix2 a d) = ix2 a d := by
  funext ax; apply Fin.ext
  match ax with
  | ⟨0, _⟩ => show win1_4.index t (0 : Fin 2) * 1 + 1 * a.val = a.val; rw [(idx1 t).2.2.2.2.2.2.2.2.1]; omega
  | ⟨1, _⟩ => show win1_4.index t (1 : Fin 2) * 256 + 1 * d.val = d.val; rw [(idx1 t).2.2.2.2.2.2.2.2.2.1]; omega

/-- Window 5 holds the whole weight array: entry (d, o) of the block is entry (d, o) of the array. -/
theorem emb1_5 (t : Fin cfg1.N) (d : Fin 256) (o : Fin 512) :
    ((cfg1.win 5).blk t).view.emb (ix2 d o) = ix2 d o := by
  funext ax; apply Fin.ext
  match ax with
  | ⟨0, _⟩ => show win1_5.index t (0 : Fin 2) * 256 + 1 * d.val = d.val; rw [(idx1 t).2.2.2.2.2.2.2.2.2.2.1]; omega
  | ⟨1, _⟩ => show win1_5.index t (1 : Fin 2) * 512 + 1 * o.val = o.val; rw [(idx1 t).2.2.2.2.2.2.2.2.2.2.2.1]; omega

/-- Window 6 holds its whole one-row array. -/
theorem emb1_6 (t : Fin cfg1.N) (a : Fin 1) (o : Fin 512) :
    ((cfg1.win 6).blk t).view.emb (ix2 a o) = ix2 a o := by
  funext ax; apply Fin.ext
  match ax with
  | ⟨0, _⟩ => show win1_6.index t (0 : Fin 2) * 1 + 1 * a.val = a.val; rw [(idx1 t).2.2.2.2.2.2.2.2.2.2.2.2.1]; omega
  | ⟨1, _⟩ => show win1_6.index t (1 : Fin 2) * 512 + 1 * o.val = o.val; rw [(idx1 t).2.2.2.2.2.2.2.2.2.2.2.2.2.1]; omega

/-- Entry (y, o) of the output block at point t is entry (2048·t + y, o) of the output array. -/
theorem emb1_7 (t : Fin cfg1.N) (y : Fin 2048) (o : Fin 512) :
    ((cfg1.win 7).blk t).view.emb (ix2 y o) = ix2 (row (pt1 t) y) o := by
  funext ax; apply Fin.ext
  match ax with
  | ⟨0, _⟩ => show win1_7.index t (0 : Fin 2) * 2048 + 1 * y.val = t.val * 2048 + y.val; rw [(idx1 t).2.2.2.2.2.2.2.2.2.2.2.2.2.2.1]; omega
  | ⟨1, _⟩ => show win1_7.index t (1 : Fin 2) * 512 + 1 * o.val = o.val; rw [(idx1 t).2.2.2.2.2.2.2.2.2.2.2.2.2.2.2.1]; omega

/-- Entry (j, o) of the first partial-sum block at point t is entry (8·t + j, o) of its array. -/
theorem emb1_8 (t : Fin cfg1.N) (j : Fin 8) (o : Fin 512) :
    ((cfg1.win 8).blk t).view.emb (ix2 j o) = ix2 (prow (pt1 t) j) o := by
  funext ax; apply Fin.ext
  match ax with
  | ⟨0, _⟩ => show win1_8.index t (0 : Fin 2) * 8 + 1 * j.val = t.val * 8 + j.val; rw [(idx1 t).2.2.2.2.2.2.2.2.2.2.2.2.2.2.2.2.1]; omega
  | ⟨1, _⟩ => show win1_8.index t (1 : Fin 2) * 512 + 1 * o.val = o.val; rw [(idx1 t).2.2.2.2.2.2.2.2.2.2.2.2.2.2.2.2.2.1]; omega

/-- Entry (j, o) of the second partial-sum block at point t is entry (8·t + j, o) of its array. -/
theorem emb1_9 (t : Fin cfg1.N) (j : Fin 8) (o : Fin 512) :
    ((cfg1.win 9).blk t).view.emb (ix2 j o) = ix2 (prow (pt1 t) j) o := by
  funext ax; apply Fin.ext
  match ax with
  | ⟨0, _⟩ => show win1_9.index t (0 : Fin 2) * 8 + 1 * j.val = t.val * 8 + j.val; rw [(idx1 t).2.2.2.2.2.2.2.2.2.2.2.2.2.2.2.2.2.2.1]; omega
  | ⟨1, _⟩ => show win1_9.index t (1 : Fin 2) * 512 + 1 * o.val = o.val; rw [(idx1 t).2.2.2.2.2.2.2.2.2.2.2.2.2.2.2.2.2.2.2]; omega

/-! ## The input blocks read off the region-entry contents -/

/-- The input block at point t, read at (y, d), is the input array at (2048·t + y, d). -/
theorem iblk1_0_apply (c : Dev nD) (t : Fin cfg1.N) (y : Fin 2048) (d : Fin 256) :
    @Eq EReal (iblk1 V c 0 t (ix2 y d)) (V c main_v0 (ix2 (row (pt1 t) y) d)) := by
  unfold iblk1
  rw [View.read_apply]
  exact congrArg (V c main_v0 : S65536x256.Idx → EReal) (emb1_0 t y d)

/-- Window 1's block at any point is its whole one-row array. -/
theorem iblk1_1_apply (c : Dev nD) (t : Fin cfg1.N) (a : Fin 1) (d : Fin 256) :
    @Eq EReal (iblk1 V c 1 t (ix2 a d)) (V c main_v14 (ix2 a d)) := by
  unfold iblk1
  rw [View.read_apply]
  exact congrArg (V c main_v14 : S1x256.Idx → EReal) (emb1_1 t a d)

/-- Window 2's block at any point is its whole one-row array. -/
theorem iblk1_2_apply (c : Dev nD) (t : Fin cfg1.N) (a : Fin 1) (d : Fin 256) :
    @Eq EReal (iblk1 V c 2 t (ix2 a d)) (V c main_v15 (ix2 a d)) := by
  unfold iblk1
  rw [View.read_apply]
  exact congrArg (V c main_v15 : S1x256.Idx → EReal) (emb1_2 t a d)

/-- Window 3's block at any point is its whole one-row array. -/
theorem iblk1_3_apply (c : Dev nD) (t : Fin cfg1.N) (a : Fin 1) (d : Fin 256) :
    @Eq EReal (iblk1 V c 3 t (ix2 a d)) (V c main_v16 (ix2 a d)) := by
  unfold iblk1
  rw [View.read_apply]
  exact congrArg (V c main_v16 : S1x256.Idx → EReal) (emb1_3 t a d)

/-- Window 4's block at any point is its whole one-row array. -/
theorem iblk1_4_apply (c : Dev nD) (t : Fin cfg1.N) (a : Fin 1) (d : Fin 256) :
    @Eq EReal (iblk1 V c 4 t (ix2 a d)) (V c main_v17 (ix2 a d)) := by
  unfold iblk1
  rw [View.read_apply]
  exact congrArg (V c main_v17 : S1x256.Idx → EReal) (emb1_4 t a d)

/-- Window 5's block at any point is the whole weight array. -/
theorem iblk1_5_apply (c : Dev nD) (t : Fin cfg1.N) (d : Fin 256) (o : Fin 512) :
    @Eq EReal (iblk1 V c 5 t (ix2 d o)) (V c main_v20 (ix2 d o)) := by
  unfold iblk1
  rw [View.read_apply]
  exact congrArg (V c main_v20 : S256x512.Idx → EReal) (emb1_5 t d o)

/-- Window 6's block at any point is its whole one-row array. -/
theorem iblk1_6_apply (c : Dev nD) (t : Fin cfg1.N) (a : Fin 1) (o : Fin 512) :
    @Eq EReal (iblk1 V c 6 t (ix2 a o)) (V c main_v18 (ix2 a o)) := by
  unfold iblk1
  rw [View.read_apply]
  exact congrArg (V c main_v18 : S1x512.Idx → EReal) (emb1_6 t a o)

/-! ## Distinct points write distinct blocks -/

theorem idx_inj1_7 (t t' : Fin cfg1.N) (h : win1_7.index t = win1_7.index t') : t = t' :=
  Fin.ext (by have e := congrFun h (0 : Fin 2); rwa [(idx1 t).2.2.2.2.2.2.2.2.2.2.2.2.2.2.1, (idx1 t').2.2.2.2.2.2.2.2.2.2.2.2.2.2.1] at e)

theorem disjoint1_7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (idx_inj1_7 t t' h)

theorem idx_inj1_8 (t t' : Fin cfg1.N) (h : win1_8.index t = win1_8.index t') : t = t' :=
  Fin.ext (by have e := congrFun h (0 : Fin 2); rwa [(idx1 t).2.2.2.2.2.2.2.2.2.2.2.2.2.2.2.2.1, (idx1 t').2.2.2.2.2.2.2.2.2.2.2.2.2.2.2.2.1] at e)

theorem disjoint1_8 : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne (idx_inj1_8 t t' h)

theorem idx_inj1_9 (t t' : Fin cfg1.N) (h : win1_9.index t = win1_9.index t') : t = t' :=
  Fin.ext (by have e := congrFun h (0 : Fin 2); rwa [(idx1 t).2.2.2.2.2.2.2.2.2.2.2.2.2.2.2.2.2.2.1, (idx1 t').2.2.2.2.2.2.2.2.2.2.2.2.2.2.2.2.2.2.1] at e)

theorem disjoint1_9 : ∀ t t' : Fin cfg1.N, (cfg1.win 9).flush t = true → (cfg1.win 9).flush t' = true → t ≠ t' →
    Disjoint ((cfg1.win 9).blk t).view.set ((cfg1.win 9).blk t').view.set :=
  fun t t' _ _ hne => (cfg1.win 9).disjoint_blk fun h => hne (idx_inj1_9 t t' h)

/-! ## The output arrays, block by block -/

/-- After the region, the output array at (2048·t + y, o) is what point t's body left at (y, o). -/
theorem arr1_7_pt (c : Dev nD) (t : Fin cfg1.N) (y : Fin 2048) (o : Fin 512) :
    @Eq EReal ((dat1 V c).arrAt 7 cfg1.N (ix2 (row (pt1 t) y) o))
      (out1_7 (F := Ideal) (iblk1 V c 0 t) (iblk1 V c 1 t) (iblk1 V c 2 t) (iblk1 V c 3 t) (iblk1 V c 4 t) (iblk1 V c 5 t) (iblk1 V c 6 t) (ix2 y o)) := by
  have h := (dat1 V c).arrAt_emb_eq_flushed 7 disjoint1_7 t (flush1_7 t) (ix2 y o)
  rw [cast_eq] at h
  refine (congrArg ((dat1 V c).arrAt 7 cfg1.N) (emb1_7 t y o)).symm.trans (h.trans ?_)
  show (dat1 V c).after 7 t (ix2 y o) = _
  rw [after1_7]

/-- After the region, the first partial-sum array at (8·t + j, o) is what point t's body left at (j, o). -/
theorem arr1_8_pt (c : Dev nD) (t : Fin cfg1.N) (j : Fin 8) (o : Fin 512) :
    @Eq EReal ((dat1 V c).arrAt 8 cfg1.N (ix2 (prow (pt1 t) j) o))
      (out1_8 (F := Ideal) (iblk1 V c 0 t) (iblk1 V c 1 t) (iblk1 V c 2 t) (iblk1 V c 3 t) (iblk1 V c 4 t) (iblk1 V c 5 t) (iblk1 V c 6 t) (ix2 j o)) := by
  have h := (dat1 V c).arrAt_emb_eq_flushed 8 disjoint1_8 t (flush1_8 t) (ix2 j o)
  rw [cast_eq] at h
  refine (congrArg ((dat1 V c).arrAt 8 cfg1.N) (emb1_8 t j o)).symm.trans (h.trans ?_)
  show (dat1 V c).after 8 t (ix2 j o) = _
  rw [after1_8]

/-- After the region, the second partial-sum array at (8·t + j, o) is what point t's body left at (j, o). -/
theorem arr1_9_pt (c : Dev nD) (t : Fin cfg1.N) (j : Fin 8) (o : Fin 512) :
    @Eq EReal ((dat1 V c).arrAt 9 cfg1.N (ix2 (prow (pt1 t) j) o))
      (out1_9 (F := Ideal) (iblk1 V c 0 t) (iblk1 V c 1 t) (iblk1 V c 2 t) (iblk1 V c 3 t) (iblk1 V c 4 t) (iblk1 V c 5 t) (iblk1 V c 6 t) (ix2 j o)) := by
  have h := (dat1 V c).arrAt_emb_eq_flushed 9 disjoint1_9 t (flush1_9 t) (ix2 j o)
  rw [cast_eq] at h
  refine (congrArg ((dat1 V c).arrAt 9 cfg1.N) (emb1_9 t j o)).symm.trans (h.trans ?_)
  show (dat1 V c).after 9 t (ix2 j o) = _
  rw [after1_9]

/-! ## The output arrays in closed form

  The reads of the region-entry contents are named as tables X0 … X6 of extended reals in the `_of` statements (an
  arithmetic operation between two reads needs the element type to be the extended reals on the nose); the statements
  without the suffix are their instances at the arrays themselves. -/

/-- The body's output at point t in terms of the region-entry arrays: normalise row 2048·t + y with the given mean,
    variance, scale and shift rows, multiply by the weights, add the offsets, and floor at zero. -/
theorem out1_7_blk (c : Dev nD) (t : Fin cfg1.N) (y : Fin 2048) (o : Fin 512) (X0 : S65536x256.Idx → EReal) (X1 X2 X3 X4 : S1x256.Idx → EReal) (X5 : S256x512.Idx → EReal) (X6 : S1x512.Idx → EReal)
    (h0 : X0 = V c main_v0) (h1 : X1 = V c main_v14) (h2 : X2 = V c main_v15) (h3 : X3 = V c main_v16) (h4 : X4 = V c main_v17) (h5 : X5 = V c main_v20) (h6 : X6 = V c main_v18) :
    @Eq EReal (out1_7 (F := Ideal) (iblk1 V c 0 t) (iblk1 V c 1 t) (iblk1 V c 2 t) (iblk1 V c 3 t) (iblk1 V c 4 t) (iblk1 V c 5 t) (iblk1 V c 6 t) (ix2 y o))
      (max ((∑ d : Fin 256, ((X0 (ix2 (row (pt1 t) y) d) - X1 (ix2 0 d)) * Ideal.rsqrt (X2 (ix2 0 d) + eps) * X3 (ix2 0 d) + X4 (ix2 0 d))
            * X5 (ix2 d o)) + X6 (ix2 0 o)) 0) := by
  subst h0 h1 h2 h3 h4 h5 h6
  refine (Pay.out1_7_apply (iblk1 V c 0 t) (iblk1 V c 1 t) (iblk1 V c 2 t) (iblk1 V c 3 t) (iblk1 V c 4 t) (iblk1 V c 5 t) (iblk1 V c 6 t) y o).trans ?_
  simp only [iblk1_0_apply, iblk1_1_apply, iblk1_2_apply, iblk1_3_apply, iblk1_4_apply, iblk1_5_apply, iblk1_6_apply]

/-- The output array at row 2048·s + y, column o. -/
theorem arr1_7_of (c : Dev nD) (s : Fin 32) (y : Fin 2048) (o : Fin 512) (X0 : S65536x256.Idx → EReal) (X1 X2 X3 X4 : S1x256.Idx → EReal) (X5 : S256x512.Idx → EReal) (X6 : S1x512.Idx → EReal)
    (h0 : X0 = V c main_v0) (h1 : X1 = V c main_v14) (h2 : X2 = V c main_v15) (h3 : X3 = V c main_v16) (h4 : X4 = V c main_v17) (h5 : X5 = V c main_v20) (h6 : X6 = V c main_v18) :
    @Eq EReal ((dat1 V c).arrAt 7 cfg1.N (ix2 (row s y) o))
      (max ((∑ d : Fin 256, ((X0 (ix2 (row s y) d) - X1 (ix2 0 d)) * Ideal.rsqrt (X2 (ix2 0 d) + eps) * X3 (ix2 0 d) + X4 (ix2 0 d))
            * X5 (ix2 d o)) + X6 (ix2 0 o)) 0) :=
  (arr1_7_pt V c (tp1 s) y o).trans (out1_7_blk V c (tp1 s) y o X0 X1 X2 X3 X4 X5 X6 h0 h1 h2 h3 h4 h5 h6)

/-- The output array at row 2048·s + y, column o, with the region-entry arrays V c main_v0, V c main_v14, V c main_v15,
    V c main_v16, V c main_v17, V c main_v20, V c main_v18 in the places of X0 … X6. -/
theorem arr1_7 (c : Dev nD) (s : Fin 32) (y : Fin 2048) (o : Fin 512) :
    type_of% (arr1_7_of V c s y o _ _ _ _ _ _ _ rfl rfl rfl rfl rfl rfl rfl) :=
  arr1_7_of V c s y o _ _ _ _ _ _ _ rfl rfl rfl rfl rfl rfl rfl

/-- The first partial-sum array: row 8·s of tile s holds the column sums of the output array over the tile's 2048 rows,
    rows 8·s + 1 … 8·s + 7 hold zero. -/
theorem arr1_8 (c : Dev nD) (s : Fin 32) (j : Fin 8) (o : Fin 512) :
    @Eq EReal ((dat1 V c).arrAt 8 cfg1.N (ix2 (prow s j) o))
      (if j.val = 0 then ∑ y : Fin 2048, (dat1 V c).arrAt 7 cfg1.N (ix2 (row s y) o) else 0) :=
  (arr1_8_pt V c (tp1 s) j o).trans ((Pay.out1_8_apply (iblk1 V c 0 (tp1 s)) (iblk1 V c 1 (tp1 s)) (iblk1 V c 2 (tp1 s)) (iblk1 V c 3 (tp1 s)) (iblk1 V c 4 (tp1 s)) (iblk1 V c 5 (tp1 s)) (iblk1 V c 6 (tp1 s)) j o).trans
    (if_congr Iff.rfl (Finset.sum_congr rfl fun y _ => (arr1_7_pt V c (tp1 s) y o).symm) rfl))

/-- The second partial-sum array, with the output array named as a table A7: the same with the squares. -/
theorem arr1_9_of (c : Dev nD) (s : Fin 32) (j : Fin 8) (o : Fin 512) (A7 : S65536x512.Idx → EReal)
    (h7 : A7 = (dat1 V c).arrAt 7 cfg1.N) :
    @Eq EReal ((dat1 V c).arrAt 9 cfg1.N (ix2 (prow s j) o))
      (if j.val = 0 then ∑ y : Fin 2048, A7 (ix2 (row s y) o) * A7 (ix2 (row s y) o) else 0) := by
  subst h7
  exact (arr1_9_pt V c (tp1 s) j o).trans ((Pay.out1_9_apply (iblk1 V c 0 (tp1 s)) (iblk1 V c 1 (tp1 s)) (iblk1 V c 2 (tp1 s)) (iblk1 V c 3 (tp1 s)) (iblk1 V c 4 (tp1 s)) (iblk1 V c 5 (tp1 s)) (iblk1 V c 6 (tp1 s)) j o).trans
    (if_congr Iff.rfl (Finset.sum_congr rfl fun y _ =>
      congrArg₂ (fun a b : EReal => a * b) (arr1_7_pt V c (tp1 s) y o).symm (arr1_7_pt V c (tp1 s) y o).symm) rfl))

/-- The second partial-sum array: row 8·s of tile s holds the column sums of the squares of the output array's entries
    over the tile's 2048 rows, the other rows zero. -/
theorem arr1_9 (c : Dev nD) (s : Fin 32) (j : Fin 8) (o : Fin 512) :
    type_of% (arr1_9_of V c s j o _ rfl) :=
  arr1_9_of V c s j o _ rfl

/-! ## The input arrays are only read -/

/-- An input window's array after the region is as the region found it. -/
theorem kept1 (c : Dev nD) (w : Fin cfg1.W) (hw : (cfg1.win w).isOut = false) :
    (dat1 V c).arrAt w cfg1.N = V c (Pipeline.arrRef spec1 w) :=
  ((dat1 V c).arrAt_in w hw _).trans (A_eq1 V c w)

theorem kept1_0 (c : Dev nD) : (dat1 V c).arrAt 0 cfg1.N = V c main_v0 := kept1 V c 0 rfl

theorem kept1_1 (c : Dev nD) : (dat1 V c).arrAt 1 cfg1.N = V c main_v14 := kept1 V c 1 rfl

theorem kept1_2 (c : Dev nD) : (dat1 V c).arrAt 2 cfg1.N = V c main_v15 := kept1 V c 2 rfl

theorem kept1_3 (c : Dev nD) : (dat1 V c).arrAt 3 cfg1.N = V c main_v16 := kept1 V c 3 rfl

theorem kept1_4 (c : Dev nD) : (dat1 V c).arrAt 4 cfg1.N = V c main_v17 := kept1 V c 4 rfl

theorem kept1_5 (c : Dev nD) : (dat1 V c).arrAt 5 cfg1.N = V c main_v20 := kept1 V c 5 rfl

theorem kept1_6 (c : Dev nD) : (dat1 V c).arrAt 6 cfg1.N = V c main_v18 := kept1 V c 6 rfl

end Cert.BN.Ker

end
-- ==== Proof.KStretch2.lean ====
/-
  The second stretch of host operations between two regions of the kernel program, read at an index.

  The stretch turns the two arrays of partial column sums the preceding region left into the column mean and the
  column variance by moments, gives the layer's scale, shift and bias vectors a leading unit axis, and transposes the
  weight matrix.  Each result is read here at an index in terms of the preceding region's arrays and of the
  program's arguments, which no earlier operation or region writes.
-/
import proofs.«114695_j893353198455_2_alg».proof.Proof.KHost512

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-! ## The arguments the second stretch reads are as launched -/

/-- Argument 5 is still as launched when the second stretch starts: nothing before it writes that buffer. -/
theorem W4_arg5 : W4 m ρ c (Proc.devRef .tc main_arg5) = m ((c : Thread nD τ).loc main_arg5) := by
  rw [W4_of_ne m ρ c main_arg5 (by decide)]
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp

/-- Argument 6 is still as launched when the second stretch starts: nothing before it writes that buffer. -/
theorem W4_arg6 : W4 m ρ c (Proc.devRef .tc main_arg6) = m ((c : Thread nD τ).loc main_arg6) := by
  rw [W4_of_ne m ρ c main_arg6 (by decide)]
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp

/-- Argument 7 is still as launched when the second stretch starts: nothing before it writes that buffer. -/
theorem W4_arg7 : W4 m ρ c (Proc.devRef .tc main_arg7) = m ((c : Thread nD τ).loc main_arg7) := by
  rw [W4_of_ne m ρ c main_arg7 (by decide)]
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp

/-- Argument 8 is still as launched when the second stretch starts: nothing before it writes that buffer. -/
theorem W4_arg8 : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp

/-! ## The second stretch's results, read at an index -/

/-- The column mean: the sum of the partial sums over all 32·8 partial rows, divided by the row count. -/
theorem W5_v34 (a : Fin 1) (d : Fin 512) :
    (W5 m ρ c (Proc.devRef .tc main_v34) : S1x512.Idx → EReal) (ix2 a d) = Ideal.div (∑ r : Fin 32 × Fin 8, (W4 m ρ c (Proc.devRef .tc main_v21_1) : S256x512.Idx → EReal) (ix2 (prow r.1 r.2) d)) Cert.BN.cnt := by
  show StableHlo.after hostOps2 (W4 m ρ c) (Proc.devRef .tc main_v34) (ix2 a d) = _
  after_results_simp
  exact mean_stage512 _ a d

/-- The column variance by moments: mean of squares minus squared mean, floored at zero. -/
theorem W5_v35 (a : Fin 1) (d : Fin 512) :
    (W5 m ρ c (Proc.devRef .tc main_v35) : S1x512.Idx → EReal) (ix2 a d)
      = max (Ideal.div (∑ r : Fin 32 × Fin 8, (W4 m ρ c (Proc.devRef .tc main_v21_2) : S256x512.Idx → EReal) (ix2 (prow r.1 r.2) d)) Cert.BN.cnt
          - Ideal.div (∑ r : Fin 32 × Fin 8, (W4 m ρ c (Proc.devRef .tc main_v21_1) : S256x512.Idx → EReal) (ix2 (prow r.1 r.2) d)) Cert.BN.cnt
            * Ideal.div (∑ r : Fin 32 × Fin 8, (W4 m ρ c (Proc.devRef .tc main_v21_1) : S256x512.Idx → EReal) (ix2 (prow r.1 r.2) d)) Cert.BN.cnt) 0 := by
  show StableHlo.after hostOps2 (W4 m ρ c) (Proc.devRef .tc main_v35) (ix2 a d) = _
  after_results_simp
  exact var_stage512 _ _ a d

/-- The scale vector with a leading unit axis is argument 5. -/
theorem W5_v36 (a : Fin 1) (d : Fin 512) :
    (W5 m ρ c (Proc.devRef .tc main_v36) : S1x512.Idx → EReal) (ix2 a d) = (m ((c : Thread nD τ).loc main_arg5) : S512.Idx → EReal) (ix1 d) := by
  show StableHlo.after hostOps2 (W4 m ρ c) (Proc.devRef .tc main_v36) (ix2 a d) = _
  after_results_simp
  rw [W4_arg5]
  exact vec_stage512 _ a d

/-- The shift vector with a leading unit axis is argument 6. -/
theorem W5_v37 (a : Fin 1) (d : Fin 512) :
    (W5 m ρ c (Proc.devRef .tc main_v37) : S1x512.Idx → EReal) (ix2 a d) = (m ((c : Thread nD τ).loc main_arg6) : S512.Idx → EReal) (ix1 d) := by
  show StableHlo.after hostOps2 (W4 m ρ c) (Proc.devRef .tc main_v37) (ix2 a d) = _
  after_results_simp
  rw [W4_arg6]
  exact vec_stage512 _ a d

/-- The bias vector with a leading unit axis is argument 8. -/
theorem W5_v38 (a : Fin 1) (o : Fin 512) :
    (W5 m ρ c (Proc.devRef .tc main_v38) : S1x512.Idx → EReal) (ix2 a o) = (m ((c : Thread nD τ).loc main_arg8) : S512.Idx → EReal) (ix1 o) := by
  show StableHlo.after hostOps2 (W4 m ρ c) (Proc.devRef .tc main_v38) (ix2 a o) = _
  after_results_simp
  rw [W4_arg8]
  exact vec_stage512 _ a o

/-- The weight matrix transposed (and narrowed, the identity on ideal values), at (d, o): argument 7 at (o, d). -/
theorem W5_v40 (d : Fin 512) (o : Fin 512) :
    (W5 m ρ c (Proc.devRef .tc main_v40) : S512x512.Idx → EReal) (ix2 d o) = (m ((c : Thread nD τ).loc main_arg7) : S512x512.Idx → EReal) (ix2 o d) := by
  show StableHlo.after hostOps2 (W4 m ρ c) (Proc.devRef .tc main_v40) (ix2 d o) = _
  after_results_simp
  rw [W4_arg7]
  exact wt_stage512x512 _ d o

/-- The second stretch leaves the activation array as the preceding region left it. -/
theorem W5_v21_0 : W5 m ρ c (Proc.devRef .tc main_v21_0) = W4 m ρ c (Proc.devRef .tc main_v21_0) := by
  show StableHlo.after hostOps2 (W4 m ρ c) (Proc.devRef .tc main_v21_0) = _
  after_results_simp

end Cert.BN.Ker

end
-- ==== Proof.KChain1.lean ====
/-
  The kernel program through its second region and the host operations after it: the first layer.

  The second region normalises each row of the input table with the column statistics of the whole table, multiplies
  by the transposed weights, adds the bias and floors at zero: the first layer's activations.  It also leaves their
  partial column sums, from which the host forms the second layer's column statistics.
-/
import proofs.«114695_j893353198455_2_alg».proof.Proof.Gen.KernelIdeal.Frame
import proofs.«114695_j893353198455_2_alg».proof.Proof.Spec
import proofs.«114695_j893353198455_2_alg».proof.Proof.KTables
import proofs.«114695_j893353198455_2_alg».proof.Proof.KSum
import proofs.«114695_j893353198455_2_alg».proof.Proof.KChain0
import proofs.«114695_j893353198455_2_alg».proof.Proof.KReg1
import proofs.«114695_j893353198455_2_alg».proof.Proof.KStretch2
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-- What the region's body computes at row `(s, y)`, feature `o`, is the layer's activation there. -/
theorem arr1_7_val (s : Fin 32) (y : Fin 2048) (o : Fin 512) :
    ((dat1 (V3 m ρ) c).arrAt 7 cfg1.N : S65536x512.Idx → EReal) (ix2 (row s y) o) = tY0 m c (s, y) o := by
  rw [arr1_7 (V3 m ρ) c s y o]
  simp only [V3_v0 m ρ c, V3_v14 m ρ c, V3_v15 m ρ c, W3_v16 m ρ c, W3_v17 m ρ c, W3_v18 m ρ c, W3_v20 m ρ c]
  rfl

/-- Leaving the region, the activation array at row `2048 s + y` is the layer's activation at `(s, y)`. -/
theorem W4_v21_0 (s : Fin 32) (y : Fin 2048) (o : Fin 512) :
    (W4 m ρ c (Proc.devRef .tc main_v21_0) : S65536x512.Idx → EReal) (ix2 (row s y) o) = tY0 m c (s, y) o :=
  (congrFun (W4_arr m ρ c 7) _).trans (arr1_7_val m ρ c s y o)

/-- The partial column sums of the activations: row 0 of tile `s`'s block. -/
theorem W4_v21_1 (s : Fin 32) (j : Fin 8) (o : Fin 512) :
    (W4 m ρ c (Proc.devRef .tc main_v21_1) : S256x512.Idx → EReal) (ix2 (prow s j) o)
      = if j.val = 0 then ∑ y : Fin 2048, tY0 m c (s, y) o else 0 :=
  (congrFun (W4_arr m ρ c 8) _).trans ((arr1_8 (V3 m ρ) c s j o).trans
    (if_congr Iff.rfl (Finset.sum_congr rfl fun y _ => arr1_7_val m ρ c s y o) rfl))

/-- The partial column sums of the squared activations. -/
theorem W4_v21_2 (s : Fin 32) (j : Fin 8) (o : Fin 512) :
    (W4 m ρ c (Proc.devRef .tc main_v21_2) : S256x512.Idx → EReal) (ix2 (prow s j) o)
      = if j.val = 0 then ∑ y : Fin 2048, tY0 m c (s, y) o * tY0 m c (s, y) o else 0 :=
  (congrFun (W4_arr m ρ c 9) _).trans ((arr1_9 (V3 m ρ) c s j o).trans
    (if_congr Iff.rfl (Finset.sum_congr rfl fun y _ => by rw [arr1_7_val m ρ c s y o]) rfl))

/-- Entering the third region, the mean vector is the first layer's column mean. -/
theorem V5_v34 (a : Fin 1) (d : Fin 512) :
    (V5 m ρ c main_v34 : S1x512.Idx → EReal) (ix2 a d) = Cert.BN.colMean (tY0 m c) d :=
  (W5_v34 m ρ c a d).trans
    (mean_of_partial (tY0 m c) (fun p => (W4 m ρ c (Proc.devRef .tc main_v21_1) : S256x512.Idx → EReal) (ix2 p d)) d
      (fun s j => W4_v21_1 m ρ c s j d))

/-- … and the variance vector its column variance by moments. -/
theorem V5_v35 (a : Fin 1) (d : Fin 512) :
    (V5 m ρ c main_v35 : S1x512.Idx → EReal) (ix2 a d) = Cert.BN.varM (tY0 m c) d :=
  (W5_v35 m ρ c a d).trans
    (var_of_partial (tY0 m c) (fun p => (W4 m ρ c (Proc.devRef .tc main_v21_1) : S256x512.Idx → EReal) (ix2 p d))
      (fun p => (W4 m ρ c (Proc.devRef .tc main_v21_2) : S256x512.Idx → EReal) (ix2 p d)) d
      (fun s j => W4_v21_1 m ρ c s j d) (fun s j => W4_v21_2 m ρ c s j d))

/-- The activation array is untouched by the host operations. -/
theorem V5_v21_0 (s : Fin 32) (y : Fin 2048) (d : Fin 512) :
    (V5 m ρ c main_v21_0 : S65536x512.Idx → EReal) (ix2 (row s y) d) = tY0 m c (s, y) d := by
  have e : V5 m ρ c main_v21_0 = W4 m ρ c (Proc.devRef .tc main_v21_0) := W5_v21_0 m ρ c
  rw [e]
  exact W4_v21_0 m ρ c s y d

end Cert.BN.Ker

end
-- ==== Proof.Pay2.lean ====
/-
  REGION 2, a batch-norm + linear layer followed by `max · 0`, with the statistics of its result, read at an
  index: the body leaves the layer's output block, and in two eight-row blocks the column sums of that output and of its
  squares on row 0, zero on the other rows.
-/
import proofs.«114695_j893353198455_2_alg».proof.Proof.PayNorm

noncomputable section

namespace Cert.BN.Pay

open Cert.KernelIdeal Cert.KernelIdeal.Gen Idealize.ShloMosaic ValueIdx

/-- What the body stores in the output block is its arithmetic applied to the input blocks themselves. -/
theorem out2_7_eq (x0 : Vec Ideal S2048x512 .f32) (x1 x2 x3 x4 : Vec Ideal S1x512 .f32)
    (x5 : Vec Ideal S512x512 .bf16) (x6 : Vec Ideal S1x512 .f32) :
    out2_7 (F := Ideal) x0 x1 x2 x3 x4 x5 x6 = k2_pay3 x0 x1 x2 x3 x4 x5 x6 := by
  unfold out2_7
  rw [View.canon_unit_zero hz2]
  simp only [View.ld_unit_zero (S := S2048x512) hz2,
    View.ld_unit_zero (S := S1x512) hz2,
    View.ld_unit_zero (S := S512x512) hz2]

/-- The layer's output at row `y`, feature `o`: the normalised row times the weight table, plus the shift, floored at
    zero. -/
theorem out2_7_apply (x0 : Vec Ideal S2048x512 .f32) (x1 x2 x3 x4 : Vec Ideal S1x512 .f32)
    (x5 : Vec Ideal S512x512 .bf16) (x6 : Vec Ideal S1x512 .f32) (y : Fin 2048) (o : Fin 512) :
    out2_7 (F := Ideal) x0 x1 x2 x3 x4 x5 x6 (ix2 y o)
      = max ((∑ d : Fin 512, ((x0 (ix2 y d) - x1 (ix2 0 d)) * Ideal.rsqrt (x2 (ix2 0 d) + eps) * x3 (ix2 0 d) + x4 (ix2 0 d))
              * x5 (ix2 d o)) + x6 (ix2 0 o)) 0 := by
  rw [out2_7_eq]
  unfold k2_pay3
  refine (maximumf_apply _ _ _).trans (congrArg₂ max ?_ Ideal.ofBits_zero_f32)
  exact affineNorm_apply x0 x1 x2 x3 x4 x5 x6 _ _ _ _ _ _ dot_S2048x512_S512x512_S2048x512_1_0_0_1_n_n
    (Idealize.PlainDot.eq_plain _ rfl rfl rfl rfl rfl rfl) _ y o

/-- The column sums of the layer's output, on row 0 of an eight-row block that is zero elsewhere. -/
theorem out2_8_apply (x0 : Vec Ideal S2048x512 .f32) (x1 x2 x3 x4 : Vec Ideal S1x512 .f32)
    (x5 : Vec Ideal S512x512 .bf16) (x6 : Vec Ideal S1x512 .f32) (j : Fin 8) (o : Fin 512) :
    out2_8 (F := Ideal) x0 x1 x2 x3 x4 x5 x6 (ix2 j o)
      = if j.val = 0 then ∑ y : Fin 2048, out2_7 (F := Ideal) x0 x1 x2 x3 x4 x5 x6 (ix2 y o) else 0 := by
  rw [out2_7_eq]
  unfold out2_8
  rw [View.canon_unit_zero hz2]
  simp only [View.ld_unit_zero (S := S2048x512) hz2,
    View.ld_unit_zero (S := S1x512) hz2,
    View.ld_unit_zero (S := S512x512) hz2]
  unfold k2_pay1 k2_pay4 k2_pay5
  refine (rowMask_apply iota_S8x512_d0_w32 _ _ j o).trans (if_congr Iff.rfl ?_ ?_)
  · refine (broadcastTo_1b_ab_apply _ broadcasts_S1x512_S8x512 j o).trans ?_
    refine (congrFun (shapeCast_self _ shapeCasts_S1x512_S1x512) _).trans ?_
    exact sumRowsKeep_apply _ _ reduces_S2048x512_S512 _ _ shapeCasts_S512_S1x512 0 o
  · exact Ideal.ofBits_zero_f32

/-- The column sums of the squares of the layer's output, on row 0 of an eight-row block that is zero elsewhere. -/
theorem out2_9_apply (x0 : Vec Ideal S2048x512 .f32) (x1 x2 x3 x4 : Vec Ideal S1x512 .f32)
    (x5 : Vec Ideal S512x512 .bf16) (x6 : Vec Ideal S1x512 .f32) (j : Fin 8) (o : Fin 512) :
    out2_9 (F := Ideal) x0 x1 x2 x3 x4 x5 x6 (ix2 j o)
      = if j.val = 0 then ∑ y : Fin 2048, out2_7 (F := Ideal) x0 x1 x2 x3 x4 x5 x6 (ix2 y o) * out2_7 (F := Ideal) x0 x1 x2 x3 x4 x5 x6 (ix2 y o)
        else 0 := by
  rw [out2_7_eq]
  unfold out2_9
  rw [View.canon_unit_zero hz2]
  simp only [View.ld_unit_zero (S := S2048x512) hz2,
    View.ld_unit_zero (S := S1x512) hz2,
    View.ld_unit_zero (S := S512x512) hz2]
  unfold k2_pay2 k2_pay4
  refine (rowMask_apply iota_S8x512_d0_w32 _ _ j o).trans (if_congr Iff.rfl ?_ ?_)
  · refine (broadcastTo_1b_ab_apply _ broadcasts_S1x512_S8x512 j o).trans ?_
    refine (congrFun (shapeCast_self _ shapeCasts_S1x512_S1x512) _).trans ?_
    exact sumRowsKeep_apply _ _ reduces_S2048x512_S512 _ _ shapeCasts_S512_S1x512 0 o
  · exact Ideal.ofBits_zero_f32

end Cert.BN.Pay

end
-- ==== Proof.KReg2.lean ====
/-
  REGION 2 (a batch-norm + linear layer followed by `max · 0`, with the statistics of its result), the arrays it
  leaves read at an index.

  The grid has 32 points. At point t the body is given rows 2048·t … 2048·t + 2047 of the 65536-row activation array and
  the whole of the six parameter arrays. It writes rows 2048·t … 2048·t + 2047 of the layer's output, and in each of two
  partial-sum arrays the eight-row block of rows 8·t … 8·t + 7: row 0 of the block holds the column sums over the tile's
  2048 output rows (of the entries; of their squares), rows 1 … 7 hold zero. Distinct points write distinct blocks, so
  after the region each block of an output array holds exactly what its own point wrote. The seven input arrays are
  only read.
-/
import proofs.«114695_j893353198455_2_alg».proof.Proof.KIdx
import proofs.«114695_j893353198455_2_alg».proof.Proof.Pay2

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The block index of each window at point t: (t, 0) for the row-blocked windows, (0, 0) for the whole arrays -/

theorem idx2_0 : ∀ t : Fin cfg2.N, win2_0.index t (0 : Fin 2) = t.val ∧ win2_0.index t (1 : Fin 2) = 0 :=
  (by decide +kernel : ∀ t : Fin grid2.N, _)

theorem idx2_1 : ∀ t : Fin cfg2.N, win2_1.index t (0 : Fin 2) = 0 ∧ win2_1.index t (1 : Fin 2) = 0 :=
  (by decide +kernel : ∀ t : Fin grid2.N, _)

theorem idx2_2 : ∀ t : Fin cfg2.N, win2_2.index t (0 : Fin 2) = 0 ∧ win2_2.index t (1 : Fin 2) = 0 :=
  (by decide +kernel : ∀ t : Fin grid2.N, _)

theorem idx2_3 : ∀ t : Fin cfg2.N, win2_3.index t (0 : Fin 2) = 0 ∧ win2_3.index t (1 : Fin 2) = 0 :=
  (by decide +kernel : ∀ t : Fin grid2.N, _)

theorem idx2_4 : ∀ t : Fin cfg2.N, win2_4.index t (0 : Fin 2) = 0 ∧ win2_4.index t (1 : Fin 2) = 0 :=
  (by decide +kernel : ∀ t : Fin grid2.N, _)

theorem idx2_5 : ∀ t : Fin cfg2.N, win2_5.index t (0 : Fin 2) = 0 ∧ win2_5.index t (1 : Fin 2) = 0 :=
  (by decide +kernel : ∀ t : Fin grid2.N, _)

theorem idx2_6 : ∀ t : Fin cfg2.N, win2_6.index t (0 : Fin 2) = 0 ∧ win2_6.index t (1 : Fin 2) = 0 :=
  (by decide +kernel : ∀ t : Fin grid2.N, _)

theorem idx2_7 : ∀ t : Fin cfg2.N, win2_7.index t (0 : Fin 2) = t.val ∧ win2_7.index t (1 : Fin 2) = 0 :=
  (by decide +kernel : ∀ t : Fin grid2.N, _)

theorem idx2_8 : ∀ t : Fin cfg2.N, win2_8.index t (0 : Fin 2) = t.val ∧ win2_8.index t (1 : Fin 2) = 0 :=
  (by decide +kernel : ∀ t : Fin grid2.N, _)

theorem idx2_9 : ∀ t : Fin cfg2.N, win2_9.index t (0 : Fin 2) = t.val ∧ win2_9.index t (1 : Fin 2) = 0 :=
  (by decide +kernel : ∀ t : Fin grid2.N, _)

/-! ## Where a block's entry sits in its array -/

/-- Entry (y, d) of the activation block at point t is entry (2048·t + y, d) of the activation array. -/
theorem emb2_0 (t : Fin cfg2.N) (y : Fin 2048) (d : Fin 512) :
    ((cfg2.win 0).blk t).view.emb (ix2 y d) = ix2 (row (pt2 t) y) d := by
  funext a; apply Fin.ext
  match a with
  | ⟨0, _⟩ => show win2_0.index t (0 : Fin 2) * 2048 + 1 * y.val = t.val * 2048 + y.val; rw [(idx2_0 t).1]; omega
  | ⟨1, _⟩ => show win2_0.index t (1 : Fin 2) * 512 + 1 * d.val = d.val; rw [(idx2_0 t).2]; omega

/-- The activation block at point t, read at (y, d), is the activation array at (2048·t + y, d). -/
theorem iblk2_0_apply (c : Dev nD) (t : Fin cfg2.N) (y : Fin 2048) (d : Fin 512) :
    iblk2 V c 0 t (ix2 y d) = V c main_v21_0 (ix2 (row (pt2 t) y) d) := by
  unfold iblk2
  rw [View.read_apply]
  exact (cast_eq _ _).trans (congrArg (V c main_v21_0) (emb2_0 t y d))

/-- Window 1's block is its whole array: entry (u, d) of the block is entry (u, d) of the array. -/
theorem emb2_1 (t : Fin cfg2.N) (u : Fin 1) (d : Fin 512) :
    ((cfg2.win 1).blk t).view.emb (ix2 u d) = ix2 u d := by
  funext a; apply Fin.ext
  match a with
  | ⟨0, _⟩ => show win2_1.index t (0 : Fin 2) * 1 + 1 * u.val = u.val; rw [(idx2_1 t).1]; omega
  | ⟨1, _⟩ => show win2_1.index t (1 : Fin 2) * 512 + 1 * d.val = d.val; rw [(idx2_1 t).2]; omega

/-- Window 1's block at any point, read at (u, d), is its array there. -/
theorem iblk2_1_apply (c : Dev nD) (t : Fin cfg2.N) (u : Fin 1) (d : Fin 512) :
    iblk2 V c 1 t (ix2 u d) = V c main_v34 (ix2 u d) := by
  unfold iblk2
  rw [View.read_apply]
  exact (cast_eq _ _).trans (congrArg (V c main_v34) (emb2_1 t u d))

/-- Window 2's block is its whole array: entry (u, d) of the block is entry (u, d) of the array. -/
theorem emb2_2 (t : Fin cfg2.N) (u : Fin 1) (d : Fin 512) :
    ((cfg2.win 2).blk t).view.emb (ix2 u d) = ix2 u d := by
  funext a; apply Fin.ext
  match a with
  | ⟨0, _⟩ => show win2_2.index t (0 : Fin 2) * 1 + 1 * u.val = u.val; rw [(idx2_2 t).1]; omega
  | ⟨1, _⟩ => show win2_2.index t (1 : Fin 2) * 512 + 1 * d.val = d.val; rw [(idx2_2 t).2]; omega

/-- Window 2's block at any point, read at (u, d), is its array there. -/
theorem iblk2_2_apply (c : Dev nD) (t : Fin cfg2.N) (u : Fin 1) (d : Fin 512) :
    iblk2 V c 2 t (ix2 u d) = V c main_v35 (ix2 u d) := by
  unfold iblk2
  rw [View.read_apply]
  exact (cast_eq _ _).trans (congrArg (V c main_v35) (emb2_2 t u d))

/-- Window 3's block is its whole array: entry (u, d) of the block is entry (u, d) of the array. -/
theorem emb2_3 (t : Fin cfg2.N) (u : Fin 1) (d : Fin 512) :
    ((cfg2.win 3).blk t).view.emb (ix2 u d) = ix2 u d := by
  funext a; apply Fin.ext
  match a with
  | ⟨0, _⟩ => show win2_3.index t (0 : Fin 2) * 1 + 1 * u.val = u.val; rw [(idx2_3 t).1]; omega
  | ⟨1, _⟩ => show win2_3.index t (1 : Fin 2) * 512 + 1 * d.val = d.val; rw [(idx2_3 t).2]; omega

/-- Window 3's block at any point, read at (u, d), is its array there. -/
theorem iblk2_3_apply (c : Dev nD) (t : Fin cfg2.N) (u : Fin 1) (d : Fin 512) :
    iblk2 V c 3 t (ix2 u d) = V c main_v36 (ix2 u d) := by
  unfold iblk2
  rw [View.read_apply]
  exact (cast_eq _ _).trans (congrArg (V c main_v36) (emb2_3 t u d))

/-- Window 4's block is its whole array: entry (u, d) of the block is entry (u, d) of the array. -/
theorem emb2_4 (t : Fin cfg2.N) (u : Fin 1) (d : Fin 512) :
    ((cfg2.win 4).blk t).view.emb (ix2 u d) = ix2 u d := by
  funext a; apply Fin.ext
  match a with
  | ⟨0, _⟩ => show win2_4.index t (0 : Fin 2) * 1 + 1 * u.val = u.val; rw [(idx2_4 t).1]; omega
  | ⟨1, _⟩ => show win2_4.index t (1 : Fin 2) * 512 + 1 * d.val = d.val; rw [(idx2_4 t).2]; omega

/-- Window 4's block at any point, read at (u, d), is its array there. -/
theorem iblk2_4_apply (c : Dev nD) (t : Fin cfg2.N) (u : Fin 1) (d : Fin 512) :
    iblk2 V c 4 t (ix2 u d) = V c main_v37 (ix2 u d) := by
  unfold iblk2
  rw [View.read_apply]
  exact (cast_eq _ _).trans (congrArg (V c main_v37) (emb2_4 t u d))

/-- Window 5's block is its whole array: entry (d, o) of the block is entry (d, o) of the array. -/
theorem emb2_5 (t : Fin cfg2.N) (d : Fin 512) (o : Fin 512) :
    ((cfg2.win 5).blk t).view.emb (ix2 d o) = ix2 d o := by
  funext a; apply Fin.ext
  match a with
  | ⟨0, _⟩ => show win2_5.index t (0 : Fin 2) * 512 + 1 * d.val = d.val; rw [(idx2_5 t).1]; omega
  | ⟨1, _⟩ => show win2_5.index t (1 : Fin 2) * 512 + 1 * o.val = o.val; rw [(idx2_5 t).2]; omega

/-- Window 5's block at any point, read at (d, o), is its array there. -/
theorem iblk2_5_apply (c : Dev nD) (t : Fin cfg2.N) (d : Fin 512) (o : Fin 512) :
    iblk2 V c 5 t (ix2 d o) = V c main_v40 (ix2 d o) := by
  unfold iblk2
  rw [View.read_apply]
  exact (cast_eq _ _).trans (congrArg (V c main_v40) (emb2_5 t d o))

/-- Window 6's block is its whole array: entry (u, o) of the block is entry (u, o) of the array. -/
theorem emb2_6 (t : Fin cfg2.N) (u : Fin 1) (o : Fin 512) :
    ((cfg2.win 6).blk t).view.emb (ix2 u o) = ix2 u o := by
  funext a; apply Fin.ext
  match a with
  | ⟨0, _⟩ => show win2_6.index t (0 : Fin 2) * 1 + 1 * u.val = u.val; rw [(idx2_6 t).1]; omega
  | ⟨1, _⟩ => show win2_6.index t (1 : Fin 2) * 512 + 1 * o.val = o.val; rw [(idx2_6 t).2]; omega

/-- Window 6's block at any point, read at (u, o), is its array there. -/
theorem iblk2_6_apply (c : Dev nD) (t : Fin cfg2.N) (u : Fin 1) (o : Fin 512) :
    iblk2 V c 6 t (ix2 u o) = V c main_v38 (ix2 u o) := by
  unfold iblk2
  rw [View.read_apply]
  exact (cast_eq _ _).trans (congrArg (V c main_v38) (emb2_6 t u o))

/-- Entry (y, d) of the output block at point t is entry (2048·t + y, d) of the output array. -/
theorem emb2_7 (t : Fin cfg2.N) (y : Fin 2048) (d : Fin 512) :
    ((cfg2.win 7).blk t).view.emb (ix2 y d) = ix2 (row (pt2 t) y) d := by
  funext a; apply Fin.ext
  match a with
  | ⟨0, _⟩ => show win2_7.index t (0 : Fin 2) * 2048 + 1 * y.val = t.val * 2048 + y.val; rw [(idx2_7 t).1]; omega
  | ⟨1, _⟩ => show win2_7.index t (1 : Fin 2) * 512 + 1 * d.val = d.val; rw [(idx2_7 t).2]; omega

/-- Entry (j, o) of window 8's eight-row block at point t is entry (8·t + j, o) of its array. -/
theorem emb2_8 (t : Fin cfg2.N) (j : Fin 8) (o : Fin 512) :
    ((cfg2.win 8).blk t).view.emb (ix2 j o) = ix2 (prow (pt2 t) j) o := by
  funext a; apply Fin.ext
  match a with
  | ⟨0, _⟩ => show win2_8.index t (0 : Fin 2) * 8 + 1 * j.val = t.val * 8 + j.val; rw [(idx2_8 t).1]; omega
  | ⟨1, _⟩ => show win2_8.index t (1 : Fin 2) * 512 + 1 * o.val = o.val; rw [(idx2_8 t).2]; omega

/-- Entry (j, o) of window 9's eight-row block at point t is entry (8·t + j, o) of its array. -/
theorem emb2_9 (t : Fin cfg2.N) (j : Fin 8) (o : Fin 512) :
    ((cfg2.win 9).blk t).view.emb (ix2 j o) = ix2 (prow (pt2 t) j) o := by
  funext a; apply Fin.ext
  match a with
  | ⟨0, _⟩ => show win2_9.index t (0 : Fin 2) * 8 + 1 * j.val = t.val * 8 + j.val; rw [(idx2_9 t).1]; omega
  | ⟨1, _⟩ => show win2_9.index t (1 : Fin 2) * 512 + 1 * o.val = o.val; rw [(idx2_9 t).2]; omega

/-! ## Distinct points write distinct blocks -/

theorem idx_inj2_7 (t t' : Fin cfg2.N) (h : win2_7.index t = win2_7.index t') : t = t' :=
  Fin.ext (by have e := congrFun h (0 : Fin 2); rwa [(idx2_7 t).1, (idx2_7 t').1] at e)

theorem disjoint2_7 : ∀ t t' : Fin cfg2.N, (cfg2.win 7).flush t = true → (cfg2.win 7).flush t' = true → t ≠ t' →
    Disjoint ((cfg2.win 7).blk t).view.set ((cfg2.win 7).blk t').view.set :=
  fun t t' _ _ hne => (cfg2.win 7).disjoint_blk fun h => hne (idx_inj2_7 t t' h)

theorem idx_inj2_8 (t t' : Fin cfg2.N) (h : win2_8.index t = win2_8.index t') : t = t' :=
  Fin.ext (by have e := congrFun h (0 : Fin 2); rwa [(idx2_8 t).1, (idx2_8 t').1] at e)

theorem disjoint2_8 : ∀ t t' : Fin cfg2.N, (cfg2.win 8).flush t = true → (cfg2.win 8).flush t' = true → t ≠ t' →
    Disjoint ((cfg2.win 8).blk t).view.set ((cfg2.win 8).blk t').view.set :=
  fun t t' _ _ hne => (cfg2.win 8).disjoint_blk fun h => hne (idx_inj2_8 t t' h)

theorem idx_inj2_9 (t t' : Fin cfg2.N) (h : win2_9.index t = win2_9.index t') : t = t' :=
  Fin.ext (by have e := congrFun h (0 : Fin 2); rwa [(idx2_9 t).1, (idx2_9 t').1] at e)

theorem disjoint2_9 : ∀ t t' : Fin cfg2.N, (cfg2.win 9).flush t = true → (cfg2.win 9).flush t' = true → t ≠ t' →
    Disjoint ((cfg2.win 9).blk t).view.set ((cfg2.win 9).blk t').view.set :=
  fun t t' _ _ hne => (cfg2.win 9).disjoint_blk fun h => hne (idx_inj2_9 t t' h)

/-! ## The output arrays, block by block -/

/-- After the region, the layer's output array at (2048·t + y, o) is what point t's body left at (y, o). -/
theorem arr2_7_pt (c : Dev nD) (t : Fin cfg2.N) (y : Fin 2048) (o : Fin 512) :
    @Eq EReal ((dat2 V c).arrAt 7 cfg2.N (ix2 (row (pt2 t) y) o))
      (out2_7 (F := Ideal) (iblk2 V c 0 t) (iblk2 V c 1 t) (iblk2 V c 2 t) (iblk2 V c 3 t) (iblk2 V c 4 t) (iblk2 V c 5 t) (iblk2 V c 6 t) (ix2 y o)) := by
  have h := (dat2 V c).arrAt_emb_eq_flushed 7 disjoint2_7 t (flush2_7 t) (ix2 y o)
  rw [cast_eq] at h
  refine (congrArg ((dat2 V c).arrAt 7 cfg2.N) (emb2_7 t y o)).symm.trans (h.trans ?_)
  show (dat2 V c).after 7 t (ix2 y o) = _
  rw [after2_7]

/-- After the region, the first partial-sum array at (8·t + j, o) is what point t's body left at (j, o). -/
theorem arr2_8_pt (c : Dev nD) (t : Fin cfg2.N) (j : Fin 8) (o : Fin 512) :
    @Eq EReal ((dat2 V c).arrAt 8 cfg2.N (ix2 (prow (pt2 t) j) o))
      (out2_8 (F := Ideal) (iblk2 V c 0 t) (iblk2 V c 1 t) (iblk2 V c 2 t) (iblk2 V c 3 t) (iblk2 V c 4 t) (iblk2 V c 5 t) (iblk2 V c 6 t) (ix2 j o)) := by
  have h := (dat2 V c).arrAt_emb_eq_flushed 8 disjoint2_8 t (flush2_8 t) (ix2 j o)
  rw [cast_eq] at h
  refine (congrArg ((dat2 V c).arrAt 8 cfg2.N) (emb2_8 t j o)).symm.trans (h.trans ?_)
  show (dat2 V c).after 8 t (ix2 j o) = _
  rw [after2_8]

/-- After the region, the second partial-sum array at (8·t + j, o) is what point t's body left at (j, o). -/
theorem arr2_9_pt (c : Dev nD) (t : Fin cfg2.N) (j : Fin 8) (o : Fin 512) :
    @Eq EReal ((dat2 V c).arrAt 9 cfg2.N (ix2 (prow (pt2 t) j) o))
      (out2_9 (F := Ideal) (iblk2 V c 0 t) (iblk2 V c 1 t) (iblk2 V c 2 t) (iblk2 V c 3 t) (iblk2 V c 4 t) (iblk2 V c 5 t) (iblk2 V c 6 t) (ix2 j o)) := by
  have h := (dat2 V c).arrAt_emb_eq_flushed 9 disjoint2_9 t (flush2_9 t) (ix2 j o)
  rw [cast_eq] at h
  refine (congrArg ((dat2 V c).arrAt 9 cfg2.N) (emb2_9 t j o)).symm.trans (h.trans ?_)
  show (dat2 V c).after 9 t (ix2 j o) = _
  rw [after2_9]

/-! ## The output arrays in closed form -/

/-- The layer's output at row 2048·s + y, feature o: the normalised row times the weight table, plus the shift, floored
    at zero — stated with the seven input arrays named as tables of extended reals (`A0` the activations, `A1 … A4`
    mean, variance, scale and shift, `A5` the weights, `A6` the layer's shift). -/
theorem arr2_7_of (c : Dev nD) (s : Fin 32) (y : Fin 2048) (o : Fin 512)
    (A0 : S65536x512.Idx → EReal) (h0 : A0 = V c main_v21_0) (A1 : S1x512.Idx → EReal) (h1 : A1 = V c main_v34)
    (A2 : S1x512.Idx → EReal) (h2 : A2 = V c main_v35) (A3 : S1x512.Idx → EReal) (h3 : A3 = V c main_v36)
    (A4 : S1x512.Idx → EReal) (h4 : A4 = V c main_v37) (A5 : S512x512.Idx → EReal) (h5 : A5 = V c main_v40)
    (A6 : S1x512.Idx → EReal) (h6 : A6 = V c main_v38) :
    @Eq EReal ((dat2 V c).arrAt 7 cfg2.N (ix2 (row s y) o))
      (max ((∑ d : Fin 512, ((A0 (ix2 (row s y) d) - A1 (ix2 0 d)) * Ideal.rsqrt (A2 (ix2 0 d) + eps) * A3 (ix2 0 d) + A4 (ix2 0 d))
              * A5 (ix2 d o)) + A6 (ix2 0 o)) 0) := by
  subst h0 h1 h2 h3 h4 h5 h6
  refine (arr2_7_pt V c (tp2 s) y o).trans ((Pay.out2_7_apply _ _ _ _ _ _ _ y o).trans
    (congrArg₂ max ?_ rfl))
  refine congrArg₂ (· + ·) (Finset.sum_congr rfl fun d _ => ?_) (iblk2_6_apply V c (tp2 s) 0 o)
  exact congrArg₂ (· * ·)
    (congrArg₂ (· + ·)
      (congrArg₂ (· * ·)
        (congrArg₂ (· * ·)
          (congrArg₂ (· - ·) (iblk2_0_apply V c (tp2 s) y d) (iblk2_1_apply V c (tp2 s) 0 d))
          (congrArg (fun v : EReal => Ideal.rsqrt (v + eps)) (iblk2_2_apply V c (tp2 s) 0 d)))
        (iblk2_3_apply V c (tp2 s) 0 d))
      (iblk2_4_apply V c (tp2 s) 0 d))
    (iblk2_5_apply V c (tp2 s) d o)

/-- The same with the arrays the region found in place of the names. -/
theorem arr2_7 (c : Dev nD) (s : Fin 32) (y : Fin 2048) (o : Fin 512) :
    type_of% (arr2_7_of V c s y o _ rfl _ rfl _ rfl _ rfl _ rfl _ rfl _ rfl) :=
  arr2_7_of V c s y o _ rfl _ rfl _ rfl _ rfl _ rfl _ rfl _ rfl

/-- The first partial-sum array: row 8·s of tile s holds the column sums of the layer's output over the tile's 2048
    rows, rows 8·s + 1 … 8·s + 7 hold zero — stated with the layer's output array named `B`. -/
theorem arr2_8_of (c : Dev nD) (s : Fin 32) (j : Fin 8) (o : Fin 512)
    (B : S65536x512.Idx → EReal) (hB : B = (dat2 V c).arrAt 7 cfg2.N) :
    @Eq EReal ((dat2 V c).arrAt 8 cfg2.N (ix2 (prow s j) o))
      (if j.val = 0 then ∑ y : Fin 2048, B (ix2 (row s y) o) else 0) := by
  subst hB
  exact (arr2_8_pt V c (tp2 s) j o).trans ((Pay.out2_8_apply _ _ _ _ _ _ _ j o).trans
    (if_congr Iff.rfl (Finset.sum_congr rfl fun y _ => (arr2_7_pt V c (tp2 s) y o).symm) rfl))

/-- The same with the layer's output array in place of the name. -/
theorem arr2_8 (c : Dev nD) (s : Fin 32) (j : Fin 8) (o : Fin 512) :
    type_of% (arr2_8_of V c s j o _ rfl) :=
  arr2_8_of V c s j o _ rfl

/-- The second partial-sum array: the same with the squares of the layer's output. -/
theorem arr2_9_of (c : Dev nD) (s : Fin 32) (j : Fin 8) (o : Fin 512)
    (B : S65536x512.Idx → EReal) (hB : B = (dat2 V c).arrAt 7 cfg2.N) :
    @Eq EReal ((dat2 V c).arrAt 9 cfg2.N (ix2 (prow s j) o))
      (if j.val = 0 then ∑ y : Fin 2048, B (ix2 (row s y) o) * B (ix2 (row s y) o) else 0) := by
  subst hB
  exact (arr2_9_pt V c (tp2 s) j o).trans ((Pay.out2_9_apply _ _ _ _ _ _ _ j o).trans
    (if_congr Iff.rfl (Finset.sum_congr rfl fun y _ =>
      congrArg₂ (· * ·) (arr2_7_pt V c (tp2 s) y o).symm (arr2_7_pt V c (tp2 s) y o).symm) rfl))

/-- The same with the layer's output array in place of the name. -/
theorem arr2_9 (c : Dev nD) (s : Fin 32) (j : Fin 8) (o : Fin 512) :
    type_of% (arr2_9_of V c s j o _ rfl) :=
  arr2_9_of V c s j o _ rfl

/-! ## The input arrays are only read -/

/-- An input window's array after the region is as the region found it. -/
theorem kept2 (c : Dev nD) (w : Fin cfg2.W) (hw : (cfg2.win w).isOut = false) :
    (dat2 V c).arrAt w cfg2.N = V c (Pipeline.arrRef spec2 w) :=
  ((dat2 V c).arrAt_in w hw _).trans (A_eq2 V c w)

theorem kept2_0 (c : Dev nD) : (dat2 V c).arrAt 0 cfg2.N = V c main_v21_0 := kept2 V c 0 rfl
theorem kept2_1 (c : Dev nD) : (dat2 V c).arrAt 1 cfg2.N = V c main_v34 := kept2 V c 1 rfl
theorem kept2_2 (c : Dev nD) : (dat2 V c).arrAt 2 cfg2.N = V c main_v35 := kept2 V c 2 rfl
theorem kept2_3 (c : Dev nD) : (dat2 V c).arrAt 3 cfg2.N = V c main_v36 := kept2 V c 3 rfl
theorem kept2_4 (c : Dev nD) : (dat2 V c).arrAt 4 cfg2.N = V c main_v37 := kept2 V c 4 rfl
theorem kept2_5 (c : Dev nD) : (dat2 V c).arrAt 5 cfg2.N = V c main_v40 := kept2 V c 5 rfl
theorem kept2_6 (c : Dev nD) : (dat2 V c).arrAt 6 cfg2.N = V c main_v38 := kept2 V c 6 rfl

end Cert.BN.Ker

end
-- ==== Proof.KStretch3.lean ====
/-
  The third stretch of host operations between two regions of the kernel program, read at an index.

  The stretch turns the two arrays of partial column sums the preceding region left into the column mean and the
  column variance by moments, gives the layer's scale, shift and bias vectors a leading unit axis, and transposes the
  weight matrix.  Each result is read here at an index in terms of the preceding region's arrays and of the
  program's arguments, which no earlier operation or region writes.
-/
import proofs.«114695_j893353198455_2_alg».proof.Proof.KHost512

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-! ## The arguments the third stretch reads are as launched -/

/-- Argument 9 is still as launched when the third stretch starts: nothing before it writes that buffer. -/
theorem W6_arg9 : W6 m ρ c (Proc.devRef .tc main_arg9) = m ((c : Thread nD τ).loc main_arg9) := by
  rw [W6_of_ne m ρ c main_arg9 (by decide)]
  show StableHlo.after hostOps2 (W4 m ρ c) (Proc.devRef .tc main_arg9) = _
  after_results_simp
  rw [W4_of_ne m ρ c main_arg9 (by decide)]
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results_simp

/-- Argument 10 is still as launched when the third stretch starts: nothing before it writes that buffer. -/
theorem W6_arg10 : W6 m ρ c (Proc.devRef .tc main_arg10) = m ((c : Thread nD τ).loc main_arg10) := by
  rw [W6_of_ne m ρ c main_arg10 (by decide)]
  show StableHlo.after hostOps2 (W4 m ρ c) (Proc.devRef .tc main_arg10) = _
  after_results_simp
  rw [W4_of_ne m ρ c main_arg10 (by decide)]
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp

/-- Argument 11 is still as launched when the third stretch starts: nothing before it writes that buffer. -/
theorem W6_arg11 : W6 m ρ c (Proc.devRef .tc main_arg11) = m ((c : Thread nD τ).loc main_arg11) := by
  rw [W6_of_ne m ρ c main_arg11 (by decide)]
  show StableHlo.after hostOps2 (W4 m ρ c) (Proc.devRef .tc main_arg11) = _
  after_results_simp
  rw [W4_of_ne m ρ c main_arg11 (by decide)]
  show StableHlo.after hostOps1 (W2 m ρ c) (Proc.devRef .tc main_arg11) = _
  after_results_simp
  rw [W2_of_ne m ρ c main_arg11 (by decide)]
  show StableHlo.after hostOps0 (W0 m ρ c) (Proc.devRef .tc main_arg11) = _
  after_results_simp

/-- Argument 12 is still as launched when the third stretch starts: nothing before it writes that buffer. -/
theorem W6_arg12 : W6 m ρ c (Proc.devRef .tc main_arg12) = m ((c : Thread nD τ).loc main_arg12) := by
  rw [W6_of_ne m ρ c main_arg12 (by decide)]
  show StableHlo.after hostOps2 (W4 m ρ c) (Proc.devRef .tc main_arg12) = _
  after_results_simp
  rw [W4_of_ne m ρ c main_arg12 (by decide)]
  show StableHlo.after hostOps1 (W2 m ρ c) (Proc.devRef .tc main_arg12) = _
  after_results_simp
  rw [W2_of_ne m ρ c main_arg12 (by decide)]
  show StableHlo.after hostOps0 (W0 m ρ c) (Proc.devRef .tc main_arg12) = _
  after_results_simp

/-! ## The third stretch's results, read at an index -/

/-- The column mean: the sum of the partial sums over all 32·8 partial rows, divided by the row count. -/
theorem W7_v54 (a : Fin 1) (d : Fin 512) :
    (W7 m ρ c (Proc.devRef .tc main_v54) : S1x512.Idx → EReal) (ix2 a d) = Ideal.div (∑ r : Fin 32 × Fin 8, (W6 m ρ c (Proc.devRef .tc main_v41_1) : S256x512.Idx → EReal) (ix2 (prow r.1 r.2) d)) Cert.BN.cnt := by
  show StableHlo.after hostOps3 (W6 m ρ c) (Proc.devRef .tc main_v54) (ix2 a d) = _
  after_results_simp
  exact mean_stage512 _ a d

/-- The column variance by moments: mean of squares minus squared mean, floored at zero. -/
theorem W7_v55 (a : Fin 1) (d : Fin 512) :
    (W7 m ρ c (Proc.devRef .tc main_v55) : S1x512.Idx → EReal) (ix2 a d)
      = max (Ideal.div (∑ r : Fin 32 × Fin 8, (W6 m ρ c (Proc.devRef .tc main_v41_2) : S256x512.Idx → EReal) (ix2 (prow r.1 r.2) d)) Cert.BN.cnt
          - Ideal.div (∑ r : Fin 32 × Fin 8, (W6 m ρ c (Proc.devRef .tc main_v41_1) : S256x512.Idx → EReal) (ix2 (prow r.1 r.2) d)) Cert.BN.cnt
            * Ideal.div (∑ r : Fin 32 × Fin 8, (W6 m ρ c (Proc.devRef .tc main_v41_1) : S256x512.Idx → EReal) (ix2 (prow r.1 r.2) d)) Cert.BN.cnt) 0 := by
  show StableHlo.after hostOps3 (W6 m ρ c) (Proc.devRef .tc main_v55) (ix2 a d) = _
  after_results_simp
  exact var_stage512 _ _ a d

/-- The scale vector with a leading unit axis is argument 9. -/
theorem W7_v56 (a : Fin 1) (d : Fin 512) :
    (W7 m ρ c (Proc.devRef .tc main_v56) : S1x512.Idx → EReal) (ix2 a d) = (m ((c : Thread nD τ).loc main_arg9) : S512.Idx → EReal) (ix1 d) := by
  show StableHlo.after hostOps3 (W6 m ρ c) (Proc.devRef .tc main_v56) (ix2 a d) = _
  after_results_simp
  rw [W6_arg9]
  exact vec_stage512 _ a d

/-- The shift vector with a leading unit axis is argument 10. -/
theorem W7_v57 (a : Fin 1) (d : Fin 512) :
    (W7 m ρ c (Proc.devRef .tc main_v57) : S1x512.Idx → EReal) (ix2 a d) = (m ((c : Thread nD τ).loc main_arg10) : S512.Idx → EReal) (ix1 d) := by
  show StableHlo.after hostOps3 (W6 m ρ c) (Proc.devRef .tc main_v57) (ix2 a d) = _
  after_results_simp
  rw [W6_arg10]
  exact vec_stage512 _ a d

/-- The bias vector with a leading unit axis is argument 12. -/
theorem W7_v58 (a : Fin 1) (o : Fin 1024) :
    (W7 m ρ c (Proc.devRef .tc main_v58) : S1x1024.Idx → EReal) (ix2 a o) = (m ((c : Thread nD τ).loc main_arg12) : S1024.Idx → EReal) (ix1 o) := by
  show StableHlo.after hostOps3 (W6 m ρ c) (Proc.devRef .tc main_v58) (ix2 a o) = _
  after_results_simp
  rw [W6_arg12]
  exact vec_stage1024 _ a o

/-- The weight matrix transposed (and narrowed, the identity on ideal values), at (d, o): argument 11 at (o, d). -/
theorem W7_v60 (d : Fin 512) (o : Fin 1024) :
    (W7 m ρ c (Proc.devRef .tc main_v60) : S512x1024.Idx → EReal) (ix2 d o) = (m ((c : Thread nD τ).loc main_arg11) : S1024x512.Idx → EReal) (ix2 o d) := by
  show StableHlo.after hostOps3 (W6 m ρ c) (Proc.devRef .tc main_v60) (ix2 d o) = _
  after_results_simp
  rw [W6_arg11]
  exact wt_stage512x1024 _ d o

/-- The third stretch leaves the activation array as the preceding region left it. -/
theorem W7_v41_0 : W7 m ρ c (Proc.devRef .tc main_v41_0) = W6 m ρ c (Proc.devRef .tc main_v41_0) := by
  show StableHlo.after hostOps3 (W6 m ρ c) (Proc.devRef .tc main_v41_0) = _
  after_results_simp

end Cert.BN.Ker

end
-- ==== Proof.KChain2.lean ====
/-
  The kernel program through its third region and the host operations after it: the second layer.

  The third region applies the second layer to the first layer's activations, with their column statistics, and
  leaves the partial column sums of its own activations, from which the host forms the third layer's statistics.
-/
import proofs.«114695_j893353198455_2_alg».proof.Proof.Gen.KernelIdeal.Frame
import proofs.«114695_j893353198455_2_alg».proof.Proof.Spec
import proofs.«114695_j893353198455_2_alg».proof.Proof.KTables
import proofs.«114695_j893353198455_2_alg».proof.Proof.KSum
import proofs.«114695_j893353198455_2_alg».proof.Proof.KChain1
import proofs.«114695_j893353198455_2_alg».proof.Proof.KReg2
import proofs.«114695_j893353198455_2_alg».proof.Proof.KStretch3
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-- What the region's body computes at row `(s, y)`, feature `o`, is the layer's activation there. -/
theorem arr2_7_val (s : Fin 32) (y : Fin 2048) (o : Fin 512) :
    ((dat2 (V5 m ρ) c).arrAt 7 cfg2.N : S65536x512.Idx → EReal) (ix2 (row s y) o) = tY1 m c (s, y) o := by
  rw [arr2_7 (V5 m ρ) c s y o]
  simp only [V5_v21_0 m ρ c, V5_v34 m ρ c, V5_v35 m ρ c, W5_v36 m ρ c, W5_v37 m ρ c, W5_v38 m ρ c, W5_v40 m ρ c]
  rfl

/-- Leaving the region, the activation array at row `2048 s + y` is the layer's activation at `(s, y)`. -/
theorem W6_v41_0 (s : Fin 32) (y : Fin 2048) (o : Fin 512) :
    (W6 m ρ c (Proc.devRef .tc main_v41_0) : S65536x512.Idx → EReal) (ix2 (row s y) o) = tY1 m c (s, y) o :=
  (congrFun (W6_arr m ρ c 7) _).trans (arr2_7_val m ρ c s y o)

/-- The partial column sums of the activations: row 0 of tile `s`'s block. -/
theorem W6_v41_1 (s : Fin 32) (j : Fin 8) (o : Fin 512) :
    (W6 m ρ c (Proc.devRef .tc main_v41_1) : S256x512.Idx → EReal) (ix2 (prow s j) o)
      = if j.val = 0 then ∑ y : Fin 2048, tY1 m c (s, y) o else 0 :=
  (congrFun (W6_arr m ρ c 8) _).trans ((arr2_8 (V5 m ρ) c s j o).trans
    (if_congr Iff.rfl (Finset.sum_congr rfl fun y _ => arr2_7_val m ρ c s y o) rfl))

/-- The partial column sums of the squared activations. -/
theorem W6_v41_2 (s : Fin 32) (j : Fin 8) (o : Fin 512) :
    (W6 m ρ c (Proc.devRef .tc main_v41_2) : S256x512.Idx → EReal) (ix2 (prow s j) o)
      = if j.val = 0 then ∑ y : Fin 2048, tY1 m c (s, y) o * tY1 m c (s, y) o else 0 :=
  (congrFun (W6_arr m ρ c 9) _).trans ((arr2_9 (V5 m ρ) c s j o).trans
    (if_congr Iff.rfl (Finset.sum_congr rfl fun y _ => by rw [arr2_7_val m ρ c s y o]) rfl))

/-- Entering the fourth region, the mean vector is the second layer's column mean. -/
theorem V7_v54 (a : Fin 1) (d : Fin 512) :
    (V7 m ρ c main_v54 : S1x512.Idx → EReal) (ix2 a d) = Cert.BN.colMean (tY1 m c) d :=
  (W7_v54 m ρ c a d).trans
    (mean_of_partial (tY1 m c) (fun p => (W6 m ρ c (Proc.devRef .tc main_v41_1) : S256x512.Idx → EReal) (ix2 p d)) d
      (fun s j => W6_v41_1 m ρ c s j d))

/-- … and the variance vector its column variance by moments. -/
theorem V7_v55 (a : Fin 1) (d : Fin 512) :
    (V7 m ρ c main_v55 : S1x512.Idx → EReal) (ix2 a d) = Cert.BN.varM (tY1 m c) d :=
  (W7_v55 m ρ c a d).trans
    (var_of_partial (tY1 m c) (fun p => (W6 m ρ c (Proc.devRef .tc main_v41_1) : S256x512.Idx → EReal) (ix2 p d))
      (fun p => (W6 m ρ c (Proc.devRef .tc main_v41_2) : S256x512.Idx → EReal) (ix2 p d)) d
      (fun s j => W6_v41_1 m ρ c s j d) (fun s j => W6_v41_2 m ρ c s j d))

/-- The activation array is untouched by the host operations. -/
theorem V7_v41_0 (s : Fin 32) (y : Fin 2048) (d : Fin 512) :
    (V7 m ρ c main_v41_0 : S65536x512.Idx → EReal) (ix2 (row s y) d) = tY1 m c (s, y) d := by
  have e : V7 m ρ c main_v41_0 = W6 m ρ c (Proc.devRef .tc main_v41_0) := W7_v41_0 m ρ c
  rw [e]
  exact W6_v41_0 m ρ c s y d

end Cert.BN.Ker

end
-- ==== Proof.PayMax.lean ====
/-
  A maximum down the rows of a table, read at a column: a row-reduction by `max` started from `-∞` is the supremum
  over the rows of the column's entries.
-/
import proofs.«114695_j893353198455_2_alg».proof.Proof.PayCommon
import Mathlib.Data.Finset.Fold
import Mathlib.Data.Finset.Lattice.Fold

noncomputable section

namespace Cert.BN.Pay

open Cert.KernelIdeal Cert.KernelIdeal.Gen Idealize.ShloMosaic ValueIdx

/-- The f32 word of `-∞` denotes the bottom of the extended reals. -/
theorem ofBits_negInf_f32 : Ideal.ofBits .f32 0xFF800000#32 = ⊥ := by simp [Ideal.ofBits, Ideal.ieee]

/-- A fold of `max` from the bottom element over a finite set is the supremum over the set. -/
theorem fold_max_bot_eq_sup {ι : Type} (s : Finset ι) (f : ι → EReal) : s.fold max ⊥ f = s.sup f :=
  le_antisymm ((Finset.fold_max_le _).mpr ⟨bot_le, fun _ hx => Finset.le_sup hx⟩)
    (Finset.sup_le fun x hx => (Finset.le_fold_max _).mpr (Or.inr ⟨x, hx, le_rfl⟩))

/-- A maximum over the rows of an `R × D` table started from `-∞`, read at column `d`, is the supremum over `y` of the
    entries `(y, d)`. -/
theorem maxRows_apply {R D : ℕ} (src : FVec Ideal ⟨2, ![R, D]⟩ .f32)
    (h : Shape.Reduces ⟨2, ![R, D]⟩ [0] ⟨1, ![D]⟩) (hφ : FKind.Formats .f32)
    (hacc : (0xFF800000#32 : BitVec 32) = FKind.maximumf.neutral .f32 hφ) (d : Fin D) :
    multiReduction (F := Ideal) .maximumf [0] ⟨1, ![D]⟩ src 0xFF800000#32 h hφ hacc (ix1 d)
      = Finset.univ.sup fun y : Fin R => src (ix2 y d) := by
  refine (Ideal.multiReduction_maximumf_single src _ h hφ hacc (ix1 d)).trans ?_
  have hf : (src ∘ h.lift (ix1 d)) = fun y : Fin R => src (ix2 y d) :=
    funext fun y => congrArg src (funext fun c => Fin.ext (by
      match c with
      | ⟨0, _⟩ => rfl
      | ⟨1, _⟩ => rfl))
  show (Finset.univ : Finset (Fin R)).fold max (Ideal.ofBits .f32 0xFF800000#32) (src ∘ h.lift (ix1 d)) = _
  rw [hf, ofBits_negInf_f32]
  exact fold_max_bot_eq_sup _ _

/-- The same maximum kept as a `[1, 1, D]` block: the `[D]` vector viewed `[1, D]` and then `[1, 1, D]`, read at
    `(a, b, d)`. -/
theorem maxRowsKeep_apply {R D : ℕ} (src : FVec Ideal ⟨2, ![R, D]⟩ .f32)
    (h : Shape.Reduces ⟨2, ![R, D]⟩ [0] ⟨1, ![D]⟩) (hφ : FKind.Formats .f32)
    (hacc : (0xFF800000#32 : BitVec 32) = FKind.maximumf.neutral .f32 hφ)
    (hc : (⟨1, ![D]⟩ : Shape).ShapeCasts ⟨2, ![1, D]⟩) (hc' : (⟨2, ![1, D]⟩ : Shape).ShapeCasts ⟨3, ![1, 1, D]⟩)
    (a b : Fin 1) (d : Fin D) :
    shapeCast ⟨3, ![1, 1, D]⟩
        (shapeCast ⟨2, ![1, D]⟩ (multiReduction (F := Ideal) .maximumf [0] ⟨1, ![D]⟩ src 0xFF800000#32 h hφ hacc) hc) hc'
        (ix3 a b d)
      = Finset.univ.sup fun y : Fin R => src (ix2 y d) :=
  (shapeCast_ab_1ab_apply _ hc' a b d).trans ((shapeCast_a_1a_apply _ hc b d).trans (maxRows_apply src h hφ hacc d))

end Cert.BN.Pay

end
-- ==== Proof.Pay3.lean ====
/-
  REGION 3, the last batch-norm + linear layer followed by a maximum over the rows, read at an index: the body leaves in
  its `[1, 1, 1024]` output block, at feature `o`, the supremum over the rows of the layer's output.
-/
import proofs.«114695_j893353198455_2_alg».proof.Proof.PayNorm
import proofs.«114695_j893353198455_2_alg».proof.Proof.PayMax

noncomputable section

namespace Cert.BN.Pay

open Cert.KernelIdeal Cert.KernelIdeal.Gen Idealize.ShloMosaic ValueIdx

/-- What the body stores in the output block is its arithmetic applied to the input blocks themselves. -/
theorem out3_7_eq (x0 : Vec Ideal S2048x512 .f32) (x1 x2 x3 x4 : Vec Ideal S1x512 .f32)
    (x5 : Vec Ideal S512x1024 .bf16) (x6 : Vec Ideal S1x1024 .f32) :
    out3_7 (F := Ideal) x0 x1 x2 x3 x4 x5 x6 = k3_pay1 x0 x1 x2 x3 x4 x5 x6 := by
  unfold out3_7
  rw [View.canon_unit_zero hz3]
  simp only [View.ld_unit_zero (S := S2048x512) hz2, View.ld_unit_zero (S := S1x512) hz2,
    View.ld_unit_zero (S := S512x1024) hz2, View.ld_unit_zero (S := S1x1024) hz2]

/-- The block's entry at feature `o`: the supremum over the rows `y` of the normalised row times the weight table, plus
    the shift. -/
theorem out3_7_apply (x0 : Vec Ideal S2048x512 .f32) (x1 x2 x3 x4 : Vec Ideal S1x512 .f32)
    (x5 : Vec Ideal S512x1024 .bf16) (x6 : Vec Ideal S1x1024 .f32) (a b : Fin 1) (o : Fin 1024) :
    out3_7 (F := Ideal) x0 x1 x2 x3 x4 x5 x6 (ix3 a b o)
      = Finset.univ.sup fun y : Fin 2048 =>
          (∑ d : Fin 512, ((x0 (ix2 y d) - x1 (ix2 0 d)) * Ideal.rsqrt (x2 (ix2 0 d) + eps) * x3 (ix2 0 d) + x4 (ix2 0 d))
              * x5 (ix2 d o)) + x6 (ix2 0 o) := by
  rw [out3_7_eq]
  unfold k3_pay1
  refine (maxRowsKeep_apply _ reduces_S2048x1024_S1024 _ _ shapeCasts_S1024_S1x1024 shapeCasts_S1x1024_S1x1x1024
    a b o).trans (congrArg Finset.univ.sup (funext fun y => ?_))
  exact affineNorm_apply x0 x1 x2 x3 x4 x5 x6 _ _ _ _ _ _ dot_S2048x512_S512x1024_S2048x1024_1_0_0_1_n_n
    (Idealize.PlainDot.eq_plain _ rfl rfl rfl rfl rfl rfl) _ y o

end Cert.BN.Pay

end
-- ==== Proof.KReg3.lean ====
/-
  REGION 3 (the last batch-norm + linear layer and the maximum over each tile's rows), the array it leaves read at an
  index.

  The grid has 32 points. At point t the body is given rows 2048·t … 2048·t + 2047 of the 65536-row activation array and
  the whole of the six parameter arrays, and writes block t of the `[32, 1, 1024]` output: at feature o, the supremum
  over the tile's 2048 rows of the layer's output. Distinct points write distinct blocks, so after the region each block
  of the output holds exactly what its own point wrote. The seven input arrays are only read.
-/
import proofs.«114695_j893353198455_2_alg».proof.Proof.KIdx
import proofs.«114695_j893353198455_2_alg».proof.Proof.Pay3

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The block index of each window at point t: (t, 0) for the row-blocked input, (0, 0) for the whole arrays,
    (t, 0, 0) for the output -/

theorem idx3_0 : ∀ t : Fin cfg3.N, win3_0.index t (0 : Fin 2) = t.val ∧ win3_0.index t (1 : Fin 2) = 0 :=
  (by decide +kernel : ∀ t : Fin grid3.N, _)

theorem idx3_1 : ∀ t : Fin cfg3.N, win3_1.index t (0 : Fin 2) = 0 ∧ win3_1.index t (1 : Fin 2) = 0 :=
  (by decide +kernel : ∀ t : Fin grid3.N, _)

theorem idx3_2 : ∀ t : Fin cfg3.N, win3_2.index t (0 : Fin 2) = 0 ∧ win3_2.index t (1 : Fin 2) = 0 :=
  (by decide +kernel : ∀ t : Fin grid3.N, _)

theorem idx3_3 : ∀ t : Fin cfg3.N, win3_3.index t (0 : Fin 2) = 0 ∧ win3_3.index t (1 : Fin 2) = 0 :=
  (by decide +kernel : ∀ t : Fin grid3.N, _)

theorem idx3_4 : ∀ t : Fin cfg3.N, win3_4.index t (0 : Fin 2) = 0 ∧ win3_4.index t (1 : Fin 2) = 0 :=
  (by decide +kernel : ∀ t : Fin grid3.N, _)

theorem idx3_5 : ∀ t : Fin cfg3.N, win3_5.index t (0 : Fin 2) = 0 ∧ win3_5.index t (1 : Fin 2) = 0 :=
  (by decide +kernel : ∀ t : Fin grid3.N, _)

theorem idx3_6 : ∀ t : Fin cfg3.N, win3_6.index t (0 : Fin 2) = 0 ∧ win3_6.index t (1 : Fin 2) = 0 :=
  (by decide +kernel : ∀ t : Fin grid3.N, _)

theorem idx3_7 : ∀ t : Fin cfg3.N, win3_7.index t (0 : Fin 3) = t.val ∧ win3_7.index t (1 : Fin 3) = 0
    ∧ win3_7.index t (2 : Fin 3) = 0 :=
  (by decide +kernel : ∀ t : Fin grid3.N, _)

/-! ## Where a block's entry sits in its array -/

/-- Entry (y, d) of the activation block at point t is entry (2048·t + y, d) of the activation array. -/
theorem emb3_0 (t : Fin cfg3.N) (y : Fin 2048) (d : Fin 512) :
    ((cfg3.win 0).blk t).view.emb (ix2 y d) = ix2 (row (pt3 t) y) d := by
  funext a; apply Fin.ext
  match a with
  | ⟨0, _⟩ => show win3_0.index t (0 : Fin 2) * 2048 + 1 * y.val = t.val * 2048 + y.val; rw [(idx3_0 t).1]; omega
  | ⟨1, _⟩ => show win3_0.index t (1 : Fin 2) * 512 + 1 * d.val = d.val; rw [(idx3_0 t).2]; omega

/-- The activation block at point t, read at (y, d), is the activation array at (2048·t + y, d). -/
theorem iblk3_0_apply (c : Dev nD) (t : Fin cfg3.N) (y : Fin 2048) (d : Fin 512) :
    iblk3 V c 0 t (ix2 y d) = V c main_v41_0 (ix2 (row (pt3 t) y) d) := by
  unfold iblk3
  rw [View.read_apply]
  exact (cast_eq _ _).trans (congrArg (V c main_v41_0) (emb3_0 t y d))

/-- Window 1's block is its whole array: entry (u, d) of the block is entry (u, d) of the array. -/
theorem emb3_1 (t : Fin cfg3.N) (u : Fin 1) (d : Fin 512) :
    ((cfg3.win 1).blk t).view.emb (ix2 u d) = ix2 u d := by
  funext a; apply Fin.ext
  match a with
  | ⟨0, _⟩ => show win3_1.index t (0 : Fin 2) * 1 + 1 * u.val = u.val; rw [(idx3_1 t).1]; omega
  | ⟨1, _⟩ => show win3_1.index t (1 : Fin 2) * 512 + 1 * d.val = d.val; rw [(idx3_1 t).2]; omega

/-- Window 1's block at any point, read at (u, d), is its array there. -/
theorem iblk3_1_apply (c : Dev nD) (t : Fin cfg3.N) (u : Fin 1) (d : Fin 512) :
    iblk3 V c 1 t (ix2 u d) = V c main_v54 (ix2 u d) := by
  unfold iblk3
  rw [View.read_apply]
  exact (cast_eq _ _).trans (congrArg (V c main_v54) (emb3_1 t u d))

/-- Window 2's block is its whole array: entry (u, d) of the block is entry (u, d) of the array. -/
theorem emb3_2 (t : Fin cfg3.N) (u : Fin 1) (d : Fin 512) :
    ((cfg3.win 2).blk t).view.emb (ix2 u d) = ix2 u d := by
  funext a; apply Fin.ext
  match a with
  | ⟨0, _⟩ => show win3_2.index t (0 : Fin 2) * 1 + 1 * u.val = u.val; rw [(idx3_2 t).1]; omega
  | ⟨1, _⟩ => show win3_2.index t (1 : Fin 2) * 512 + 1 * d.val = d.val; rw [(idx3_2 t).2]; omega

/-- Window 2's block at any point, read at (u, d), is its array there. -/
theorem iblk3_2_apply (c : Dev nD) (t : Fin cfg3.N) (u : Fin 1) (d : Fin 512) :
    iblk3 V c 2 t (ix2 u d) = V c main_v55 (ix2 u d) := by
  unfold iblk3
  rw [View.read_apply]
  exact (cast_eq _ _).trans (congrArg (V c main_v55) (emb3_2 t u d))

/-- Window 3's block is its whole array: entry (u, d) of the block is entry (u, d) of the array. -/
theorem emb3_3 (t : Fin cfg3.N) (u : Fin 1) (d : Fin 512) :
    ((cfg3.win 3).blk t).view.emb (ix2 u d) = ix2 u d := by
  funext a; apply Fin.ext
  match a with
  | ⟨0, _⟩ => show win3_3.index t (0 : Fin 2) * 1 + 1 * u.val = u.val; rw [(idx3_3 t).1]; omega
  | ⟨1, _⟩ => show win3_3.index t (1 : Fin 2) * 512 + 1 * d.val = d.val; rw [(idx3_3 t).2]; omega

/-- Window 3's block at any point, read at (u, d), is its array there. -/
theorem iblk3_3_apply (c : Dev nD) (t : Fin cfg3.N) (u : Fin 1) (d : Fin 512) :
    iblk3 V c 3 t (ix2 u d) = V c main_v56 (ix2 u d) := by
  unfold iblk3
  rw [View.read_apply]
  exact (cast_eq _ _).trans (congrArg (V c main_v56) (emb3_3 t u d))

/-- Window 4's block is its whole array: entry (u, d) of the block is entry (u, d) of the array. -/
theorem emb3_4 (t : Fin cfg3.N) (u : Fin 1) (d : Fin 512) :
    ((cfg3.win 4).blk t).view.emb (ix2 u d) = ix2 u d := by
  funext a; apply Fin.ext
  match a with
  | ⟨0, _⟩ => show win3_4.index t (0 : Fin 2) * 1 + 1 * u.val = u.val; rw [(idx3_4 t).1]; omega
  | ⟨1, _⟩ => show win3_4.index t (1 : Fin 2) * 512 + 1 * d.val = d.val; rw [(idx3_4 t).2]; omega

/-- Window 4's block at any point, read at (u, d), is its array there. -/
theorem iblk3_4_apply (c : Dev nD) (t : Fin cfg3.N) (u : Fin 1) (d : Fin 512) :
    iblk3 V c 4 t (ix2 u d) = V c main_v57 (ix2 u d) := by
  unfold iblk3
  rw [View.read_apply]
  exact (cast_eq _ _).trans (congrArg (V c main_v57) (emb3_4 t u d))

/-- Window 5's block is its whole array: entry (d, o) of the block is entry (d, o) of the array. -/
theorem emb3_5 (t : Fin cfg3.N) (d : Fin 512) (o : Fin 1024) :
    ((cfg3.win 5).blk t).view.emb (ix2 d o) = ix2 d o := by
  funext a; apply Fin.ext
  match a with
  | ⟨0, _⟩ => show win3_5.index t (0 : Fin 2) * 512 + 1 * d.val = d.val; rw [(idx3_5 t).1]; omega
  | ⟨1, _⟩ => show win3_5.index t (1 : Fin 2) * 1024 + 1 * o.val = o.val; rw [(idx3_5 t).2]; omega

/-- Window 5's block at any point, read at (d, o), is its array there. -/
theorem iblk3_5_apply (c : Dev nD) (t : Fin cfg3.N) (d : Fin 512) (o : Fin 1024) :
    iblk3 V c 5 t (ix2 d o) = V c main_v60 (ix2 d o) := by
  unfold iblk3
  rw [View.read_apply]
  exact (cast_eq _ _).trans (congrArg (V c main_v60) (emb3_5 t d o))

/-- Window 6's block is its whole array: entry (u, o) of the block is entry (u, o) of the array. -/
theorem emb3_6 (t : Fin cfg3.N) (u : Fin 1) (o : Fin 1024) :
    ((cfg3.win 6).blk t).view.emb (ix2 u o) = ix2 u o := by
  funext a; apply Fin.ext
  match a with
  | ⟨0, _⟩ => show win3_6.index t (0 : Fin 2) * 1 + 1 * u.val = u.val; rw [(idx3_6 t).1]; omega
  | ⟨1, _⟩ => show win3_6.index t (1 : Fin 2) * 1024 + 1 * o.val = o.val; rw [(idx3_6 t).2]; omega

/-- Window 6's block at any point, read at (u, o), is its array there. -/
theorem iblk3_6_apply (c : Dev nD) (t : Fin cfg3.N) (u : Fin 1) (o : Fin 1024) :
    iblk3 V c 6 t (ix2 u o) = V c main_v58 (ix2 u o) := by
  unfold iblk3
  rw [View.read_apply]
  exact (cast_eq _ _).trans (congrArg (V c main_v58) (emb3_6 t u o))

/-- Entry (a, b, o) of the output's block at point t is entry (t, b, o) of the output array. -/
theorem emb3_7 (t : Fin cfg3.N) (a b : Fin 1) (o : Fin 1024) :
    ((cfg3.win 7).blk t).view.emb (ix3 a b o) = ix3 (pt3 t) b o := by
  funext x; apply Fin.ext
  match x with
  | ⟨0, _⟩ => show win3_7.index t (0 : Fin 3) * 1 + 1 * a.val = t.val; rw [(idx3_7 t).1]; omega
  | ⟨1, _⟩ => show win3_7.index t (1 : Fin 3) * 1 + 1 * b.val = b.val; rw [(idx3_7 t).2.1]; omega
  | ⟨2, _⟩ => show win3_7.index t (2 : Fin 3) * 1024 + 1 * o.val = o.val; rw [(idx3_7 t).2.2]; omega

/-! ## Distinct points write distinct blocks -/

theorem idx_inj3_7 (t t' : Fin cfg3.N) (h : win3_7.index t = win3_7.index t') : t = t' :=
  Fin.ext (by have e := congrFun h (0 : Fin 3); rwa [(idx3_7 t).1, (idx3_7 t').1] at e)

theorem disjoint3_7 : ∀ t t' : Fin cfg3.N, (cfg3.win 7).flush t = true → (cfg3.win 7).flush t' = true → t ≠ t' →
    Disjoint ((cfg3.win 7).blk t).view.set ((cfg3.win 7).blk t').view.set :=
  fun t t' _ _ hne => (cfg3.win 7).disjoint_blk fun h => hne (idx_inj3_7 t t' h)

/-! ## The output array, block by block -/

/-- After the region, the output array at (t, b, o) is what point t's body left at (a, b, o). -/
theorem arr3_7_pt (c : Dev nD) (t : Fin cfg3.N) (a b : Fin 1) (o : Fin 1024) :
    @Eq EReal ((dat3 V c).arrAt 7 cfg3.N (ix3 (pt3 t) b o))
      (out3_7 (F := Ideal) (iblk3 V c 0 t) (iblk3 V c 1 t) (iblk3 V c 2 t) (iblk3 V c 3 t) (iblk3 V c 4 t)
          (iblk3 V c 5 t) (iblk3 V c 6 t) (ix3 a b o)) := by
  have h := (dat3 V c).arrAt_emb_eq_flushed 7 disjoint3_7 t (flush3_7 t) (ix3 a b o)
  rw [cast_eq] at h
  refine (congrArg ((dat3 V c).arrAt 7 cfg3.N) (emb3_7 t a b o)).symm.trans (h.trans ?_)
  show (dat3 V c).after 7 t (ix3 a b o) = _
  rw [after3_7]

/-! ## The output array in closed form -/

/-- The output at tile s, feature o, is the supremum over the tile's 2048 rows of the normalised row times the weight
    table, plus the shift — stated with the seven input arrays named as tables of extended reals (`A0` the activations,
    `A1 … A4` mean, variance, scale and shift, `A5` the weights, `A6` the layer's shift). -/
theorem arr3_7_of (c : Dev nD) (s : Fin 32) (a : Fin 1) (o : Fin 1024)
    (A0 : S65536x512.Idx → EReal) (h0 : A0 = V c main_v41_0) (A1 : S1x512.Idx → EReal) (h1 : A1 = V c main_v54)
    (A2 : S1x512.Idx → EReal) (h2 : A2 = V c main_v55) (A3 : S1x512.Idx → EReal) (h3 : A3 = V c main_v56)
    (A4 : S1x512.Idx → EReal) (h4 : A4 = V c main_v57) (A5 : S512x1024.Idx → EReal) (h5 : A5 = V c main_v60)
    (A6 : S1x1024.Idx → EReal) (h6 : A6 = V c main_v58) :
    @Eq EReal ((dat3 V c).arrAt 7 cfg3.N (ix3 s a o))
      (Finset.univ.sup fun y : Fin 2048 =>
          (∑ d : Fin 512, ((A0 (ix2 (row s y) d) - A1 (ix2 0 d)) * Ideal.rsqrt (A2 (ix2 0 d) + eps) * A3 (ix2 0 d) + A4 (ix2 0 d))
              * A5 (ix2 d o)) + A6 (ix2 0 o)) := by
  subst h0 h1 h2 h3 h4 h5 h6
  refine (arr3_7_pt V c (tp3 s) 0 a o).trans ((Pay.out3_7_apply _ _ _ _ _ _ _ 0 a o).trans
    (congrArg Finset.univ.sup (funext fun y => ?_)))
  refine congrArg₂ (· + ·) (Finset.sum_congr rfl fun d _ => ?_) (iblk3_6_apply V c (tp3 s) 0 o)
  exact congrArg₂ (· * ·)
    (congrArg₂ (· + ·)
      (congrArg₂ (· * ·)
        (congrArg₂ (· * ·)
          (congrArg₂ (· - ·) (iblk3_0_apply V c (tp3 s) y d) (iblk3_1_apply V c (tp3 s) 0 d))
          (congrArg (fun v : EReal => Ideal.rsqrt (v + eps)) (iblk3_2_apply V c (tp3 s) 0 d)))
        (iblk3_3_apply V c (tp3 s) 0 d))
      (iblk3_4_apply V c (tp3 s) 0 d))
    (iblk3_5_apply V c (tp3 s) d o)

/-- The same with the arrays the region found in place of the names: the output at tile s, feature o, is the supremum
    over the tile's 2048 rows `y` of `(∑ d, ((x (2048·s + y, d) - mean d) · rsqrt (variance d + ε) · g d + b d) · W (d, o)) + c o`. -/
theorem arr3_7 (c : Dev nD) (s : Fin 32) (a : Fin 1) (o : Fin 1024) :
    type_of% (arr3_7_of V c s a o _ rfl _ rfl _ rfl _ rfl _ rfl _ rfl _ rfl) :=
  arr3_7_of V c s a o _ rfl _ rfl _ rfl _ rfl _ rfl _ rfl _ rfl

/-! ## The input arrays are only read -/

/-- An input window's array after the region is as the region found it. -/
theorem kept3 (c : Dev nD) (w : Fin cfg3.W) (hw : (cfg3.win w).isOut = false) :
    (dat3 V c).arrAt w cfg3.N = V c (Pipeline.arrRef spec3 w) :=
  ((dat3 V c).arrAt_in w hw _).trans (A_eq3 V c w)

theorem kept3_0 (c : Dev nD) : (dat3 V c).arrAt 0 cfg3.N = V c main_v41_0 := kept3 V c 0 rfl
theorem kept3_1 (c : Dev nD) : (dat3 V c).arrAt 1 cfg3.N = V c main_v54 := kept3 V c 1 rfl
theorem kept3_2 (c : Dev nD) : (dat3 V c).arrAt 2 cfg3.N = V c main_v55 := kept3 V c 2 rfl
theorem kept3_3 (c : Dev nD) : (dat3 V c).arrAt 3 cfg3.N = V c main_v56 := kept3 V c 3 rfl
theorem kept3_4 (c : Dev nD) : (dat3 V c).arrAt 4 cfg3.N = V c main_v57 := kept3 V c 4 rfl
theorem kept3_5 (c : Dev nD) : (dat3 V c).arrAt 5 cfg3.N = V c main_v60 := kept3 V c 5 rfl
theorem kept3_6 (c : Dev nD) : (dat3 V c).arrAt 6 cfg3.N = V c main_v58 := kept3 V c 6 rfl

end Cert.BN.Ker

end
-- ==== Proof.KStretch4.lean ====
/-
  The last stretch of host operations of the kernel program, read at an index.

  Its one operation drops the unit middle axis of the last region's [32, 1, 1024] result.
-/
import proofs.«114695_j893353198455_2_alg».proof.Proof.KHost512

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-- The program's result at (s, o): the last region's array at (s, 0, o). -/
theorem W9_v62 (s : Fin 32) (o : Fin 1024) :
    (W9 m ρ c (Proc.devRef .tc main_v62) : S32x1024.Idx → EReal) (ix2 s o) = (W8 m ρ c (Proc.devRef .tc main_v61) : S32x1x1024.Idx → EReal) (ix3 s (0 : Fin 1) o) := by
  show StableHlo.after hostOps4 (W8 m ρ c) (Proc.devRef .tc main_v62) (ix2 s o) = _
  after_results_simp
  exact out_stage _ s o

end Cert.BN.Ker

end
-- ==== Proof.KChain3.lean ====
/-
  The kernel program's last region and its result.

  The fourth region applies the third layer to the second layer's activations and keeps, for each set, the maximum
  over the set's 2048 members; the last host operation drops the unit axis.  Put together, the result buffer holds
  the maximum over each set of the three layers applied to the input table, every variance taken by moments.
-/
import proofs.«114695_j893353198455_2_alg».proof.Proof.Gen.KernelIdeal.Frame
import proofs.«114695_j893353198455_2_alg».proof.Proof.Spec
import proofs.«114695_j893353198455_2_alg».proof.Proof.KTables
import proofs.«114695_j893353198455_2_alg».proof.Proof.KChain2
import proofs.«114695_j893353198455_2_alg».proof.Proof.KReg3
import proofs.«114695_j893353198455_2_alg».proof.Proof.KStretch4
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.BN.Ker

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg) (c : Dev nD)

/-- What the last region leaves at set `s`, feature `o`. -/
theorem arr3_7_val (s : Fin 32) (a : Fin 1) (o : Fin 1024) :
    ((dat3 (V7 m ρ) c).arrAt 7 cfg3.N : S32x1x1024.Idx → EReal) (ix3 s a o)
      = Cert.BN.setMax (Cert.BN.layerM (tY1 m c) (tg2 m c) (tb2 m c) (tW2 m c) (tc2 m c)) s o := by
  rw [arr3_7 (V7 m ρ) c s a o]
  simp only [V7_v41_0 m ρ c, V7_v54 m ρ c, V7_v55 m ρ c, W7_v56 m ρ c, W7_v57 m ρ c, W7_v58 m ρ c, W7_v60 m ρ c]
  rfl

/-- THE KERNEL'S VALUE: the result buffer at `(s, o)`. -/
theorem kernel_value (m : (ℓ : Loc nD τ sig) → Buf (Elt Ideal) ℓ) (ρ : Dev nD → PrngReg) (c : Dev nD) (s : Fin 32) (o : Fin 1024) :
    W9 m ρ c (Proc.devRef .tc main_v62) (ix2 s o)
      = Cert.BN.setMax (Cert.BN.netM (ι := Fin 32 × Fin 2048)
        (fun r d => m ((c.tc : Thread nD τ).loc main_arg0) (ix3 r.1 r.2 d))
        (fun d => m ((c.tc : Thread nD τ).loc main_arg1) (ix1 d))
        (fun d => m ((c.tc : Thread nD τ).loc main_arg2) (ix1 d))
        (fun o d => m ((c.tc : Thread nD τ).loc main_arg3) (ix2 o d))
        (fun o => m ((c.tc : Thread nD τ).loc main_arg4) (ix1 o))
        (fun d => m ((c.tc : Thread nD τ).loc main_arg5) (ix1 d))
        (fun d => m ((c.tc : Thread nD τ).loc main_arg6) (ix1 d))
        (fun o d => m ((c.tc : Thread nD τ).loc main_arg7) (ix2 o d))
        (fun o => m ((c.tc : Thread nD τ).loc main_arg8) (ix1 o))
        (fun d => m ((c.tc : Thread nD τ).loc main_arg9) (ix1 d))
        (fun d => m ((c.tc : Thread nD τ).loc main_arg10) (ix1 d))
        (fun o d => m ((c.tc : Thread nD τ).loc main_arg11) (ix2 o d))
        (fun o => m ((c.tc : Thread nD τ).loc main_arg12) (ix1 o))) s o := by
  refine (W9_v62 m ρ c s o).trans ((congrFun (W8_arr m ρ c 7) _).trans ((arr3_7_val m ρ c s 0 o).trans ?_))
  rfl

end Cert.BN.Ker

end
-- ==== Proof.lean ====
/-
  The certificate: a three-layer "batch-norm + linear" network with a maximum over each set.

  Both programs compute, for 32 sets of 2048 members with 256 features each, three times: centre every column by its
  mean over all 65536 rows, scale by 1/√(variance + ε), by g, shift by b, multiply by Wᵀ, add c (the first two layers
  floored at zero); then the maximum over each set's members.  The reference takes every column variance as the mean
  of the squared deviations.  The kernel takes it by moments, max (mean of squares − mean², 0), from partial column sums
  that each of its four pipelined regions leaves for the next; on tables of real numbers — which the finite inputs
  are, and which every layer maps to tables of real numbers — the two variances agree, and so do the results.

  The kernel's run and the value of its result buffer are in KRun / KChain0 … KChain3 (over the regions' arrays,
  KReg0 … KReg3, the bodies' arithmetic, Pay0 … Pay3, and the host operations, KStretch0 … KStretch4); the reference's
  value is in RefNet; the algebra in AlgebraVar / AlgebraNet; the inputs' finiteness in FiniteInputs.
-/
import proofs.«114695_j893353198455_2_alg».proof.Defs
import proofs.«114695_j893353198455_2_alg».proof.Proof.Gen.Kernel
import proofs.«114695_j893353198455_2_alg».proof.Proof.Gen.Kernel.Skeleton
import proofs.«114695_j893353198455_2_alg».proof.Proof.Gen.Kernel.Launch
import proofs.«114695_j893353198455_2_alg».proof.Proof.Gen.Kernel.Points
import proofs.«114695_j893353198455_2_alg».proof.Proof.Gen.Kernel.Frame
import proofs.«114695_j893353198455_2_alg».proof.Proof.Gen.KernelIdeal
import proofs.«114695_j893353198455_2_alg».proof.Proof.Gen.KernelIdeal.Skeleton
import proofs.«114695_j893353198455_2_alg».proof.Proof.Gen.KernelIdeal.Launch
import proofs.«114695_j893353198455_2_alg».proof.Proof.Gen.KernelIdeal.Points
import proofs.«114695_j893353198455_2_alg».proof.Proof.Gen.KernelIdeal.Frame
import proofs.«114695_j893353198455_2_alg».proof.Proof.Gen.ReferenceIdeal
import proofs.«114695_j893353198455_2_alg».proof.Proof.Gen.ReferenceIdeal.Run
import proofs.«114695_j893353198455_2_alg».proof.Proof.Gen.ReferenceIdeal.Read
import proofs.«114695_j893353198455_2_alg».proof.Proof.Gen.Pre_finite_inputs
import proofs.«114695_j893353198455_2_alg».proof.Proof.Spec
import proofs.«114695_j893353198455_2_alg».proof.Proof.AlgebraNet
import proofs.«114695_j893353198455_2_alg».proof.Proof.FiniteInputs
import proofs.«114695_j893353198455_2_alg».proof.Proof.RefNet
import proofs.«114695_j893353198455_2_alg».proof.Proof.KRun
import proofs.«114695_j893353198455_2_alg».proof.Proof.KChain3
import Idealize.ShloMosaic.Adequacy
import Idealize.ShloMosaic.Init
import Idealize.ShloMosaic.Lib.ValueIdx

noncomputable section

namespace Cert.Proof

open Idealize.ShloMosaic Idealize.ShloMosaic.TcCoe Idealize.SL.Sem Idealize.ShloMosaic.ValueIdx

/-- The three layers and the maximum over each set, as one function of the thirteen argument arrays. -/
def result (a0 : Cert.KernelIdeal.S32x2048x256.Idx → EReal) (a1 a2 : Cert.KernelIdeal.S256.Idx → EReal)
    (a3 : Cert.KernelIdeal.S512x256.Idx → EReal) (a4 a5 a6 : Cert.KernelIdeal.S512.Idx → EReal)
    (a7 : Cert.KernelIdeal.S512x512.Idx → EReal) (a8 a9 a10 : Cert.KernelIdeal.S512.Idx → EReal)
    (a11 : Cert.KernelIdeal.S1024x512.Idx → EReal) (a12 : Cert.KernelIdeal.S1024.Idx → EReal) :
    Cert.KernelIdeal.S32x1024.Idx → EReal := fun i =>
  Cert.BN.setMax (Cert.BN.netC (ι := Fin 32 × Fin 2048)
    (fun r d => a0 (ix3 r.1 r.2 d)) (fun d => a1 (ix1 d)) (fun d => a2 (ix1 d)) (fun o d => a3 (ix2 o d)) (fun o => a4 (ix1 o))
    (fun d => a5 (ix1 d)) (fun d => a6 (ix1 d)) (fun o d => a7 (ix2 o d)) (fun o => a8 (ix1 o))
    (fun d => a9 (ix1 d)) (fun d => a10 (ix1 d)) (fun o d => a11 (ix2 o d)) (fun o => a12 (ix1 o))) (i 0) (i 1)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under finite inputs the kernel's result array is `result` of the arguments: the kernel's own value uses the
    variance by moments, which on real tables is the centred variance. -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W9 m ρ c (Proc.devRef .tc Cert.KernelIdeal.main_v62)
      = result (m ((c.tc : Thread _ _).loc Cert.KernelIdeal.main_arg0)) (m ((c.tc : Thread _ _).loc Cert.KernelIdeal.main_arg1))
          (m ((c.tc : Thread _ _).loc Cert.KernelIdeal.main_arg2)) (m ((c.tc : Thread _ _).loc Cert.KernelIdeal.main_arg3))
          (m ((c.tc : Thread _ _).loc Cert.KernelIdeal.main_arg4)) (m ((c.tc : Thread _ _).loc Cert.KernelIdeal.main_arg5))
          (m ((c.tc : Thread _ _).loc Cert.KernelIdeal.main_arg6)) (m ((c.tc : Thread _ _).loc Cert.KernelIdeal.main_arg7))
          (m ((c.tc : Thread _ _).loc Cert.KernelIdeal.main_arg8)) (m ((c.tc : Thread _ _).loc Cert.KernelIdeal.main_arg9))
          (m ((c.tc : Thread _ _).loc Cert.KernelIdeal.main_arg10)) (m ((c.tc : Thread _ _).loc Cert.KernelIdeal.main_arg11))
          (m ((c.tc : Thread _ _).loc Cert.KernelIdeal.main_arg12)) := by
  obtain ⟨h0, h1, h2, h3, h4, h5, h6, h7, h8, h9, h10, h11, h12⟩ := Cert.BN.real_of_finite_inputs _ _ _ _ _ _ _ _ _ _ _ _ _ (hpre c)
  funext i
  obtain ⟨p, q, rfl⟩ : ∃ (p : Fin 32) (q : Fin 1024), i = ix2 p q := ⟨i 0, i 1, eq_ix2 i⟩
  rw [Cert.BN.Ker.kernel_value m ρ c p q]
  unfold result
  rw [Cert.BN.netM_eq_netC (by rw [Fintype.card_prod, Fintype.card_fin, Fintype.card_fin])
    _ _ _ _ _ _ _ _ _ _ _ _ _
    (fun r d => h0 _) (fun d => h1 _) (fun d => h2 _) (fun o d => h3 _) (fun o => h4 _)
    (fun d => h5 _) (fun d => h6 _) (fun o d => h7 _) (fun o => h8 _)
    (fun d => h9 _) (fun d => h10 _) (fun o d => h11 _) (fun o => h12 _)]

/-- From memories agreeing on the arguments both programs end with `result` of the arguments in their result
    buffers. -/
theorem algebraic : Cert.algebraic_KernelIdeal_ReferenceIdeal := by
  intro m ρ m' ρ' hpre hagree
  refine ⟨fun c => result (m ((c.tc : Thread _ _).loc Cert.KernelIdeal.main_arg0)) (m ((c.tc : Thread _ _).loc Cert.KernelIdeal.main_arg1))
          (m ((c.tc : Thread _ _).loc Cert.KernelIdeal.main_arg2)) (m ((c.tc : Thread _ _).loc Cert.KernelIdeal.main_arg3))
          (m ((c.tc : Thread _ _).loc Cert.KernelIdeal.main_arg4)) (m ((c.tc : Thread _ _).loc Cert.KernelIdeal.main_arg5))
          (m ((c.tc : Thread _ _).loc Cert.KernelIdeal.main_arg6)) (m ((c.tc : Thread _ _).loc Cert.KernelIdeal.main_arg7))
          (m ((c.tc : Thread _ _).loc Cert.KernelIdeal.main_arg8)) (m ((c.tc : Thread _ _).loc Cert.KernelIdeal.main_arg9))
          (m ((c.tc : Thread _ _).loc Cert.KernelIdeal.main_arg10)) (m ((c.tc : Thread _ _).loc Cert.KernelIdeal.main_arg11))
          (m ((c.tc : Thread _ _).loc Cert.KernelIdeal.main_arg12)), ?_, ?_⟩
  · exact (θ_run Cert.KernelIdeal.defs _ _).mono (fun r h c => ⟨(h c).1.trans (kernel_result m ρ hpre c), (h c).2⟩)
      (Cert.BN.Ker.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v89_eq, e0, e1, e2, e3, e4, e5, e6, e7, e8, e9, e10, e11, e12]
    funext i
    obtain ⟨p, q, rfl⟩ : ∃ (p : Fin 32) (q : Fin 1024), i = ix2 p q := ⟨i 0, i 1, eq_ix2 i⟩
    exact Cert.BN.Ref.ref_eq _ _ _ _ _ _ _ _ _ _ _ _ _ p q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
